-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x16 .f32) (main_arg12 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg11
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x16 .f32) (main_arg12 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1000000 32) (main_arg2 : IVec S1000000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1x128 : Shape := ⟨2, ![1, 128]⟩
abbrev S1x16 : Shape := ⟨2, ![1, 16]⟩
abbrev S5000x128 : Shape := ⟨2, ![5000, 128]⟩
abbrev S5000x1 : Shape := ⟨2, ![5000, 1]⟩
abbrev S1000000x128 : Shape := ⟨2, ![1000000, 128]⟩
abbrev S100000x16 : Shape := ⟨2, ![100000, 16]⟩
abbrev S5000x16 : Shape := ⟨2, ![5000, 16]⟩

abbrev nBuf : Space → Nat
  | .hbm => 99
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x16, .f32⟩
  | .hbm, ⟨12, _⟩ => ⟨S16, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x16, .f32⟩
  | .hbm, ⟨48, _⟩ => ⟨S100000x128, .bf16⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x128, .bf16⟩
  | .hbm, ⟨58, _⟩ => ⟨S1000000x128, .f32⟩
  | .hbm, ⟨59, _⟩ => ⟨S_, .f32⟩
  | .hbm, ⟨60, _⟩ => ⟨S100000x128, .f32⟩
  | .hbm, ⟨61, _⟩ => ⟨S1000000x1, .i32⟩
  | .hbm, ⟨62, _⟩ => ⟨S100000x128, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .bf16⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S1000000x1, .i32⟩
  | .hbm, ⟨82, _⟩ => ⟨S1000000x128, .bf16⟩
  | .hbm, ⟨83, _⟩ => ⟨S1000000x128, .f32⟩
  | .hbm, ⟨84, _⟩ => ⟨S_, .f32⟩
  | .hbm, ⟨85, _⟩ => ⟨S100000x128, .f32⟩
  | .hbm, ⟨86, _⟩ => ⟨S1000000x1, .i32⟩
  | .hbm, ⟨87, _⟩ => ⟨S100000x128, .f32⟩
  | .hbm, ⟨88, _⟩ => ⟨S1x128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x1, .f32⟩
  | .local _ .vmem, ⟨24, _⟩ => ⟨S5000x1, .f32⟩
  | .local _ .vmem, ⟨25, _⟩ => ⟨S128x128, .f32⟩
  | .local _ .vmem, ⟨26, _⟩ => ⟨S5000x128, .bf16⟩
  | .local _ .vmem, ⟨27, _⟩ => ⟨S5000x128, .bf16⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x16, .f32⟩
  | .local _ .vmem, ⟨45, _⟩ => ⟨S1x16, .f32⟩
  | .local _ .vmem, ⟨46, _⟩ => ⟨S5000x16, .f32⟩
  | .local _ .vmem, ⟨47, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v12 : Ref sig .tc := ⟨.hbm, 36, rfl⟩
abbrev main_cst_6 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_v43 : Ref sig .tc := ⟨.hbm, 75, rfl⟩
abbrev main_v44 : Ref sig .tc := ⟨.hbm, 76, rfl⟩
abbrev main_c_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54_0 : Ref sig .tc := ⟨.hbm, 88, rfl⟩
abbrev main_v54_1 : Ref sig .tc := ⟨.hbm, 89, rfl⟩
abbrev main_cst_14 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg8_0 : Ref sig .tc := ⟨.vmem, 45, rfl⟩
abbrev cc4_stg9_0 : Ref sig .tc := ⟨.vmem, 46, rfl⟩
abbrev cc4_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem9_0 : DmaSem sig := 46
abbrev cc4_sem9_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x16 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x16 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x16 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S128_S1x128 : S128.ShapeCasts S1x128
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1000000x1_S1000000_n_0_0_1_wf : ScatterDims.WF S100000 S1000000x1 S1000000 [] [0] [0] 1
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .bf16 = 32 ∨ (Rect.block (s := S100000x128) S5000x128.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x16.size a ≤ S128x16.size a
  hwx4_7 : ∀ i : grid4.Coords, EltTy.bits .f32 = 32 ∨ (Rect.block (s := S128x16) S128x16.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x16.size a ≤ S1x16.size a
  hwx4_8 : ∀ i : grid4.Coords, EltTy.bits .f32 = 32 ∨ (Rect.block (s := S1x16) S1x16.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x16.size a ≤ S100000x16.size a
  hwx4_9 : ∀ i : grid4.Coords, EltTy.bits .f32 = 32 ∨ (Rect.block (s := S100000x16) S5000x16.size (cc4_transform_9 i) (hinb4_9 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S5000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v42) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54_0) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54_1) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S128x16.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v22) S1x16.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v61) S5000x16.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x128 : Shape := ⟨2, ![1, 128]⟩
abbrev S100000x16 : Shape := ⟨2, ![100000, 16]⟩
abbrev S1x16 : Shape := ⟨2, ![1, 16]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x16, .f32⟩
  | 12 => ⟨S16, .f32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1000000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x128, .f32⟩
  | 47 => ⟨S_, .f32⟩
  | 48 => ⟨S100000x128, .f32⟩
  | 49 => ⟨S1000000x1, .i32⟩
  | 50 => ⟨S100000x128, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S1000000, .f32⟩
  | 95 => ⟨S_, .f32⟩
  | 96 => ⟨S100000, .f32⟩
  | 97 => ⟨S1000000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S1000000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .f32⟩
  | 127 => ⟨S_, .f32⟩
  | _ => ⟨S100000x128, .f32⟩

abbrev hbmTy0_1 (i : Nat) : BufTy := match i % 128 with
  | 0 => ⟨S100000x128, .f32⟩
  | 1 => ⟨S1000000x1, .i32⟩
  | 2 => ⟨S100000x128, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x16, .f32⟩
  | 46 => ⟨S1x16, .f32⟩
  | 47 => ⟨S100000x16, .f32⟩
  | 48 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_cst_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_cst_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call2_cst : Ref sig .tc := ⟨.hbm, 90, rfl⟩
abbrev main_call2_v0 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_call3_v0 : Ref sig .tc := ⟨.hbm, 100, rfl⟩
abbrev main_call3_v1 : Ref sig .tc := ⟨.hbm, 101, rfl⟩
abbrev main_v63 : Ref sig .tc := ⟨.hbm, 102, rfl⟩
abbrev main_cst_16 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_call4_v0 : Ref sig .tc := ⟨.hbm, 108, rfl⟩
abbrev main_call4_v1 : Ref sig .tc := ⟨.hbm, 109, rfl⟩
abbrev main_v67 : Ref sig .tc := ⟨.hbm, 110, rfl⟩
abbrev main_cst_18 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_c_19 : Ref sig .tc := ⟨.hbm, 118, rfl⟩
abbrev main_v74 : Ref sig .tc := ⟨.hbm, 119, rfl⟩
abbrev main_v75 : Ref sig .tc := ⟨.hbm, 120, rfl⟩
abbrev main_c_20 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_21 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_22 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_23 : Ref sig .tc := ⟨.hbm, 140, rfl⟩
abbrev main_v92 : Ref sig .tc := ⟨.hbm, 141, rfl⟩
abbrev main_cst_24 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_cst_26 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_27 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_call5_cst : Ref sig .tc := ⟨.hbm, 170, rfl⟩
abbrev main_call5_v0 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x16_S100000x16_1_0_0_1_n_n_wf : DotDims.WF S100000x128 S128x16 S100000x16 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KRun.lean ====
/-
  The idealized kernel's run with its result NAMED: every weakly fair execution of @main terminates, nothing
  faulting, with the result array at the last boundary's contents (the fold of the host stretches and the five
  regions' write-backs over the launch memory) and the argument arrays unchanged. The frame certificate states the
  same run with the arguments only; this is its statement with the result's buffer read as well.
-/
import proofs.«155254_j19997367730788_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result's buffer read at the last boundary's contents. -/
theorem run_value : θ_run defs (onTc (τ := τ) (main (F := F))) ⟨m, fun _ => 0, ρ⟩ (fun r => ∀ c : Dev nD,
      r.2.mem ((c.tc : Thread nD τ).loc main_v61) = W14 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v61 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.KRun

end
-- ==== Proof.Keep.lean ====
/-
  What the buffers the regions and the later host operations read hold at each boundary of @main: a buffer that no
  host operation of a stretch writes keeps its contents over the stretch, a buffer that is no array of a region, or an
  input array of it, keeps its contents over the region.
-/
import proofs.«155254_j19997367730788_2_alg».proof.Proof.Gen.KernelIdeal.Frame
import Idealize.ShloMosaic.Lib.StableHlo.Run

set_option maxRecDepth 16384

noncomputable section
namespace Cert.KernelIdeal.Keep
open Idealize.ShloMosaic Idealize.ShloMosaic.TcCoe Idealize.SL.Sem Idealize.ShloMosaic.StableHlo
open Idealize.ShloMosaic.Pipeline (Dat)
open Cert.KernelIdeal Cert.KernelIdeal.Gen

/-- A buffer none of a stretch's operations writes holds after the stretch what it held before. -/
macro "host_keep " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable {F : FTy → Type} [FloatOps F]
variable (m : (ℓ : Loc nD τ sig) → Buf (Elt F) ℓ) (ρ : Dev nD → PrngReg) (c : Dev nD)

theorem keep_v7_9_5 : W9 m ρ c (Proc.devRef .tc main_v7) = W5 m ρ c (Proc.devRef .tc main_v7) :=
  calc W9 m ρ c (Proc.devRef .tc main_v7)
    _ = W8 m ρ c (Proc.devRef .tc main_v7) := by host_keep hostOps2
    _ = W7 m ρ c (Proc.devRef .tc main_v7) := W8_of_ne m ρ c main_v7 (by decide)
    _ = W6 m ρ c (Proc.devRef .tc main_v7) := by host_keep hostOps1
    _ = W5 m ρ c (Proc.devRef .tc main_v7) := (W6_arr m ρ c 1).trans (((dat0 (V5 m ρ) c).arrAt_in 1 rfl _).trans (A_eq0 (V5 m ρ) c 1))

theorem keep_v15_7_5 : W7 m ρ c (Proc.devRef .tc main_v15) = W5 m ρ c (Proc.devRef .tc main_v15) :=
  calc W7 m ρ c (Proc.devRef .tc main_v15)
    _ = W6 m ρ c (Proc.devRef .tc main_v15) := by host_keep hostOps1
    _ = W5 m ρ c (Proc.devRef .tc main_v15) := W6_of_ne m ρ c main_v15 (by decide)

theorem keep_v15_9_5 : W9 m ρ c (Proc.devRef .tc main_v15) = W5 m ρ c (Proc.devRef .tc main_v15) :=
  calc W9 m ρ c (Proc.devRef .tc main_v15)
    _ = W8 m ρ c (Proc.devRef .tc main_v15) := by host_keep hostOps2
    _ = W7 m ρ c (Proc.devRef .tc main_v15) := (W8_arr m ρ c 1).trans (((dat1 (V7 m ρ) c).arrAt_in 1 rfl _).trans (A_eq1 (V7 m ρ) c 1))
    _ = W6 m ρ c (Proc.devRef .tc main_v15) := by host_keep hostOps1
    _ = W5 m ρ c (Proc.devRef .tc main_v15) := W6_of_ne m ρ c main_v15 (by decide)

theorem keep_v15_11_5 : W11 m ρ c (Proc.devRef .tc main_v15) = W5 m ρ c (Proc.devRef .tc main_v15) :=
  calc W11 m ρ c (Proc.devRef .tc main_v15)
    _ = W10 m ρ c (Proc.devRef .tc main_v15) := by host_keep hostOps3
    _ = W9 m ρ c (Proc.devRef .tc main_v15) := (W10_arr m ρ c 1).trans (((dat2 (V9 m ρ) c).arrAt_in 1 rfl _).trans (A_eq2 (V9 m ρ) c 1))
    _ = W8 m ρ c (Proc.devRef .tc main_v15) := by host_keep hostOps2
    _ = W7 m ρ c (Proc.devRef .tc main_v15) := (W8_arr m ρ c 1).trans (((dat1 (V7 m ρ) c).arrAt_in 1 rfl _).trans (A_eq1 (V7 m ρ) c 1))
    _ = W6 m ρ c (Proc.devRef .tc main_v15) := by host_keep hostOps1
    _ = W5 m ρ c (Proc.devRef .tc main_v15) := W6_of_ne m ρ c main_v15 (by decide)

theorem keep_v15_13_5 : W13 m ρ c (Proc.devRef .tc main_v15) = W5 m ρ c (Proc.devRef .tc main_v15) :=
  calc W13 m ρ c (Proc.devRef .tc main_v15)
    _ = W12 m ρ c (Proc.devRef .tc main_v15) := by host_keep hostOps4
    _ = W11 m ρ c (Proc.devRef .tc main_v15) := (W12_arr m ρ c 1).trans (((dat3 (V11 m ρ) c).arrAt_in 1 rfl _).trans (A_eq3 (V11 m ρ) c 1))
    _ = W10 m ρ c (Proc.devRef .tc main_v15) := by host_keep hostOps3
    _ = W9 m ρ c (Proc.devRef .tc main_v15) := (W10_arr m ρ c 1).trans (((dat2 (V9 m ρ) c).arrAt_in 1 rfl _).trans (A_eq2 (V9 m ρ) c 1))
    _ = W8 m ρ c (Proc.devRef .tc main_v15) := by host_keep hostOps2
    _ = W7 m ρ c (Proc.devRef .tc main_v15) := (W8_arr m ρ c 1).trans (((dat1 (V7 m ρ) c).arrAt_in 1 rfl _).trans (A_eq1 (V7 m ρ) c 1))
    _ = W6 m ρ c (Proc.devRef .tc main_v15) := by host_keep hostOps1
    _ = W5 m ρ c (Proc.devRef .tc main_v15) := W6_of_ne m ρ c main_v15 (by decide)

theorem keep_v16_7_5 : W7 m ρ c (Proc.devRef .tc main_v16) = W5 m ρ c (Proc.devRef .tc main_v16) :=
  calc W7 m ρ c (Proc.devRef .tc main_v16)
    _ = W6 m ρ c (Proc.devRef .tc main_v16) := by host_keep hostOps1
    _ = W5 m ρ c (Proc.devRef .tc main_v16) := W6_of_ne m ρ c main_v16 (by decide)

theorem keep_v16_9_5 : W9 m ρ c (Proc.devRef .tc main_v16) = W5 m ρ c (Proc.devRef .tc main_v16) :=
  calc W9 m ρ c (Proc.devRef .tc main_v16)
    _ = W8 m ρ c (Proc.devRef .tc main_v16) := by host_keep hostOps2
    _ = W7 m ρ c (Proc.devRef .tc main_v16) := (W8_arr m ρ c 2).trans (((dat1 (V7 m ρ) c).arrAt_in 2 rfl _).trans (A_eq1 (V7 m ρ) c 2))
    _ = W6 m ρ c (Proc.devRef .tc main_v16) := by host_keep hostOps1
    _ = W5 m ρ c (Proc.devRef .tc main_v16) := W6_of_ne m ρ c main_v16 (by decide)

theorem keep_v17_9_5 : W9 m ρ c (Proc.devRef .tc main_v17) = W5 m ρ c (Proc.devRef .tc main_v17) :=
  calc W9 m ρ c (Proc.devRef .tc main_v17)
    _ = W8 m ρ c (Proc.devRef .tc main_v17) := by host_keep hostOps2
    _ = W7 m ρ c (Proc.devRef .tc main_v17) := W8_of_ne m ρ c main_v17 (by decide)
    _ = W6 m ρ c (Proc.devRef .tc main_v17) := by host_keep hostOps1
    _ = W5 m ρ c (Proc.devRef .tc main_v17) := W6_of_ne m ρ c main_v17 (by decide)

theorem keep_v18_9_5 : W9 m ρ c (Proc.devRef .tc main_v18) = W5 m ρ c (Proc.devRef .tc main_v18) :=
  calc W9 m ρ c (Proc.devRef .tc main_v18)
    _ = W8 m ρ c (Proc.devRef .tc main_v18) := by host_keep hostOps2
    _ = W7 m ρ c (Proc.devRef .tc main_v18) := W8_of_ne m ρ c main_v18 (by decide)
    _ = W6 m ρ c (Proc.devRef .tc main_v18) := by host_keep hostOps1
    _ = W5 m ρ c (Proc.devRef .tc main_v18) := W6_of_ne m ρ c main_v18 (by decide)

theorem keep_v19_11_5 : W11 m ρ c (Proc.devRef .tc main_v19) = W5 m ρ c (Proc.devRef .tc main_v19) :=
  calc W11 m ρ c (Proc.devRef .tc main_v19)
    _ = W10 m ρ c (Proc.devRef .tc main_v19) := by host_keep hostOps3
    _ = W9 m ρ c (Proc.devRef .tc main_v19) := W10_of_ne m ρ c main_v19 (by decide)
    _ = W8 m ρ c (Proc.devRef .tc main_v19) := by host_keep hostOps2
    _ = W7 m ρ c (Proc.devRef .tc main_v19) := W8_of_ne m ρ c main_v19 (by decide)
    _ = W6 m ρ c (Proc.devRef .tc main_v19) := by host_keep hostOps1
    _ = W5 m ρ c (Proc.devRef .tc main_v19) := W6_of_ne m ρ c main_v19 (by decide)

theorem keep_v19_13_5 : W13 m ρ c (Proc.devRef .tc main_v19) = W5 m ρ c (Proc.devRef .tc main_v19) :=
  calc W13 m ρ c (Proc.devRef .tc main_v19)
    _ = W12 m ρ c (Proc.devRef .tc main_v19) := by host_keep hostOps4
    _ = W11 m ρ c (Proc.devRef .tc main_v19) := (W12_arr m ρ c 2).trans (((dat3 (V11 m ρ) c).arrAt_in 2 rfl _).trans (A_eq3 (V11 m ρ) c 2))
    _ = W10 m ρ c (Proc.devRef .tc main_v19) := by host_keep hostOps3
    _ = W9 m ρ c (Proc.devRef .tc main_v19) := W10_of_ne m ρ c main_v19 (by decide)
    _ = W8 m ρ c (Proc.devRef .tc main_v19) := by host_keep hostOps2
    _ = W7 m ρ c (Proc.devRef .tc main_v19) := W8_of_ne m ρ c main_v19 (by decide)
    _ = W6 m ρ c (Proc.devRef .tc main_v19) := by host_keep hostOps1
    _ = W5 m ρ c (Proc.devRef .tc main_v19) := W6_of_ne m ρ c main_v19 (by decide)

theorem keep_v20_13_5 : W13 m ρ c (Proc.devRef .tc main_v20) = W5 m ρ c (Proc.devRef .tc main_v20) :=
  calc W13 m ρ c (Proc.devRef .tc main_v20)
    _ = W12 m ρ c (Proc.devRef .tc main_v20) := by host_keep hostOps4
    _ = W11 m ρ c (Proc.devRef .tc main_v20) := W12_of_ne m ρ c main_v20 (by decide)
    _ = W10 m ρ c (Proc.devRef .tc main_v20) := by host_keep hostOps3
    _ = W9 m ρ c (Proc.devRef .tc main_v20) := W10_of_ne m ρ c main_v20 (by decide)
    _ = W8 m ρ c (Proc.devRef .tc main_v20) := by host_keep hostOps2
    _ = W7 m ρ c (Proc.devRef .tc main_v20) := W8_of_ne m ρ c main_v20 (by decide)
    _ = W6 m ρ c (Proc.devRef .tc main_v20) := by host_keep hostOps1
    _ = W5 m ρ c (Proc.devRef .tc main_v20) := W6_of_ne m ρ c main_v20 (by decide)

theorem keep_v21_13_5 : W13 m ρ c (Proc.devRef .tc main_v21) = W5 m ρ c (Proc.devRef .tc main_v21) :=
  calc W13 m ρ c (Proc.devRef .tc main_v21)
    _ = W12 m ρ c (Proc.devRef .tc main_v21) := by host_keep hostOps4
    _ = W11 m ρ c (Proc.devRef .tc main_v21) := W12_of_ne m ρ c main_v21 (by decide)
    _ = W10 m ρ c (Proc.devRef .tc main_v21) := by host_keep hostOps3
    _ = W9 m ρ c (Proc.devRef .tc main_v21) := W10_of_ne m ρ c main_v21 (by decide)
    _ = W8 m ρ c (Proc.devRef .tc main_v21) := by host_keep hostOps2
    _ = W7 m ρ c (Proc.devRef .tc main_v21) := W8_of_ne m ρ c main_v21 (by decide)
    _ = W6 m ρ c (Proc.devRef .tc main_v21) := by host_keep hostOps1
    _ = W5 m ρ c (Proc.devRef .tc main_v21) := W6_of_ne m ρ c main_v21 (by decide)

theorem keep_v22_13_5 : W13 m ρ c (Proc.devRef .tc main_v22) = W5 m ρ c (Proc.devRef .tc main_v22) :=
  calc W13 m ρ c (Proc.devRef .tc main_v22)
    _ = W12 m ρ c (Proc.devRef .tc main_v22) := by host_keep hostOps4
    _ = W11 m ρ c (Proc.devRef .tc main_v22) := W12_of_ne m ρ c main_v22 (by decide)
    _ = W10 m ρ c (Proc.devRef .tc main_v22) := by host_keep hostOps3
    _ = W9 m ρ c (Proc.devRef .tc main_v22) := W10_of_ne m ρ c main_v22 (by decide)
    _ = W8 m ρ c (Proc.devRef .tc main_v22) := by host_keep hostOps2
    _ = W7 m ρ c (Proc.devRef .tc main_v22) := W8_of_ne m ρ c main_v22 (by decide)
    _ = W6 m ρ c (Proc.devRef .tc main_v22) := by host_keep hostOps1
    _ = W5 m ρ c (Proc.devRef .tc main_v22) := W6_of_ne m ρ c main_v22 (by decide)

theorem keep_arg0_5_0 : W5 m ρ c (Proc.devRef .tc main_arg0) = m ((c : Thread nD τ).loc main_arg0) :=
  calc W5 m ρ c (Proc.devRef .tc main_arg0)
    _ = W4 m ρ c (Proc.devRef .tc main_arg0) := by host_keep hostOps0_4
    _ = W3 m ρ c (Proc.devRef .tc main_arg0) := by host_keep hostOps0_3
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

theorem keep_arg3_5_0 : W5 m ρ c (Proc.devRef .tc main_arg3) = m ((c : Thread nD τ).loc main_arg3) :=
  calc W5 m ρ c (Proc.devRef .tc main_arg3)
    _ = W4 m ρ c (Proc.devRef .tc main_arg3) := by host_keep hostOps0_4
    _ = W3 m ρ c (Proc.devRef .tc main_arg3) := by host_keep hostOps0_3
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

theorem keep_arg1_6_0 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_keep hostOps0_4
    _ = W3 m ρ c (Proc.devRef .tc main_arg1) := by host_keep hostOps0_3
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0
    _ = m ((c : Thread nD τ).loc main_arg1) := rfl

theorem keep_arg2_6_0 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keep hostOps0_4
    _ = W3 m ρ c (Proc.devRef .tc main_arg2) := by host_keep hostOps0_3
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem keep_arg1_10_0 : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by host_keep hostOps2
    _ = W7 m ρ c (Proc.devRef .tc main_arg1) := W8_of_ne m ρ c main_arg1 (by decide)
    _ = W6 m ρ c (Proc.devRef .tc main_arg1) := by host_keep hostOps1
    _ = W5 m ρ c (Proc.devRef .tc main_arg1) := W6_of_ne m ρ c main_arg1 (by decide)
    _ = W4 m ρ c (Proc.devRef .tc main_arg1) := by host_keep hostOps0_4
    _ = W3 m ρ c (Proc.devRef .tc main_arg1) := by host_keep hostOps0_3
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0
    _ = m ((c : Thread nD τ).loc main_arg1) := rfl

theorem keep_arg2_10_0 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by host_keep hostOps2
    _ = W7 m ρ c (Proc.devRef .tc main_arg2) := W8_of_ne m ρ c main_arg2 (by decide)
    _ = W6 m ρ c (Proc.devRef .tc main_arg2) := by host_keep hostOps1
    _ = W5 m ρ c (Proc.devRef .tc main_arg2) := W6_of_ne m ρ c main_arg2 (by decide)
    _ = W4 m ρ c (Proc.devRef .tc main_arg2) := by host_keep hostOps0_4
    _ = W3 m ρ c (Proc.devRef .tc main_arg2) := by host_keep hostOps0_3
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem keep_arg7_9_0 : W9 m ρ c (Proc.devRef .tc main_arg7) = m ((c : Thread nD τ).loc main_arg7) :=
  calc W9 m ρ c (Proc.devRef .tc main_arg7)
    _ = W8 m ρ c (Proc.devRef .tc main_arg7) := by host_keep hostOps2
    _ = W7 m ρ c (Proc.devRef .tc main_arg7) := W8_of_ne m ρ c main_arg7 (by decide)
    _ = W6 m ρ c (Proc.devRef .tc main_arg7) := by host_keep hostOps1
    _ = W5 m ρ c (Proc.devRef .tc main_arg7) := W6_of_ne m ρ c main_arg7 (by decide)
    _ = W4 m ρ c (Proc.devRef .tc main_arg7) := by host_keep hostOps0_4
    _ = W3 m ρ c (Proc.devRef .tc main_arg7) := by host_keep hostOps0_3
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

theorem keep_arg11_13_0 : W13 m ρ c (Proc.devRef .tc main_arg11) = m ((c : Thread nD τ).loc main_arg11) :=
  calc W13 m ρ c (Proc.devRef .tc main_arg11)
    _ = W12 m ρ c (Proc.devRef .tc main_arg11) := by host_keep hostOps4
    _ = W11 m ρ c (Proc.devRef .tc main_arg11) := W12_of_ne m ρ c main_arg11 (by decide)
    _ = W10 m ρ c (Proc.devRef .tc main_arg11) := by host_keep hostOps3
    _ = W9 m ρ c (Proc.devRef .tc main_arg11) := W10_of_ne m ρ c main_arg11 (by decide)
    _ = W8 m ρ c (Proc.devRef .tc main_arg11) := by host_keep hostOps2
    _ = W7 m ρ c (Proc.devRef .tc main_arg11) := W8_of_ne m ρ c main_arg11 (by decide)
    _ = W6 m ρ c (Proc.devRef .tc main_arg11) := by host_keep hostOps1
    _ = W5 m ρ c (Proc.devRef .tc main_arg11) := W6_of_ne m ρ c main_arg11 (by decide)
    _ = W4 m ρ c (Proc.devRef .tc main_arg11) := by host_keep hostOps0_4
    _ = W3 m ρ c (Proc.devRef .tc main_arg11) := by host_keep hostOps0_3
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

theorem keep_v34_9_7 : W9 m ρ c (Proc.devRef .tc main_v34) = W7 m ρ c (Proc.devRef .tc main_v34) :=
  calc W9 m ρ c (Proc.devRef .tc main_v34)
    _ = W8 m ρ c (Proc.devRef .tc main_v34) := by host_keep hostOps2
    _ = W7 m ρ c (Proc.devRef .tc main_v34) := (W8_arr m ρ c 0).trans (((dat1 (V7 m ρ) c).arrAt_in 0 rfl _).trans (A_eq1 (V7 m ρ) c 0))

theorem keep_v53_13_11 : W13 m ρ c (Proc.devRef .tc main_v53) = W11 m ρ c (Proc.devRef .tc main_v53) :=
  calc W13 m ρ c (Proc.devRef .tc main_v53)
    _ = W12 m ρ c (Proc.devRef .tc main_v53) := by host_keep hostOps4
    _ = W11 m ρ c (Proc.devRef .tc main_v53) := (W12_arr m ρ c 0).trans (((dat3 (V11 m ρ) c).arrAt_in 0 rfl _).trans (A_eq3 (V11 m ρ) c 0))

end Cert.KernelIdeal.Keep
end
-- ==== Proof.LibColumnCast.lean ====
/-
  A vector kept as a column, read at an index: an `[a]` array cast to `[a, 1]` holds, at `(i, 0)`, the vector's entry `i`.
  The cast keeps the row-major position, and the position of `(i, u)` in `[a, 1]` is `i · 1 + u = i`. This is how a
  per-row quantity computed as a vector (a count, a row sum) becomes the column that is then broadcast along the rows
  of a matrix.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.Entry.lean ====
/- What the reshapes before the first region hold, read at an index. The host operations of the kernel's program
   that run before its first region compute the two degree factors as vectors of length 100000 and reshape them to
   columns, and reshape each bias, scale and shift vector to a one-row matrix. A reshape keeps the row-major
   position of every element, so entry (r, 0) of a column is entry r of the vector and entry (0, j) of a row is
   entry j of the vector. Everything here holds for every float instance: no arithmetic is evaluated. -/
import proofs.«155254_j19997367730788_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«155254_j19997367730788_2_alg».proof.Proof.LibColumnCast

noncomputable section

namespace Cert.KernelIdeal.Entry

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg) (c : Dev nD)

/-- No operation of the stretch writes the reference: every operation writes its one result, and the results are
    other references. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The degree factors as columns

The two per-row factors are computed as vectors of length 100000 and reshaped to columns before the first region. -/

set_option maxHeartbeats 400000 in
/-- The source-degree column is written in the third stretch of host operations and not after it. -/
theorem W5_v7 : W5 m ρ c (Proc.devRef .tc main_v7)
    = StableHlo.after hostOps0_2 (W2 m ρ c) (Proc.devRef .tc main_v7) :=
  (StableHlo.after_of_forall_not_mem (b := Proc.devRef .tc main_v7) _ _ (by not_written hostOps0_4)).trans
    (StableHlo.after_of_forall_not_mem (b := Proc.devRef .tc main_v7) _ _ (by not_written hostOps0_3))

set_option maxHeartbeats 400000 in
/-- The source-degree vector is written in the third stretch of host operations and not after it. -/
theorem W5_v6 : W5 m ρ c (Proc.devRef .tc main_v6)
    = StableHlo.after hostOps0_2 (W2 m ρ c) (Proc.devRef .tc main_v6) :=
  (StableHlo.after_of_forall_not_mem (b := Proc.devRef .tc main_v6) _ _ (by not_written hostOps0_4)).trans
    (StableHlo.after_of_forall_not_mem (b := Proc.devRef .tc main_v6) _ _ (by not_written hostOps0_3))

set_option maxHeartbeats 400000 in
/-- Within the third stretch, from any contents: the column is the reshape of the vector. -/
theorem seg2_v7 (V : Valuation τ sig (Elt F)) :
    (StableHlo.after hostOps0_2 V (Proc.devRef .tc main_v7) : (⟨S100000x1, .f32⟩ : BufTy).Contents (Elt F))
      = shapeCast S100000x1
          (StableHlo.after hostOps0_2 V (Proc.devRef .tc main_v6) : (⟨S100000, .f32⟩ : BufTy).Contents (Elt F))
          shapeCasts_S100000_S100000x1 := by
  after_results
  rfl

set_option maxHeartbeats 400000 in
/-- Entry r of the source-degree column is entry r of the source-degree vector. -/
theorem v7_at (r : Fin 100000) :
    W5 m ρ c (Proc.devRef .tc main_v7) (ix2 r (0 : Fin 1)) = W5 m ρ c (Proc.devRef .tc main_v6) (ix1 r) :=
  (congrFun (W5_v7 m ρ c) (ix2 r (0 : Fin 1))).trans
    ((congrFun (seg2_v7 (W2 m ρ c)) (ix2 r (0 : Fin 1))).trans
      ((Cert.Lib.shapeCast_a_a1_apply _ _ r 0).trans (congrFun (W5_v6 m ρ c) (ix1 r)).symm))

set_option maxHeartbeats 400000 in
/-- Within the last stretch before the first region, from any contents: the destination-degree column is the
    reshape of the destination-degree vector. -/
theorem seg4_v15 (V : Valuation τ sig (Elt F)) :
    (StableHlo.after hostOps0_4 V (Proc.devRef .tc main_v15) : (⟨S100000x1, .f32⟩ : BufTy).Contents (Elt F))
      = shapeCast S100000x1
          (StableHlo.after hostOps0_4 V (Proc.devRef .tc main_v14) : (⟨S100000, .f32⟩ : BufTy).Contents (Elt F))
          shapeCasts_S100000_S100000x1 := by
  after_results
  rfl

set_option maxHeartbeats 400000 in
/-- Entry r of the destination-degree column is entry r of the destination-degree vector. -/
theorem v15_at (r : Fin 100000) :
    W5 m ρ c (Proc.devRef .tc main_v15) (ix2 r (0 : Fin 1)) = W5 m ρ c (Proc.devRef .tc main_v14) (ix1 r) :=
  (congrFun (seg4_v15 (W4 m ρ c)) (ix2 r (0 : Fin 1))).trans (Cert.Lib.shapeCast_a_a1_apply _ _ r 0)

/-! ## The parameter vectors as rows

Each bias, scale and shift vector is reshaped to a one-row matrix in the last stretch before the first region; no
host operation before that writes an argument, so the vector read is the launch memory's. -/

set_option maxHeartbeats 400000 in
/-- Argument 4 is as launched when the last stretch before the first region starts. -/
theorem W4_arg4 : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (by not_written hostOps0_3)
    _ = W2 m ρ c (Proc.devRef .tc main_arg4) := StableHlo.after_of_forall_not_mem (b := Proc.devRef .tc main_arg4) _ _ (by not_written hostOps0_2)
    _ = W1 m ρ c (Proc.devRef .tc main_arg4) := StableHlo.after_of_forall_not_mem (b := Proc.devRef .tc main_arg4) _ _ (by not_written hostOps0_1)
    _ = W0 m ρ c (Proc.devRef .tc main_arg4) := StableHlo.after_of_forall_not_mem (b := Proc.devRef .tc main_arg4) _ _ (by not_written hostOps0)
    _ = m ((c : Thread nD τ).loc main_arg4) := rfl

set_option maxHeartbeats 400000 in
/-- Argument 5 is as launched when the last stretch before the first region starts. -/
theorem W4_arg5 : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (by not_written hostOps0_3)
    _ = W2 m ρ c (Proc.devRef .tc main_arg5) := StableHlo.after_of_forall_not_mem (b := Proc.devRef .tc main_arg5) _ _ (by not_written hostOps0_2)
    _ = W1 m ρ c (Proc.devRef .tc main_arg5) := StableHlo.after_of_forall_not_mem (b := Proc.devRef .tc main_arg5) _ _ (by not_written hostOps0_1)
    _ = W0 m ρ c (Proc.devRef .tc main_arg5) := StableHlo.after_of_forall_not_mem (b := Proc.devRef .tc main_arg5) _ _ (by not_written hostOps0)
    _ = m ((c : Thread nD τ).loc main_arg5) := rfl

set_option maxHeartbeats 400000 in
/-- Argument 6 is as launched when the last stretch before the first region starts. -/
theorem W4_arg6 : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (by not_written hostOps0_3)
    _ = W2 m ρ c (Proc.devRef .tc main_arg6) := StableHlo.after_of_forall_not_mem (b := Proc.devRef .tc main_arg6) _ _ (by not_written hostOps0_2)
    _ = W1 m ρ c (Proc.devRef .tc main_arg6) := StableHlo.after_of_forall_not_mem (b := Proc.devRef .tc main_arg6) _ _ (by not_written hostOps0_1)
    _ = W0 m ρ c (Proc.devRef .tc main_arg6) := StableHlo.after_of_forall_not_mem (b := Proc.devRef .tc main_arg6) _ _ (by not_written hostOps0)
    _ = m ((c : Thread nD τ).loc main_arg6) := rfl

set_option maxHeartbeats 400000 in
/-- Argument 8 is as launched when the last stretch before the first region starts. -/
theorem W4_arg8 : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (by not_written hostOps0_3)
    _ = W2 m ρ c (Proc.devRef .tc main_arg8) := StableHlo.after_of_forall_not_mem (b := Proc.devRef .tc main_arg8) _ _ (by not_written hostOps0_2)
    _ = W1 m ρ c (Proc.devRef .tc main_arg8) := StableHlo.after_of_forall_not_mem (b := Proc.devRef .tc main_arg8) _ _ (by not_written hostOps0_1)
    _ = W0 m ρ c (Proc.devRef .tc main_arg8) := StableHlo.after_of_forall_not_mem (b := Proc.devRef .tc main_arg8) _ _ (by not_written hostOps0)
    _ = m ((c : Thread nD τ).loc main_arg8) := rfl

set_option maxHeartbeats 400000 in
/-- Argument 9 is as launched when the last stretch before the first region starts. -/
theorem W4_arg9 : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (by not_written hostOps0_3)
    _ = W2 m ρ c (Proc.devRef .tc main_arg9) := StableHlo.after_of_forall_not_mem (b := Proc.devRef .tc main_arg9) _ _ (by not_written hostOps0_2)
    _ = W1 m ρ c (Proc.devRef .tc main_arg9) := StableHlo.after_of_forall_not_mem (b := Proc.devRef .tc main_arg9) _ _ (by not_written hostOps0_1)
    _ = W0 m ρ c (Proc.devRef .tc main_arg9) := StableHlo.after_of_forall_not_mem (b := Proc.devRef .tc main_arg9) _ _ (by not_written hostOps0)
    _ = m ((c : Thread nD τ).loc main_arg9) := rfl

set_option maxHeartbeats 400000 in
/-- Argument 10 is as launched when the last stretch before the first region starts. -/
theorem W4_arg10 : W4 m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (by not_written hostOps0_3)
    _ = W2 m ρ c (Proc.devRef .tc main_arg10) := StableHlo.after_of_forall_not_mem (b := Proc.devRef .tc main_arg10) _ _ (by not_written hostOps0_2)
    _ = W1 m ρ c (Proc.devRef .tc main_arg10) := StableHlo.after_of_forall_not_mem (b := Proc.devRef .tc main_arg10) _ _ (by not_written hostOps0_1)
    _ = W0 m ρ c (Proc.devRef .tc main_arg10) := StableHlo.after_of_forall_not_mem (b := Proc.devRef .tc main_arg10) _ _ (by not_written hostOps0)
    _ = m ((c : Thread nD τ).loc main_arg10) := rfl

set_option maxHeartbeats 400000 in
/-- Argument 12 is as launched when the last stretch before the first region starts. -/
theorem W4_arg12 : W4 m ρ c (Proc.devRef .tc main_arg12) = m ((c : Thread nD τ).loc main_arg12) :=
  calc W4 m ρ c (Proc.devRef .tc main_arg12)
    _ = W3 m ρ c (Proc.devRef .tc main_arg12) := StableHlo.after_of_forall_not_mem (b := Proc.devRef .tc main_arg12) _ _ (by not_written hostOps0_3)
    _ = W2 m ρ c (Proc.devRef .tc main_arg12) := StableHlo.after_of_forall_not_mem (b := Proc.devRef .tc main_arg12) _ _ (by not_written hostOps0_2)
    _ = W1 m ρ c (Proc.devRef .tc main_arg12) := StableHlo.after_of_forall_not_mem (b := Proc.devRef .tc main_arg12) _ _ (by not_written hostOps0_1)
    _ = W0 m ρ c (Proc.devRef .tc main_arg12) := StableHlo.after_of_forall_not_mem (b := Proc.devRef .tc main_arg12) _ _ (by not_written hostOps0)
    _ = m ((c : Thread nD τ).loc main_arg12) := rfl

set_option maxHeartbeats 400000 in
/-- Within the last stretch before the first region, from any contents: the first layer's bias as a row is the reshape of
    argument 4. -/
theorem seg4_v16 (V : Valuation τ sig (Elt F)) :
    (StableHlo.after hostOps0_4 V (Proc.devRef .tc main_v16) : (⟨S1x128, .f32⟩ : BufTy).Contents (Elt F))
      = shapeCast S1x128 (V (Proc.devRef .tc main_arg4) : (⟨S128, .f32⟩ : BufTy).Contents (Elt F))
          shapeCasts_S128_S1x128 := by
  after_results
  rfl

set_option maxHeartbeats 400000 in
/-- Entry j of the first layer's bias, kept as a row, is entry j of argument 4 as launched. -/
theorem v16_at (j : Fin 128) :
    W5 m ρ c (Proc.devRef .tc main_v16) (ix2 (0 : Fin 1) j) = m ((c : Thread nD τ).loc main_arg4) (ix1 j) :=
  (congrFun (seg4_v16 (W4 m ρ c)) (ix2 (0 : Fin 1) j)).trans
    ((shapeCast_a_1a_apply _ _ 0 j).trans (congrFun (W4_arg4 m ρ c) (ix1 j)))

set_option maxHeartbeats 400000 in
/-- Within the last stretch before the first region, from any contents: the first layer's scale as a row is the reshape of
    argument 5. -/
theorem seg4_v17 (V : Valuation τ sig (Elt F)) :
    (StableHlo.after hostOps0_4 V (Proc.devRef .tc main_v17) : (⟨S1x128, .f32⟩ : BufTy).Contents (Elt F))
      = shapeCast S1x128 (V (Proc.devRef .tc main_arg5) : (⟨S128, .f32⟩ : BufTy).Contents (Elt F))
          shapeCasts_S128_S1x128 := by
  after_results
  rfl

set_option maxHeartbeats 400000 in
/-- Entry j of the first layer's scale, kept as a row, is entry j of argument 5 as launched. -/
theorem v17_at (j : Fin 128) :
    W5 m ρ c (Proc.devRef .tc main_v17) (ix2 (0 : Fin 1) j) = m ((c : Thread nD τ).loc main_arg5) (ix1 j) :=
  (congrFun (seg4_v17 (W4 m ρ c)) (ix2 (0 : Fin 1) j)).trans
    ((shapeCast_a_1a_apply _ _ 0 j).trans (congrFun (W4_arg5 m ρ c) (ix1 j)))

set_option maxHeartbeats 400000 in
/-- Within the last stretch before the first region, from any contents: the first layer's shift as a row is the reshape of
    argument 6. -/
theorem seg4_v18 (V : Valuation τ sig (Elt F)) :
    (StableHlo.after hostOps0_4 V (Proc.devRef .tc main_v18) : (⟨S1x128, .f32⟩ : BufTy).Contents (Elt F))
      = shapeCast S1x128 (V (Proc.devRef .tc main_arg6) : (⟨S128, .f32⟩ : BufTy).Contents (Elt F))
          shapeCasts_S128_S1x128 := by
  after_results
  rfl

set_option maxHeartbeats 400000 in
/-- Entry j of the first layer's shift, kept as a row, is entry j of argument 6 as launched. -/
theorem v18_at (j : Fin 128) :
    W5 m ρ c (Proc.devRef .tc main_v18) (ix2 (0 : Fin 1) j) = m ((c : Thread nD τ).loc main_arg6) (ix1 j) :=
  (congrFun (seg4_v18 (W4 m ρ c)) (ix2 (0 : Fin 1) j)).trans
    ((shapeCast_a_1a_apply _ _ 0 j).trans (congrFun (W4_arg6 m ρ c) (ix1 j)))

set_option maxHeartbeats 400000 in
/-- Within the last stretch before the first region, from any contents: the second layer's bias as a row is the reshape of
    argument 8. -/
theorem seg4_v19 (V : Valuation τ sig (Elt F)) :
    (StableHlo.after hostOps0_4 V (Proc.devRef .tc main_v19) : (⟨S1x128, .f32⟩ : BufTy).Contents (Elt F))
      = shapeCast S1x128 (V (Proc.devRef .tc main_arg8) : (⟨S128, .f32⟩ : BufTy).Contents (Elt F))
          shapeCasts_S128_S1x128 := by
  after_results
  rfl

set_option maxHeartbeats 400000 in
/-- Entry j of the second layer's bias, kept as a row, is entry j of argument 8 as launched. -/
theorem v19_at (j : Fin 128) :
    W5 m ρ c (Proc.devRef .tc main_v19) (ix2 (0 : Fin 1) j) = m ((c : Thread nD τ).loc main_arg8) (ix1 j) :=
  (congrFun (seg4_v19 (W4 m ρ c)) (ix2 (0 : Fin 1) j)).trans
    ((shapeCast_a_1a_apply _ _ 0 j).trans (congrFun (W4_arg8 m ρ c) (ix1 j)))

set_option maxHeartbeats 400000 in
/-- Within the last stretch before the first region, from any contents: the second layer's scale as a row is the reshape of
    argument 9. -/
theorem seg4_v20 (V : Valuation τ sig (Elt F)) :
    (StableHlo.after hostOps0_4 V (Proc.devRef .tc main_v20) : (⟨S1x128, .f32⟩ : BufTy).Contents (Elt F))
      = shapeCast S1x128 (V (Proc.devRef .tc main_arg9) : (⟨S128, .f32⟩ : BufTy).Contents (Elt F))
          shapeCasts_S128_S1x128 := by
  after_results
  rfl

set_option maxHeartbeats 400000 in
/-- Entry j of the second layer's scale, kept as a row, is entry j of argument 9 as launched. -/
theorem v20_at (j : Fin 128) :
    W5 m ρ c (Proc.devRef .tc main_v20) (ix2 (0 : Fin 1) j) = m ((c : Thread nD τ).loc main_arg9) (ix1 j) :=
  (congrFun (seg4_v20 (W4 m ρ c)) (ix2 (0 : Fin 1) j)).trans
    ((shapeCast_a_1a_apply _ _ 0 j).trans (congrFun (W4_arg9 m ρ c) (ix1 j)))

set_option maxHeartbeats 400000 in
/-- Within the last stretch before the first region, from any contents: the second layer's shift as a row is the reshape of
    argument 10. -/
theorem seg4_v21 (V : Valuation τ sig (Elt F)) :
    (StableHlo.after hostOps0_4 V (Proc.devRef .tc main_v21) : (⟨S1x128, .f32⟩ : BufTy).Contents (Elt F))
      = shapeCast S1x128 (V (Proc.devRef .tc main_arg10) : (⟨S128, .f32⟩ : BufTy).Contents (Elt F))
          shapeCasts_S128_S1x128 := by
  after_results
  rfl

set_option maxHeartbeats 400000 in
/-- Entry j of the second layer's shift, kept as a row, is entry j of argument 10 as launched. -/
theorem v21_at (j : Fin 128) :
    W5 m ρ c (Proc.devRef .tc main_v21) (ix2 (0 : Fin 1) j) = m ((c : Thread nD τ).loc main_arg10) (ix1 j) :=
  (congrFun (seg4_v21 (W4 m ρ c)) (ix2 (0 : Fin 1) j)).trans
    ((shapeCast_a_1a_apply _ _ 0 j).trans (congrFun (W4_arg10 m ρ c) (ix1 j)))

set_option maxHeartbeats 400000 in
/-- Within the last stretch before the first region, from any contents: the classifier's bias as a row is the reshape of
    argument 12. -/
theorem seg4_v22 (V : Valuation τ sig (Elt F)) :
    (StableHlo.after hostOps0_4 V (Proc.devRef .tc main_v22) : (⟨S1x16, .f32⟩ : BufTy).Contents (Elt F))
      = shapeCast S1x16 (V (Proc.devRef .tc main_arg12) : (⟨S16, .f32⟩ : BufTy).Contents (Elt F))
          shapeCasts_S16_S1x16 := by
  after_results
  rfl

set_option maxHeartbeats 400000 in
/-- Entry j of the classifier's bias, kept as a row, is entry j of argument 12 as launched. -/
theorem v22_at (j : Fin 16) :
    W5 m ρ c (Proc.devRef .tc main_v22) (ix2 (0 : Fin 1) j) = m ((c : Thread nD τ).loc main_arg12) (ix1 j) :=
  (congrFun (seg4_v22 (W4 m ρ c)) (ix2 (0 : Fin 1) j)).trans
    ((shapeCast_a_1a_apply _ _ 0 j).trans (congrFun (W4_arg12 m ρ c) (ix1 j)))

end Cert.KernelIdeal.Entry

end
-- ==== Proof.StageH.lean ====
/-
  The host operations between the regions, read as the reference's stages. Both programs print the same operations
  (the segment counts, their clip at one and power −1/2 before the first region; between regions the fix-up of negative
  indices, the gather of rows by source and the scatter-add by destination), each in its own namespace with its own copy of
  the shapes and dimension records; for any float instance the two spellings are one term.
-/
import proofs.«155254_j19997367730788_2_alg».proof.Proof.Gen.KernelIdeal.Frame
import proofs.«155254_j19997367730788_2_alg».proof.Proof.Gen.ReferenceIdeal.Read
import Idealize.ShloMosaic.Lib.StableHlo.Run

set_option maxRecDepth 16384

noncomputable section

namespace Cert.KernelIdeal.StageH

open Idealize.ShloMosaic Idealize.ShloMosaic.TcCoe Idealize.SL.Sem Idealize.ShloMosaic.StableHlo
open Cert.KernelIdeal Cert.KernelIdeal.Gen

section AnyInstance

variable {F : FTy → Type} [FloatOps F]
variable (m : (ℓ : Loc nD τ sig) → Buf (Elt F) ℓ) (ρ : Dev nD → PrngReg) (c : Dev nD)

set_option maxHeartbeats 400000 in
/-- At the first region's entry the source-side degree factor is the reference's: counts of the source indices, clipped
    below at one, to the power −1/2. -/
theorem v6 : W5 m ρ c (Proc.devRef .tc main_v6) = Cert.ReferenceIdeal.Read.val_main_v10 (F := F) (m ((c : Thread nD τ).loc main_arg1)) := by
  dsimp only [W5]
  after_results
  unfold Cert.ReferenceIdeal.Read.val_main_v10 Cert.ReferenceIdeal.Read.val_main_v9 Cert.ReferenceIdeal.Read.val_main_cst_4 Cert.ReferenceIdeal.Read.val_main_v4 Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v1 Cert.ReferenceIdeal.Read.val_main_v2 Cert.ReferenceIdeal.Read.val_main_v0 Cert.ReferenceIdeal.Read.val_main_cst Cert.ReferenceIdeal.Read.val_main_cst_0
  rfl

set_option maxHeartbeats 400000 in
/-- The destination-side degree factor likewise. -/
theorem v14 : W5 m ρ c (Proc.devRef .tc main_v14) = Cert.ReferenceIdeal.Read.val_main_v26 (F := F) (m ((c : Thread nD τ).loc main_arg2)) := by
  dsimp only [W5]
  after_results
  unfold Cert.ReferenceIdeal.Read.val_main_v26 Cert.ReferenceIdeal.Read.val_main_v25 Cert.ReferenceIdeal.Read.val_main_cst_7 Cert.ReferenceIdeal.Read.val_main_v8 Cert.ReferenceIdeal.Read.val_main_call1_v1 Cert.ReferenceIdeal.Read.val_main_call1_v0 Cert.ReferenceIdeal.Read.val_main_cst_3 Cert.ReferenceIdeal.Read.val_main_v7 Cert.ReferenceIdeal.Read.val_main_v5 Cert.ReferenceIdeal.Read.val_main_v6 Cert.ReferenceIdeal.Read.val_main_v0 Cert.ReferenceIdeal.Read.val_main_cst Cert.ReferenceIdeal.Read.val_main_cst_2
  rfl

set_option maxHeartbeats 400000 in
/-- The aggregation between two layers — fix up negative source indices, gather the rows of `h` by source, add them up by
    destination into zeros — in the kernel's spelling is the reference's first-layer stages. -/
theorem chain_gen (h : (⟨S100000x128, .f32⟩ : BufTy).Contents (Elt F)) (x1 x2 : (⟨S1000000, .i32⟩ : BufTy).Contents (Elt F)) :
    Host.scatterAdd scatter_S100000x128_S1000000x1_S1000000x128_1_0_0_1
        (broadcastInDim S100000x128 ![] bcast_S_S100000x128 (constant (F := F) S_ .f32 0x00000000#32))
        (broadcastInDim S1000000x1 ![0] bcast_S1000000_S1000000x1_0 x2)
        (Host.gather gather_S100000x128_S1000000x1_S1000000x128_1_0_n_n_0_1_1128 h
          (broadcastInDim S1000000x1 ![0] bcast_S1000000_S1000000x1_0
            (select (cmpi .slt x1 (broadcastInDim S1000000 ![] bcast_S_S1000000 (constantI S_ 32 0#32)))
              (addi x1 (broadcastInDim S1000000 ![] bcast_S_S1000000 (constantI S_ 32 100000#32))) x1)))
      = Host.scatterAdd Cert.ReferenceIdeal.scatter_S100000x128_S1000000x1_S1000000x128_1_0_0_1 (Cert.ReferenceIdeal.Read.val_main_v22 (F := F))
          (Cert.ReferenceIdeal.Read.val_main_v23 (F := F) x2)
          (Host.gather Cert.ReferenceIdeal.gather_S100000x128_S1000000x1_S1000000x128_1_0_n_n_0_1_1128 h (Cert.ReferenceIdeal.Read.val_main_v20 (F := F) x1)) := by
  unfold Cert.ReferenceIdeal.Read.val_main_v22 Cert.ReferenceIdeal.Read.val_main_cst_6 Cert.ReferenceIdeal.Read.val_main_v23 Cert.ReferenceIdeal.Read.val_main_v20 Cert.ReferenceIdeal.Read.val_main_v19 Cert.ReferenceIdeal.Read.val_main_v18 Cert.ReferenceIdeal.Read.val_main_v17 Cert.ReferenceIdeal.Read.val_main_c_5 Cert.ReferenceIdeal.Read.val_main_v16 Cert.ReferenceIdeal.Read.val_main_v15 Cert.ReferenceIdeal.Read.val_main_c
  rfl

set_option maxHeartbeats 400000 in
/-- The same against the reference's second-layer stages. -/
theorem chain_gen' (h : (⟨S100000x128, .f32⟩ : BufTy).Contents (Elt F)) (x1 x2 : (⟨S1000000, .i32⟩ : BufTy).Contents (Elt F)) :
    Host.scatterAdd scatter_S100000x128_S1000000x1_S1000000x128_1_0_0_1
        (broadcastInDim S100000x128 ![] bcast_S_S100000x128 (constant (F := F) S_ .f32 0x00000000#32))
        (broadcastInDim S1000000x1 ![0] bcast_S1000000_S1000000x1_0 x2)
        (Host.gather gather_S100000x128_S1000000x1_S1000000x128_1_0_n_n_0_1_1128 h
          (broadcastInDim S1000000x1 ![0] bcast_S1000000_S1000000x1_0
            (select (cmpi .slt x1 (broadcastInDim S1000000 ![] bcast_S_S1000000 (constantI S_ 32 0#32)))
              (addi x1 (broadcastInDim S1000000 ![] bcast_S_S1000000 (constantI S_ 32 100000#32))) x1)))
      = Host.scatterAdd Cert.ReferenceIdeal.scatter_S100000x128_S1000000x1_S1000000x128_1_0_0_1 (Cert.ReferenceIdeal.Read.val_main_v81 (F := F))
          (Cert.ReferenceIdeal.Read.val_main_v82 (F := F) x2)
          (Host.gather Cert.ReferenceIdeal.gather_S100000x128_S1000000x1_S1000000x128_1_0_n_n_0_1_1128 h (Cert.ReferenceIdeal.Read.val_main_v79 (F := F) x1)) := by
  unfold Cert.ReferenceIdeal.Read.val_main_v81 Cert.ReferenceIdeal.Read.val_main_cst_21 Cert.ReferenceIdeal.Read.val_main_v82 Cert.ReferenceIdeal.Read.val_main_v79 Cert.ReferenceIdeal.Read.val_main_v78 Cert.ReferenceIdeal.Read.val_main_v77 Cert.ReferenceIdeal.Read.val_main_v76 Cert.ReferenceIdeal.Read.val_main_c_20 Cert.ReferenceIdeal.Read.val_main_v75 Cert.ReferenceIdeal.Read.val_main_v74 Cert.ReferenceIdeal.Read.val_main_c_19
  rfl

end AnyInstance

section AtIdeal

variable (m : (ℓ : Loc nD τ sig) → Buf (Elt Ideal) ℓ) (ρ : Dev nD → PrngReg) (c : Dev nD)

/-- A widening format change of a whole array is the identity on extended reals. -/
theorem extf_vec {s : Shape} {φ ψ : FTy} (x : FVec Ideal s φ) (h : φ.bits < ψ.bits) : (extf ψ x h : FVec Ideal s ψ) = x := rfl

set_option maxHeartbeats 400000 in
/-- At the second region's entry the aggregated array is the reference's, when the first region's result is the reference's
    first product and the two index arrays are the arguments. -/
theorem v34 (x0 : (⟨S100000x128, .f32⟩ : BufTy).Contents (Elt Ideal)) (x1 x2 : (⟨S1000000, .i32⟩ : BufTy).Contents (Elt Ideal))
    (x3 : (⟨S128x128, .f32⟩ : BufTy).Contents (Elt Ideal))
    (h23 : W6 m ρ c (Proc.devRef .tc main_v23) = Cert.ReferenceIdeal.Read.val_main_v14 (F := Ideal) x0 x1 x3)
    (h1 : W6 m ρ c (Proc.devRef .tc main_arg1) = x1) (h2 : W6 m ρ c (Proc.devRef .tc main_arg2) = x2) :
    W7 m ρ c (Proc.devRef .tc main_v34) = Cert.ReferenceIdeal.Read.val_main_v24 (F := Ideal) x0 x1 x2 x3 := by
  dsimp only [W7]
  after_results
  rw [h23, h1, h2, extf_vec]
  refine (chain_gen (F := Ideal) _ x1 x2).trans ?_
  unfold Cert.ReferenceIdeal.Read.val_main_v24 Cert.ReferenceIdeal.Read.val_main_v21
  rfl

set_option maxHeartbeats 400000 in
/-- At the fourth region's entry the aggregated array is the reference's, when the third region's result is the reference's
    second product and the two index arrays are the arguments. -/
theorem v53 (x0 : (⟨S100000x128, .f32⟩ : BufTy).Contents (Elt Ideal)) (x1 x2 : (⟨S1000000, .i32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal))
    (h42 : W10 m ρ c (Proc.devRef .tc main_v42) = Cert.ReferenceIdeal.Read.val_main_v73 (F := Ideal) x0 x1 x2 x3 x4 x5 x6 x7)
    (h1 : W10 m ρ c (Proc.devRef .tc main_arg1) = x1) (h2 : W10 m ρ c (Proc.devRef .tc main_arg2) = x2) :
    W11 m ρ c (Proc.devRef .tc main_v53) = Cert.ReferenceIdeal.Read.val_main_v83 (F := Ideal) x0 x1 x2 x3 x4 x5 x6 x7 := by
  dsimp only [W11]
  after_results
  rw [h42, h1, h2, extf_vec]
  refine (chain_gen' (F := Ideal) _ x1 x2).trans ?_
  unfold Cert.ReferenceIdeal.Read.val_main_v83 Cert.ReferenceIdeal.Read.val_main_v80
  rfl

end AtIdeal

end Cert.KernelIdeal.StageH

end
-- ==== Proof.RegLemmas.lean ====
/-
  Three facts about one block of a row-tiled matrix kernel, read at an index given by its two coordinates, at the
  ideal instance (a float is an extended real, every operation the exact one):
  a column `[a, 1]` broadcast along the lanes reads its row's one entry; the matrix unit's product of an `M×K` by a
  `K×N` operand into the zero accumulator is, at `(p, c)`, the sum over `k` of `lhs (p, k) * rhs (k, c)`.
-/
import Idealize.ShloMosaic.Lib.ValueLayout
import Idealize.ShloMosaic.PureOps.Ideal.Laws

noncomputable section

open scoped BigOperators

namespace Cert.KernelIdeal.RegLemmas

open Idealize.ShloMosaic Idealize.ShloMosaic.ValueIdx

variable {α : Type}

/-- An `[a, 1]` column broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On its row axis the left operand of the plain `M×K` by `K×N` product is read at the result's row. -/
theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand is read at the result's column. -/
theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index of the plain product at result `(p, c)` and contraction position `k` is `(p, k)`. -/
theorem plain_lhsIdx {M K N : ℕ} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index there is `(k, c)`. -/
theorem plain_rhsIdx {M K N : ℕ} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- The matrix unit's plain product into the zero accumulator, at `(p, c)`: the sum over the contracted axis. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.KernelIdeal.RegLemmas

end
-- ==== Proof.Reg0.lean ====
/-
  Region 0 (one row block of 5000 rows per grid point): the output array after the region, entry by entry.
  Row r of the output is the product of row r of the first operand, scaled by the row's entry of the column operand,
  with the whole weight matrix: (r, j) ↦ ∑ k, (A (r, k) * s (r, 0)) * W (k, j).
-/
import proofs.«155254_j19997367730788_2_alg».proof.Proof.Gen.KernelIdeal.Frame
import proofs.«155254_j19997367730788_2_alg».proof.Proof.RegLemmas
import Idealize.ShloMosaic.Lib.Pipeline.Value
import Idealize.ShloMosaic.Lib.ValueLayout

set_option maxHeartbeats 400000

noncomputable section

open scoped BigOperators
open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.RegLemmas

/-- The body's product at one entry of a block: row p of the scaled block against column q of the weights. -/
theorem pay_apply (x0 : Vec Ideal S5000x128 .f32) (x1 : Vec Ideal S5000x1 .f32) (x2 : Vec Ideal S128x128 .f32)
    (p : Fin 5000) (q : Fin 128) :
    Gen.k0_pay1 (F := Ideal) x0 x1 x2 (ix2 p q)
      = ∑ k : Fin 128, (x0 (ix2 p k) * x1 (ix2 p (0 : Fin 1))) * x2 (ix2 k q) := by
  unfold Gen.k0_pay1
  simp only [shapeCast_self]
  refine (matmul_plain_zero_apply (M := 5000) (K := 128) (N := 128) none _ _ p q).trans ?_
  refine Finset.sum_congr rfl fun k _ => ?_
  exact congrArg (fun z => x0 (ix2 p k) * z * x2 (ix2 k q)) (broadcastTo_a1_ab_apply x1 _ p k)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at row block `t`, the weights are fetched whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point `t` is its rows `5000 t … 5000 t + 4999`. -/
theorem blk0_apply (c : Dev nD) (t : Fin cfg0.N) (x : S5000x128.Idx) (i : S100000x128.Idx)
    (h0 : (i 0).val = t.val * 5000 + (x 0).val) (h1 : (i 1).val = (x 1).val) :
    (iblk0 V c 0 t : Vec Ideal S5000x128 .f32) x = V c main_arg0 i := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The column operand's block at point `t` is its rows `5000 t … 5000 t + 4999`. -/
theorem blk1_apply (c : Dev nD) (t : Fin cfg0.N) (x : S5000x1.Idx) (i : S100000x1.Idx)
    (h0 : (i 0).val = t.val * 5000 + (x 0).val) (h1 : (i 1).val = (x 1).val) :
    (iblk0 V c 1 t : Vec Ideal S5000x1 .f32) x = V c main_v7 i := by
  obtain ⟨-, -, e0, e1, -⟩ := idx_facts t
  unfold iblk0
  rw [View.read_apply]
  show V c main_v7 _ = V c main_v7 _
  refine congrArg (V c main_v7) (funext fun a => Fin.ext ?_)
  match a with
  | ⟨0, _⟩ => show win0_1.index t (0 : Fin 2) * 5000 + 1 * (x 0).val = (i 0).val; rw [e0, h0]; omega
  | ⟨1, _⟩ => show win0_1.index t (1 : Fin 2) * 1 + 1 * (x 1).val = (i 1).val; rw [e1, h1]; omega

/-- The weights' block at every point is the whole matrix. -/
theorem blk2_apply (c : Dev nD) (t : Fin cfg0.N) (x : S128x128.Idx) :
    (iblk0 V c 2 t : Vec Ideal S128x128 .f32) x = V c main_arg3 x := by
  obtain ⟨-, -, -, -, e0, e1, -⟩ := idx_facts t
  unfold iblk0
  rw [View.read_apply]
  show V c main_arg3 _ = V c main_arg3 _
  refine congrArg (V c main_arg3) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Entry `(r, j)` of the result, over the three arrays: row `r` of the first operand, scaled by the row's factor, against
    column `j` of the weights. -/
def spec (A0 : Vec Ideal S100000x128 .f32) (A1 : Vec Ideal S100000x1 .f32) (A2 : Vec Ideal S128x128 .f32)
    (r : Fin 100000) (j : Fin 128) : EReal :=
  ∑ k : Fin 128, (A0 (ix2 r k) * A1 (ix2 r (0 : Fin 1))) * A2 (ix2 k j)

/-- The whole result array. -/
def G (c : Dev nD) : Buf (Elt Ideal) ((c : Thread nD τ).loc main_v23) :=
  fun i => spec (V c main_arg0) (V c main_v7) (V c main_arg3) (i 0) (i 1)

/-- The body's product at entry `(p, q)` of point `t`'s block is the result's entry at any index in row `5000 t + p`, column `q`. -/
theorem entry_eq (c : Dev nD) (t : Fin cfg0.N) (p : Fin 5000) (q : Fin 128) (i : S100000x128.Idx)
    (h0 : (i 0).val = t.val * 5000 + p.val) (h1 : (i 1).val = q.val) :
    k0_pay1 (F := Ideal) (iblk0 V c 0 t) (iblk0 V c 1 t) (iblk0 V c 2 t) (ix2 p q) = G V c i := by
  obtain ⟨r, j, rfl⟩ : ∃ (r : Fin 100000) (j : Fin 128), i = ix2 r j := ⟨i 0, i 1, eq_ix2 i⟩
  have hj : j = q := Fin.ext h1
  subst hj
  refine (pay_apply _ _ _ p j).trans ?_
  show _ = spec (V c main_arg0) (V c main_v7) (V c main_arg3) r j
  unfold spec
  refine Finset.sum_congr rfl fun k _ => ?_
  rw [blk0_apply V c t (ix2 p k) (ix2 r k) h0 rfl, blk1_apply V c t (ix2 p (0 : Fin 1)) (ix2 r (0 : Fin 1)) h0 rfl,
    blk2_apply V c t (ix2 k j)]

/-- What point `t` writes back is block `t` of the result array. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨-, -, -, -, -, -, e0, e1⟩ := idx_facts t
  refine funext fun (y : S5000x128.Idx) => ?_
  obtain ⟨p, q, rfl⟩ : ∃ (p : Fin 5000) (q : Fin 128), y = ix2 p q := ⟨y 0, y 1, eq_ix2 y⟩
  rw [View.read_apply]
  show k0_pay1 (F := Ideal) (iblk0 V c 0 t) (iblk0 V c 1 t) (iblk0 V c 2 t) (ix2 p q) = G V c (((cfg0.win 3).blk t).view.emb (ix2 p q))
  refine entry_eq V c t p q _ ?_ ?_
  · show win0_3.index t (0 : Fin 2) * 5000 + 1 * p.val = t.val * 5000 + p.val; rw [e0]; omega
  · show win0_3.index t (1 : Fin 2) * 128 + 1 * q.val = q.val; rw [e1]; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Row `r` lies in the block of point `r / 5000`: the twenty row blocks cover the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The array after the region is the result array. -/
theorem final (c : Dev nD) : (dat0 (F := Ideal) V c).arrAt 3 cfg0.N = G V c :=
  (dat0 (F := Ideal) V c).arrAt_eq_of_cover 3 (G V c) (fun t _ => flushed_eq V c t) cover

/-- Entry by entry. -/
theorem arr (c : Dev nD) (r : Fin 100000) (j : Fin 128) :
    (Gen.dat0 (F := Ideal) V c).arrAt 3 cfg0.N (ix2 r j) = spec (V c main_arg0) (V c main_v7) (V c main_arg3) r j := by
  rw [final V c]
  rfl

/-- The same with the three arrays named. -/
theorem arr_of (c : Dev nD) (A0 : Vec Ideal S100000x128 .f32) (A1 : Vec Ideal S100000x1 .f32) (A2 : Vec Ideal S128x128 .f32)
    (h0 : V c main_arg0 = A0) (h1 : V c main_v7 = A1) (h2 : V c main_arg3 = A2) (r : Fin 100000) (j : Fin 128) :
    (Gen.dat0 (F := Ideal) V c).arrAt 3 cfg0.N (ix2 r j)
      = ∑ k : Fin 128, (A0 (ix2 r k) * A1 (ix2 r (0 : Fin 1))) * A2 (ix2 k j) := by
  subst h0 h1 h2
  exact arr V c r j

end Cert.KernelIdeal.Reg0

end
-- ==== Proof.Reg2.lean ====
/-
  Region 2 (one row block of 5000 rows per grid point): the output array after the region, entry by entry.
  Row r of the aggregated features is scaled by the row's in-degree factor and shifted by the bias; each column k is
  centred by its mean, scaled by the reciprocal square root of its variance plus a small constant and by its gain,
  shifted, and clipped below at zero; the row is scaled by its out-degree factor and multiplied with the whole
  weight matrix:
  (r, j) ↦ ∑ k, (max (((A (r,k) * d (r,0) + b (0,k)) - μ (0,k)) * rsqrt (σ² (0,k) + ε) * γ (0,k) + β (0,k)) 0 * d' (r,0)) * W (k,j).
-/
import proofs.«155254_j19997367730788_2_alg».proof.Proof.Gen.KernelIdeal.Frame
import proofs.«155254_j19997367730788_2_alg».proof.Proof.RegLemmas
import Idealize.ShloMosaic.Lib.Pipeline.Value
import Idealize.ShloMosaic.Lib.ValueLayout

set_option maxHeartbeats 400000

noncomputable section

open scoped BigOperators
open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.RegLemmas

/-- The matrix unit's product at one entry of a block: row p of the left block against column q of the weights. -/
theorem pay1_apply (a : FVec Ideal S5000x128 .bf16) (w : Vec Ideal S128x128 .f32) (p : Fin 5000) (q : Fin 128) :
    Gen.k2_pay1 (F := Ideal) a (Gen.k2_pay3 w) (constant S5000x128 .f32 0x00000000#32) (ix2 p q)
      = ∑ k : Fin 128, a (ix2 p k) * w (ix2 k q) := by
  unfold Gen.k2_pay1 Gen.k2_pay3
  exact matmul_plain_zero_apply (M := 5000) (K := 128) (N := 128) none _ _ p q

/-- The normalized, clipped and rescaled block at one entry. -/
theorem pay2_apply (v0 : Vec Ideal S5000x128 .f32) (v2 : Vec Ideal S5000x1 .f32) (v6 v10 v15 v21 v25 : Vec Ideal S1x128 .f32)
    (v31 : Vec Ideal S5000x1 .f32) (p : Fin 5000) (k : Fin 128) :
    Gen.k2_pay2 (F := Ideal) v0 v2 v6 v10 v15 v21 v25 v31 (ix2 p k)
      = max (((v0 (ix2 p k) * v2 (ix2 p (0 : Fin 1)) + v6 (ix2 (0 : Fin 1) k)) - v15 (ix2 (0 : Fin 1) k))
              * Ideal.rsqrt (v10 (ix2 (0 : Fin 1) k) + Ideal.ofBits .f32 0x3727C5AC#32)
              * v21 (ix2 (0 : Fin 1) k) + v25 (ix2 (0 : Fin 1) k)) 0
          * v31 (ix2 p (0 : Fin 1)) := by
  have b2 := broadcastTo_a1_ab_apply v2 broadcasts_S5000x1_S5000x128 p k
  have b6 := broadcastTo_1b_ab_apply v6 broadcasts_S1x128_S5000x128 p k
  have b15 := broadcastTo_1b_ab_apply v15 broadcasts_S1x128_S5000x128 p k
  have b14 : broadcastTo S5000x128 (rsqrt (addf v10 (broadcast S1x128 (Scalar.ofBits (F := Ideal) .f32 0x3727C5AC#32)))) broadcasts_S1x128_S5000x128 (ix2 p k)
      = Ideal.rsqrt (v10 (ix2 (0 : Fin 1) k) + Ideal.ofBits .f32 0x3727C5AC#32) :=
    broadcastTo_1b_ab_apply _ broadcasts_S1x128_S5000x128 p k
  have b21 := broadcastTo_1b_ab_apply v21 broadcasts_S1x128_S5000x128 p k
  have b25 := broadcastTo_1b_ab_apply v25 broadcasts_S1x128_S5000x128 p k
  have b31 := broadcastTo_a1_ab_apply v31 broadcasts_S5000x1_S5000x128 p k
  unfold Gen.k2_pay2
  simp only [shapeCast_self]
  rw [← b2, ← b6, ← b15, ← b14, ← b21, ← b25, ← b31, ← Ideal.ofBits_zero_f32]
  rfl

/-- The body's stored block at one entry. -/
theorem pay_apply (x0 : Vec Ideal S5000x128 .f32) (x1 : Vec Ideal S5000x1 .f32) (x2 x3 x4 x5 x6 : Vec Ideal S1x128 .f32)
    (x7 : Vec Ideal S5000x1 .f32) (x8 : Vec Ideal S128x128 .f32) (p : Fin 5000) (q : Fin 128) :
    Gen.k2_pay1 (F := Ideal) (Gen.k2_pay2 x0 x1 x2 x6 x5 x3 x4 x7) (Gen.k2_pay3 x8) (constant S5000x128 .f32 0x00000000#32) (ix2 p q)
      = ∑ k : Fin 128,
          (max (((x0 (ix2 p k) * x1 (ix2 p (0 : Fin 1)) + x2 (ix2 (0 : Fin 1) k)) - x5 (ix2 (0 : Fin 1) k))
                  * Ideal.rsqrt (x6 (ix2 (0 : Fin 1) k) + Ideal.ofBits .f32 0x3727C5AC#32)
                  * x3 (ix2 (0 : Fin 1) k) + x4 (ix2 (0 : Fin 1) k)) 0
            * x7 (ix2 p (0 : Fin 1)))
          * x8 (ix2 k q) := by
  refine (pay1_apply _ x8 p q).trans ?_
  refine Finset.sum_congr rfl fun k _ => ?_
  exact congrArg (fun z => z * x8 (ix2 k q)) (pay2_apply x0 x1 x2 x6 x5 x3 x4 x7 p k)

variable (V : (c : Dev nD) → (b : Ref sig .tc) → Buf (Elt Ideal) ((c : Thread nD τ).loc b))

theorem hz : (![0, 0] : Fin 2 → Nat) = fun _ => 0 := funext fun a => by fin_cases a <;> rfl

/-- Window 0's printed index map over the grid: row block `t`. -/
theorem idx_0 : ∀ t : Fin cfg2.N, win2_0.index t (0 : Fin 2) = t.val ∧ win2_0.index t (1 : Fin 2) = 0 :=
  (by decide +kernel : ∀ t : Fin grid2.N, _)
/-- Window 1's printed index map over the grid: row block `t`. -/
theorem idx_1 : ∀ t : Fin cfg2.N, win2_1.index t (0 : Fin 2) = t.val ∧ win2_1.index t (1 : Fin 2) = 0 :=
  (by decide +kernel : ∀ t : Fin grid2.N, _)
/-- Window 2's printed index map over the grid: the whole array at every point. -/
theorem idx_2 : ∀ t : Fin cfg2.N, win2_2.index t (0 : Fin 2) = 0 ∧ win2_2.index t (1 : Fin 2) = 0 :=
  (by decide +kernel : ∀ t : Fin grid2.N, _)
/-- Window 3's printed index map over the grid: the whole array at every point. -/
theorem idx_3 : ∀ t : Fin cfg2.N, win2_3.index t (0 : Fin 2) = 0 ∧ win2_3.index t (1 : Fin 2) = 0 :=
  (by decide +kernel : ∀ t : Fin grid2.N, _)
/-- Window 4's printed index map over the grid: the whole array at every point. -/
theorem idx_4 : ∀ t : Fin cfg2.N, win2_4.index t (0 : Fin 2) = 0 ∧ win2_4.index t (1 : Fin 2) = 0 :=
  (by decide +kernel : ∀ t : Fin grid2.N, _)
/-- Window 5's printed index map over the grid: the whole array at every point. -/
theorem idx_5 : ∀ t : Fin cfg2.N, win2_5.index t (0 : Fin 2) = 0 ∧ win2_5.index t (1 : Fin 2) = 0 :=
  (by decide +kernel : ∀ t : Fin grid2.N, _)
/-- Window 6's printed index map over the grid: the whole array at every point. -/
theorem idx_6 : ∀ t : Fin cfg2.N, win2_6.index t (0 : Fin 2) = 0 ∧ win2_6.index t (1 : Fin 2) = 0 :=
  (by decide +kernel : ∀ t : Fin grid2.N, _)
/-- Window 7's printed index map over the grid: row block `t`. -/
theorem idx_7 : ∀ t : Fin cfg2.N, win2_7.index t (0 : Fin 2) = t.val ∧ win2_7.index t (1 : Fin 2) = 0 :=
  (by decide +kernel : ∀ t : Fin grid2.N, _)
/-- Window 8's printed index map over the grid: the whole array at every point. -/
theorem idx_8 : ∀ t : Fin cfg2.N, win2_8.index t (0 : Fin 2) = 0 ∧ win2_8.index t (1 : Fin 2) = 0 :=
  (by decide +kernel : ∀ t : Fin grid2.N, _)
/-- The output window's printed index map over the grid: row block `t`. -/
theorem idx_9 : ∀ t : Fin cfg2.N, win2_9.index t (0 : Fin 2) = t.val ∧ win2_9.index t (1 : Fin 2) = 0 :=
  (by decide +kernel : ∀ t : Fin grid2.N, _)

/-- Window 0's block at point `t` is rows `5000 t … 5000 t + 4999` of its array. -/
theorem blk0_apply (c : Dev nD) (t : Fin cfg2.N) (x : S5000x128.Idx) (i : S100000x128.Idx)
    (h0 : (i 0).val = t.val * 5000 + (x 0).val) (h1 : (i 1).val = (x 1).val) :
    (iblk2 V c 0 t : Vec Ideal S5000x128 .f32) x = V c main_v34 i := by
  obtain ⟨e0, e1⟩ := idx_0 t
  unfold iblk2
  rw [View.read_apply]
  show V c main_v34 _ = V c main_v34 _
  refine congrArg (V c main_v34) (funext fun a => Fin.ext ?_)
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- Window 1's block at point `t` is rows `5000 t … 5000 t + 4999` of its array. -/
theorem blk1_apply (c : Dev nD) (t : Fin cfg2.N) (x : S5000x1.Idx) (i : S100000x1.Idx)
    (h0 : (i 0).val = t.val * 5000 + (x 0).val) (h1 : (i 1).val = (x 1).val) :
    (iblk2 V c 1 t : Vec Ideal S5000x1 .f32) x = V c main_v15 i := by
  obtain ⟨e0, e1⟩ := idx_1 t
  unfold iblk2
  rw [View.read_apply]
  show V c main_v15 _ = V c main_v15 _
  refine congrArg (V c main_v15) (funext fun a => Fin.ext ?_)
  match a with
  | ⟨0, _⟩ => show win2_1.index t (0 : Fin 2) * 5000 + 1 * (x 0).val = (i 0).val; rw [e0, h0]; omega
  | ⟨1, _⟩ => show win2_1.index t (1 : Fin 2) * 1 + 1 * (x 1).val = (i 1).val; rw [e1, h1]; omega

/-- Window 2's block at every point is its whole array. -/
theorem blk2_apply (c : Dev nD) (t : Fin cfg2.N) (x : S1x128.Idx) :
    (iblk2 V c 2 t : Vec Ideal S1x128 .f32) x = V c main_v16 x := by
  obtain ⟨e0, e1⟩ := idx_2 t
  unfold iblk2
  rw [View.read_apply]
  show V c main_v16 _ = V c main_v16 _
  refine congrArg (V c main_v16) (funext fun a => Fin.ext ?_)
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- Window 3's block at every point is its whole array. -/
theorem blk3_apply (c : Dev nD) (t : Fin cfg2.N) (x : S1x128.Idx) :
    (iblk2 V c 3 t : Vec Ideal S1x128 .f32) x = V c main_v17 x := by
  obtain ⟨e0, e1⟩ := idx_3 t
  unfold iblk2
  rw [View.read_apply]
  show V c main_v17 _ = V c main_v17 _
  refine congrArg (V c main_v17) (funext fun a => Fin.ext ?_)
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- Window 4's block at every point is its whole array. -/
theorem blk4_apply (c : Dev nD) (t : Fin cfg2.N) (x : S1x128.Idx) :
    (iblk2 V c 4 t : Vec Ideal S1x128 .f32) x = V c main_v18 x := by
  obtain ⟨e0, e1⟩ := idx_4 t
  unfold iblk2
  rw [View.read_apply]
  show V c main_v18 _ = V c main_v18 _
  refine congrArg (V c main_v18) (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Window 5's block at every point is its whole array. -/
theorem blk5_apply (c : Dev nD) (t : Fin cfg2.N) (x : S1x128.Idx) :
    (iblk2 V c 5 t : Vec Ideal S1x128 .f32) x = V c main_v37 x := by
  obtain ⟨e0, e1⟩ := idx_5 t
  unfold iblk2
  rw [View.read_apply]
  show V c main_v37 _ = V c main_v37 _
  refine congrArg (V c main_v37) (funext fun a => Fin.ext ?_)
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- Window 6's block at every point is its whole array. -/
theorem blk6_apply (c : Dev nD) (t : Fin cfg2.N) (x : S1x128.Idx) :
    (iblk2 V c 6 t : Vec Ideal S1x128 .f32) x = V c main_v41 x := by
  obtain ⟨e0, e1⟩ := idx_6 t
  unfold iblk2
  rw [View.read_apply]
  show V c main_v41 _ = V c main_v41 _
  refine congrArg (V c main_v41) (funext fun a => Fin.ext ?_)
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- Window 7's block at point `t` is rows `5000 t … 5000 t + 4999` of its array. -/
theorem blk7_apply (c : Dev nD) (t : Fin cfg2.N) (x : S5000x1.Idx) (i : S100000x1.Idx)
    (h0 : (i 0).val = t.val * 5000 + (x 0).val) (h1 : (i 1).val = (x 1).val) :
    (iblk2 V c 7 t : Vec Ideal S5000x1 .f32) x = V c main_v7 i := by
  obtain ⟨e0, e1⟩ := idx_7 t
  unfold iblk2
  rw [View.read_apply]
  show V c main_v7 _ = V c main_v7 _
  refine congrArg (V c main_v7) (funext fun a => Fin.ext ?_)
  match a with
  | ⟨0, _⟩ => show win2_7.index t (0 : Fin 2) * 5000 + 1 * (x 0).val = (i 0).val; rw [e0, h0]; omega
  | ⟨1, _⟩ => show win2_7.index t (1 : Fin 2) * 1 + 1 * (x 1).val = (i 1).val; rw [e1, h1]; omega

/-- Window 8's block at every point is its whole array. -/
theorem blk8_apply (c : Dev nD) (t : Fin cfg2.N) (x : S128x128.Idx) :
    (iblk2 V c 8 t : Vec Ideal S128x128 .f32) x = V c main_arg7 x := by
  obtain ⟨e0, e1⟩ := idx_8 t
  unfold iblk2
  rw [View.read_apply]
  show V c main_arg7 _ = V c main_arg7 _
  refine congrArg (V c main_arg7) (funext fun a => Fin.ext ?_)
  match a with
  | ⟨0, _⟩ => show win2_8.index t (0 : Fin 2) * 128 + 1 * (x 0).val = (x 0).val; rw [e0]; omega
  | ⟨1, _⟩ => show win2_8.index t (1 : Fin 2) * 128 + 1 * (x 1).val = (x 1).val; rw [e1]; omega

/-- Entry `(r, j)` of the result, over the nine arrays in window order. -/
def spec (A0 : Vec Ideal S100000x128 .f32) (A1 : Vec Ideal S100000x1 .f32) (A2 A3 A4 A5 A6 : Vec Ideal S1x128 .f32)
    (A7 : Vec Ideal S100000x1 .f32) (A8 : Vec Ideal S128x128 .f32) (r : Fin 100000) (j : Fin 128) : EReal :=
  ∑ k : Fin 128,
    (max (((A0 (ix2 r k) * A1 (ix2 r (0 : Fin 1)) + A2 (ix2 (0 : Fin 1) k)) - A5 (ix2 (0 : Fin 1) k))
            * Ideal.rsqrt (A6 (ix2 (0 : Fin 1) k) + Ideal.ofBits .f32 0x3727C5AC#32)
            * A3 (ix2 (0 : Fin 1) k) + A4 (ix2 (0 : Fin 1) k)) 0
      * A7 (ix2 r (0 : Fin 1)))
    * A8 (ix2 k j)

/-- The whole result array. -/
def G (c : Dev nD) : Buf (Elt Ideal) ((c : Thread nD τ).loc main_v42) :=
  fun i => spec (V c main_v34) (V c main_v15) (V c main_v16) (V c main_v17) (V c main_v18) (V c main_v37) (V c main_v41)
    (V c main_v7) (V c main_arg7) (i 0) (i 1)

/-- The body's stored block at entry `(p, q)` of point `t` is the result's entry at any index in row `5000 t + p`, column `q`. -/
theorem entry_eq (c : Dev nD) (t : Fin cfg2.N) (p : Fin 5000) (q : Fin 128) (i : S100000x128.Idx)
    (h0 : (i 0).val = t.val * 5000 + p.val) (h1 : (i 1).val = q.val) :
    k2_pay1 (F := Ideal) (k2_pay2 (iblk2 V c 0 t) (iblk2 V c 1 t) (iblk2 V c 2 t) (iblk2 V c 6 t) (iblk2 V c 5 t) (iblk2 V c 3 t)
        (iblk2 V c 4 t) (iblk2 V c 7 t)) (k2_pay3 (iblk2 V c 8 t)) (constant S5000x128 .f32 0x00000000#32) (ix2 p q) = G V c i := by
  obtain ⟨r, j, rfl⟩ : ∃ (r : Fin 100000) (j : Fin 128), i = ix2 r j := ⟨i 0, i 1, eq_ix2 i⟩
  have hj : j = q := Fin.ext h1
  subst hj
  refine (pay_apply _ _ _ _ _ _ _ _ _ p j).trans ?_
  show _ = spec (V c main_v34) (V c main_v15) (V c main_v16) (V c main_v17) (V c main_v18) (V c main_v37) (V c main_v41)
    (V c main_v7) (V c main_arg7) r j
  unfold spec
  refine Finset.sum_congr rfl fun k _ => ?_
  rw [blk0_apply V c t (ix2 p k) (ix2 r k) h0 rfl, blk1_apply V c t (ix2 p (0 : Fin 1)) (ix2 r (0 : Fin 1)) h0 rfl,
    blk2_apply V c t (ix2 (0 : Fin 1) k), blk3_apply V c t (ix2 (0 : Fin 1) k), blk4_apply V c t (ix2 (0 : Fin 1) k),
    blk5_apply V c t (ix2 (0 : Fin 1) k), blk6_apply V c t (ix2 (0 : Fin 1) k),
    blk7_apply V c t (ix2 p (0 : Fin 1)) (ix2 r (0 : Fin 1)) h0 rfl, blk8_apply V c t (ix2 k j)]

/-- What point `t` writes back is block `t` of the result array. -/
theorem flushed_eq (c : Dev nD) (t : Fin cfg2.N) :
    (dat2 (F := Ideal) V c).flushed 9 t = ((cfg2.win 9).blk t).view.read (Elt Ideal) (G V c) := by
  show (cfg2.win 9).cut (grid2.coords t) ((dat2 V c).after 9 t) = _
  rw [after2_9]
  unfold out2_9
  rw [View.canon_unit_zero hz]
  simp only [View.ld_unit_zero (S := S5000x128) hz, View.ld_unit_zero (S := S5000x1) hz, View.ld_unit_zero (S := S1x128) hz,
    View.ld_unit_zero (S := S128x128) hz]
  obtain ⟨e0, e1⟩ := idx_9 t
  refine funext fun (y : S5000x128.Idx) => ?_
  obtain ⟨p, q, rfl⟩ : ∃ (p : Fin 5000) (q : Fin 128), y = ix2 p q := ⟨y 0, y 1, eq_ix2 y⟩
  rw [View.read_apply]
  show k2_pay1 (F := Ideal) (k2_pay2 (iblk2 V c 0 t) (iblk2 V c 1 t) (iblk2 V c 2 t) (iblk2 V c 6 t) (iblk2 V c 5 t) (iblk2 V c 3 t)
        (iblk2 V c 4 t) (iblk2 V c 7 t)) (k2_pay3 (iblk2 V c 8 t)) (constant S5000x128 .f32 0x00000000#32) (ix2 p q)
      = G V c (((cfg2.win 9).blk t).view.emb (ix2 p q))
  refine entry_eq V c t p q _ ?_ ?_
  · show win2_9.index t (0 : Fin 2) * 5000 + 1 * p.val = t.val * 5000 + p.val; rw [e0]; omega
  · show win2_9.index t (1 : Fin 2) * 128 + 1 * q.val = q.val; rw [e1]; omega

/-- An index of the array is in point `t`'s block iff each coordinate is in the block's range on its axis. -/
theorem mem_blk (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v42).slice (win2_9.rect t)).set ↔ _
  rw [View.set_slice_whole, Rect.mem_set_unit]
  exact Iff.rfl

/-- Row `r` lies in the block of point `r / 5000`: the twenty row blocks cover the array. -/
theorem cover (i : S100000x128.Idx) : ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e0, e1⟩ := idx_9 t
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; rw [e0, ht]; omega
  | ⟨1, _⟩ => show win2_9.index t (1 : Fin 2) * 128 ≤ (i 1).val ∧ (i 1).val < win2_9.index t (1 : Fin 2) * 128 + 128; rw [e1]; omega

/-- The array after the region is the result array. -/
theorem final (c : Dev nD) : (dat2 (F := Ideal) V c).arrAt 9 cfg2.N = G V c :=
  (dat2 (F := Ideal) V c).arrAt_eq_of_cover 9 (G V c) (fun t _ => flushed_eq V c t) cover

/-- Entry by entry. -/
theorem arr (c : Dev nD) (r : Fin 100000) (j : Fin 128) :
    (Gen.dat2 (F := Ideal) V c).arrAt 9 cfg2.N (ix2 r j)
      = spec (V c main_v34) (V c main_v15) (V c main_v16) (V c main_v17) (V c main_v18) (V c main_v37) (V c main_v41)
          (V c main_v7) (V c main_arg7) r j := by
  rw [final V c]
  rfl

/-- The same with the nine arrays named. -/
theorem arr_of (c : Dev nD) (A0 : Vec Ideal S100000x128 .f32) (A1 : Vec Ideal S100000x1 .f32) (A2 A3 A4 A5 A6 : Vec Ideal S1x128 .f32)
    (A7 : Vec Ideal S100000x1 .f32) (A8 : Vec Ideal S128x128 .f32)
    (h0 : V c main_v34 = A0) (h1 : V c main_v15 = A1) (h2 : V c main_v16 = A2) (h3 : V c main_v17 = A3) (h4 : V c main_v18 = A4)
    (h5 : V c main_v37 = A5) (h6 : V c main_v41 = A6) (h7 : V c main_v7 = A7) (h8 : V c main_arg7 = A8)
    (r : Fin 100000) (j : Fin 128) :
    (Gen.dat2 (F := Ideal) V c).arrAt 9 cfg2.N (ix2 r j)
      = ∑ k : Fin 128,
          (max (((A0 (ix2 r k) * A1 (ix2 r (0 : Fin 1)) + A2 (ix2 (0 : Fin 1) k)) - A5 (ix2 (0 : Fin 1) k))
                  * Ideal.rsqrt (A6 (ix2 (0 : Fin 1) k) + Ideal.ofBits .f32 0x3727C5AC#32)
                  * A3 (ix2 (0 : Fin 1) k) + A4 (ix2 (0 : Fin 1) k)) 0
            * A7 (ix2 r (0 : Fin 1)))
          * A8 (ix2 k j) := by
  subst h0 h1 h2 h3 h4 h5 h6 h7 h8
  exact arr V c r j

end Cert.KernelIdeal.Reg2

end
-- ==== Proof.Reg4.lean ====
/-
  The last row-blocked region of the program: per block of 5000 rows, the body takes the rows' aggregate
  `agg` [5000,128] and inverse degree [5000,1], and the whole parameter rows (bias, scale `gamma`, shift `beta`,
  batch mean, batch variance: [1,128] each; the class weights [128,16]; the class bias [1,16]), and stores

      relu(((agg · invdeg + bias) − mean) · rsqrt(var + eps) · gamma + beta) · W + bc      [5000,16].

  Here: that value at one element of the block as a sum over the 128 features (the matrix product into a zero
  accumulator read at an index; a change of float format is the identity on extended reals); each window's block at
  grid point `t` read off its array (rows `5000 t … 5000 t + 4999` for the two row-blocked inputs, the whole array for
  the parameters); hence what point `t` writes back is block `t` of ONE function `G` of the nine arrays; the 20
  blocks cover the 100000 rows (row `r` lies in block `r / 5000`), so the array after the run is `G`.
-/
import proofs.«155254_j19997367730788_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Layout lemmas -/

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction of the final projection -/

theorem lhs_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The matrix unit's product into the zero accumulator, at row `p` and column `j`: the sum over the 128
    contracted features. -/
theorem matmul_apply (l : FVec Ideal S5000x128 .bf16) (r : FVec Ideal S128x16 .bf16) (p : Fin 5000) (j : Fin 16) :
    matmul dot_S5000x128_S128x16_S5000x16_1_0_0_1_n_n none l r (constant (F := Ideal) S5000x16 .f32 0x00000000#32) (ix2 p j)
      = ∑ k : Fin 128, l (ix2 p k) * r (ix2 k j) := by
  refine (Ideal.matmul_constant_zero_apply dot_S5000x128_S128x16_S5000x16_1_0_0_1_n_n none l r (ix2 p j)).trans ?_
  rw [← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p j) ((contrEquiv1 dot_S5000x128_S128x16_S5000x16_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x16_S5000x16_1_0_0_1_n_n.rhsIdx (ix2 p j) ((contrEquiv1 dot_S5000x128_S128x16_S5000x16_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The body's value at one element -/

/-- The body's stored value at row `p`, column `j` of the block: the row's aggregate scaled by its inverse
    degree plus the bias, normalized by the batch statistics, scaled, shifted and rectified, projected on
    the 16 classes, plus the class bias. -/
theorem pay_apply (x0 : Vec Ideal S5000x128 .f32) (x1 : Vec Ideal S5000x1 .f32) (x2 x3 x4 x5 x6 : Vec Ideal S1x128 .f32)
    (x7 : Vec Ideal S128x16 .f32) (x8 : Vec Ideal S1x16 .f32) (p : Fin 5000) (j : Fin 16) :
    k4_pay1 (k4_pay2 x0 x1 x2 x6 x5 x3 x4 x7) (k4_pay3 x8) (ix2 p j)
      = (∑ k : Fin 128,
          max (((x0 (ix2 p k) * x1 (ix2 p (0 : Fin 1)) + x2 (ix2 (0 : Fin 1) k)) - x5 (ix2 (0 : Fin 1) k))
                  * Ideal.rsqrt (x6 (ix2 (0 : Fin 1) k) + Ideal.ofBits .f32 0x3727C5AC#32)
                  * x3 (ix2 (0 : Fin 1) k) + x4 (ix2 (0 : Fin 1) k)) 0
            * x7 (ix2 k j))
        + x8 (ix2 (0 : Fin 1) j) := by
  unfold k4_pay1 k4_pay2 k4_pay3
  simp only [shapeCast_self]
  refine (addf_apply _ _ (ix2 p j)).trans ?_
  refine congrArg₂ (· + ·) ?_ ?_
  · refine (matmul_apply _ _ p j).trans ?_
    refine Finset.sum_congr rfl fun k _ => ?_
    refine congrArg₂ (· * ·) ?_ rfl
    simp only [truncf_apply, maximumf_apply, addf_apply, mulf_apply, subf_apply, broadcast_apply,
      broadcastTo_a1_ab_apply, broadcastTo_1b_ab_apply]
    exact congrArg₂ max rfl Ideal.ofBits_zero_f32
  · exact broadcastTo_1b_ab_apply x8 _ p j

/-! ## The blocks of the row-blocked pipeline -/

variable (V : (c : Dev nD) → (b : Ref sig .tc) → Buf (Elt Ideal) ((c : Thread nD τ).loc b))

theorem hz : (![0, 0] : Fin 2 → Nat) = fun _ => 0 := funext fun a => by fin_cases a <;> rfl

/-- The grid has 20 points. -/
theorem lt20 (t : Fin cfg4.N) : t.val < 20 := Nat.lt_of_lt_of_eq t.isLt Gen.N_4

/-- Row `p` of the block of point `t` is row `5000 t + p` of the array. -/
def rowOf (t : Fin cfg4.N) (p : Fin 5000) : Fin 100000 :=
  ⟨t.val * 5000 + p.val, by have := lt20 t; have := p.isLt; omega⟩

/-- The printed index maps, decided once over the grid: the row-blocked windows (the aggregate, the inverse
    degree and the output) sit at block row `t`; -/
theorem idx0 : ∀ t : Fin cfg4.N, win4_0.index t (0 : Fin 2) = t.val ∧ win4_0.index t (1 : Fin 2) = 0 :=
  (by decide +kernel : ∀ t : Fin grid4.N, _)
theorem idx1 : ∀ t : Fin cfg4.N, win4_1.index t (0 : Fin 2) = t.val ∧ win4_1.index t (1 : Fin 2) = 0 :=
  (by decide +kernel : ∀ t : Fin grid4.N, _)
theorem idx9 : ∀ t : Fin cfg4.N, win4_9.index t (0 : Fin 2) = t.val ∧ win4_9.index t (1 : Fin 2) = 0 :=
  (by decide +kernel : ∀ t : Fin grid4.N, _)
/-- the parameter windows are fetched whole at every point. -/
theorem idx2 : ∀ t : Fin cfg4.N, win4_2.index t (0 : Fin 2) = 0 ∧ win4_2.index t (1 : Fin 2) = 0 :=
  (by decide +kernel : ∀ t : Fin grid4.N, _)
theorem idx3 : ∀ t : Fin cfg4.N, win4_3.index t (0 : Fin 2) = 0 ∧ win4_3.index t (1 : Fin 2) = 0 :=
  (by decide +kernel : ∀ t : Fin grid4.N, _)
theorem idx4 : ∀ t : Fin cfg4.N, win4_4.index t (0 : Fin 2) = 0 ∧ win4_4.index t (1 : Fin 2) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 2) = 0 ∧ win4_6.index t (1 : Fin 2) = 0 :=
  (by decide +kernel : ∀ t : Fin grid4.N, _)
theorem idx7 : ∀ t : Fin cfg4.N, win4_7.index t (0 : Fin 2) = 0 ∧ win4_7.index t (1 : Fin 2) = 0 :=
  (by decide +kernel : ∀ t : Fin grid4.N, _)
theorem idx8 : ∀ t : Fin cfg4.N, win4_8.index t (0 : Fin 2) = 0 ∧ win4_8.index t (1 : Fin 2) = 0 :=
  (by decide +kernel : ∀ t : Fin grid4.N, _)

/-- The aggregate's block at point `t`, read at `(p, k)`. -/
theorem read0 (c : Dev nD) (t : Fin cfg4.N) (p : Fin 5000) (k : Fin 128) :
    (Gen.iblk4 V c 0 t : Vec Ideal S5000x128 .f32) (ix2 p k) = V c main_v53 (ix2 (rowOf t p) k) := by
  obtain ⟨e0, e1⟩ := idx0 t
  show V c main_v53 (((cfg4.win 0).blk t).view.emb (ix2 p k)) = V c main_v53 (ix2 (rowOf t p) k)
  refine congrArg _ (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- The inverse degree's block at point `t`, read at row `p`. -/
theorem read1 (c : Dev nD) (t : Fin cfg4.N) (p : Fin 5000) :
    (Gen.iblk4 V c 1 t : Vec Ideal S5000x1 .f32) (ix2 p (0 : Fin 1)) = V c main_v15 (ix2 (rowOf t p) (0 : Fin 1)) := by
  obtain ⟨e0, e1⟩ := idx1 t
  show V c main_v15 (((cfg4.win 1).blk t).view.emb (ix2 p (0 : Fin 1))) = V c main_v15 (ix2 (rowOf t p) (0 : Fin 1))
  refine congrArg _ (funext fun a => Fin.ext ?_)
  match a with
  | ⟨0, _⟩ => show win4_1.index t (0 : Fin 2) * 5000 + 1 * p.val = t.val * 5000 + p.val; rw [e0]; omega
  | ⟨1, _⟩ => show win4_1.index t (1 : Fin 2) * 1 + 1 * 0 = 0; rw [e1]

/-- Window 2's block is its whole array at every point. -/
theorem blk2 (c : Dev nD) (t : Fin cfg4.N) : (Gen.iblk4 V c 2 t : Vec Ideal S1x128 .f32) = V c main_v19 := by
  obtain ⟨e0, e1⟩ := idx2 t
  funext y
  show V c main_v19 (((cfg4.win 2).blk t).view.emb y) = V c main_v19 y
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- Window 3's block is its whole array at every point. -/
theorem blk3 (c : Dev nD) (t : Fin cfg4.N) : (Gen.iblk4 V c 3 t : Vec Ideal S1x128 .f32) = V c main_v20 := by
  obtain ⟨e0, e1⟩ := idx3 t
  funext y
  show V c main_v20 (((cfg4.win 3).blk t).view.emb y) = V c main_v20 y
  refine congrArg _ (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- Window 4's block is its whole array at every point. -/
theorem blk4 (c : Dev nD) (t : Fin cfg4.N) : (Gen.iblk4 V c 4 t : Vec Ideal S1x128 .f32) = V c main_v21 := by
  obtain ⟨e0, e1⟩ := idx4 t
  funext y
  show V c main_v21 (((cfg4.win 4).blk t).view.emb y) = V c main_v21 y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- Window 5's block is its whole array at every point. -/
theorem blk5 (c : Dev nD) (t : Fin cfg4.N) : (Gen.iblk4 V c 5 t : Vec Ideal S1x128 .f32) = V c main_v56 := by
  obtain ⟨e0, e1⟩ := idx5 t
  funext y
  show V c main_v56 (((cfg4.win 5).blk t).view.emb y) = V c main_v56 y
  refine congrArg _ (funext fun a => Fin.ext ?_)
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

/-- Window 6's block is its whole array at every point. -/
theorem blk6 (c : Dev nD) (t : Fin cfg4.N) : (Gen.iblk4 V c 6 t : Vec Ideal S1x128 .f32) = V c main_v60 := by
  obtain ⟨e0, e1⟩ := idx6 t
  funext y
  show V c main_v60 (((cfg4.win 6).blk t).view.emb y) = V c main_v60 y
  refine congrArg _ (funext fun a => Fin.ext ?_)
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-- Window 7's block is its whole array at every point. -/
theorem blk7 (c : Dev nD) (t : Fin cfg4.N) : (Gen.iblk4 V c 7 t : Vec Ideal S128x16 .f32) = V c main_arg11 := by
  obtain ⟨e0, e1⟩ := idx7 t
  funext y
  show V c main_arg11 (((cfg4.win 7).blk t).view.emb y) = V c main_arg11 y
  refine congrArg _ (funext fun a => Fin.ext ?_)
  match a with
  | ⟨0, _⟩ => show win4_7.index t (0 : Fin 2) * 128 + 1 * (y 0).val = (y 0).val; rw [e0]; omega
  | ⟨1, _⟩ => show win4_7.index t (1 : Fin 2) * 16 + 1 * (y 1).val = (y 1).val; rw [e1]; omega

/-- Window 8's block is its whole array at every point. -/
theorem blk8 (c : Dev nD) (t : Fin cfg4.N) : (Gen.iblk4 V c 8 t : Vec Ideal S1x16 .f32) = V c main_v22 := by
  obtain ⟨e0, e1⟩ := idx8 t
  funext y
  show V c main_v22 (((cfg4.win 8).blk t).view.emb y) = V c main_v22 y
  refine congrArg _ (funext fun a => Fin.ext ?_)
  match a with
  | ⟨0, _⟩ => show win4_8.index t (0 : Fin 2) * 1 + 1 * (y 0).val = (y 0).val; rw [e0]; omega
  | ⟨1, _⟩ => show win4_8.index t (1 : Fin 2) * 16 + 1 * (y 1).val = (y 1).val; rw [e1]; omega

/-! ## The whole array -/

/-- Row `r`, class `j` of the result, from the nine arrays the region reads: the row's aggregate times its
    inverse degree plus the bias, batch-normalized (`(y - mean) · rsqrt(var + eps) · gamma + beta`), rectified,
    projected on the classes, plus the class bias. -/
def spec (A0 : Vec Ideal S100000x128 .f32) (A1 : Vec Ideal S100000x1 .f32) (b g be mu var : Vec Ideal S1x128 .f32)
    (W : Vec Ideal S128x16 .f32) (bc : Vec Ideal S1x16 .f32) (r : Fin 100000) (j : Fin 16) : EReal :=
  (∑ k : Fin 128,
      max (((A0 (ix2 r k) * A1 (ix2 r (0 : Fin 1)) + b (ix2 (0 : Fin 1) k)) - mu (ix2 (0 : Fin 1) k))
              * Ideal.rsqrt (var (ix2 (0 : Fin 1) k) + Ideal.ofBits .f32 0x3727C5AC#32)
              * g (ix2 (0 : Fin 1) k) + be (ix2 (0 : Fin 1) k)) 0
        * W (ix2 k j))
    + bc (ix2 (0 : Fin 1) j)

/-- The output array as one function of the arrays the region finds. -/
def G (c : Dev nD) : Vec Ideal S100000x16 .f32 := fun i =>
  spec (V c main_v53) (V c main_v15) (V c main_v19) (V c main_v20) (V c main_v21) (V c main_v56) (V c main_v60)
    (V c main_arg11) (V c main_v22) ⟨(i 0).val, (i 0).isLt⟩ ⟨(i 1).val, (i 1).isLt⟩

/-- The body's value at row `p` of a block whose row `p` is the arrays' row `r`. -/
theorem point_eq (x0 : Vec Ideal S5000x128 .f32) (x1 : Vec Ideal S5000x1 .f32) (x2 x3 x4 x5 x6 : Vec Ideal S1x128 .f32)
    (x7 : Vec Ideal S128x16 .f32) (x8 : Vec Ideal S1x16 .f32)
    (A0 : Vec Ideal S100000x128 .f32) (A1 : Vec Ideal S100000x1 .f32) (r : Fin 100000) (p : Fin 5000)
    (h0 : ∀ k : Fin 128, x0 (ix2 p k) = A0 (ix2 r k)) (h1 : x1 (ix2 p (0 : Fin 1)) = A1 (ix2 r (0 : Fin 1))) (j : Fin 16) :
    k4_pay1 (k4_pay2 x0 x1 x2 x6 x5 x3 x4 x7) (k4_pay3 x8) (ix2 p j) = spec A0 A1 x2 x3 x4 x5 x6 x7 x8 r j := by
  rw [pay_apply, h1]
  unfold spec
  simp only [h0]

/-- What point `t` writes back is block `t` of `G`. -/
theorem flushed_eq (c : Dev nD) (t : Fin cfg4.N) :
    (Gen.dat4 (F := Ideal) V c).flushed 9 t = ((cfg4.win 9).blk t).view.read (Elt Ideal) (G V c) := by
  show (cfg4.win 9).cut (grid4.coords t) ((Gen.dat4 (F := Ideal) V c).after 9 t) = _
  rw [Gen.after4_9]
  unfold Gen.out4_9
  rw [View.canon_unit_zero hz]
  simp only [View.ld_unit_zero (S := S5000x128) hz, View.ld_unit_zero (S := S5000x1) hz,
    View.ld_unit_zero (S := S1x128) hz, View.ld_unit_zero (S := S128x16) hz, View.ld_unit_zero (S := S1x16) hz]
  rw [blk2 V c t, blk3 V c t, blk4 V c t, blk5 V c t, blk6 V c t, blk7 V c t, blk8 V c t]
  funext y
  obtain ⟨p, q, rfl⟩ : ∃ (p : Fin 5000) (q : Fin 16), y = ix2 p q := ⟨y 0, y 1, eq_ix2 y⟩
  obtain ⟨e0, e1⟩ := idx9 t
  have he : ((cfg4.win 9).blk t).view.emb (ix2 p q) = ix2 (rowOf t p) q := funext fun a => Fin.ext (by
    match a with
    | ⟨0, _⟩ => show win4_9.index t (0 : Fin 2) * 5000 + 1 * p.val = t.val * 5000 + p.val; rw [e0]; omega
    | ⟨1, _⟩ => show win4_9.index t (1 : Fin 2) * 16 + 1 * q.val = q.val; rw [e1]; omega)
  show k4_pay1 (k4_pay2 (Gen.iblk4 V c 0 t) (Gen.iblk4 V c 1 t) (V c main_v19) (V c main_v60) (V c main_v56) (V c main_v20)
      (V c main_v21) (V c main_arg11)) (k4_pay3 (V c main_v22)) (ix2 p q)
    = G V c (((cfg4.win 9).blk t).view.emb (ix2 p q))
  rw [he]
  exact point_eq (Gen.iblk4 V c 0 t) (Gen.iblk4 V c 1 t) (V c main_v19) (V c main_v20) (V c main_v21) (V c main_v56)
    (V c main_v60) (V c main_arg11) (V c main_v22) (V c main_v53) (V c main_v15) (rowOf t p) p
    (fun k => read0 V c t p k) (read1 V c t p) q

/-- An index of the array is in point `t`'s block iff each coordinate is in the block's range on its axis. -/
theorem mem_blk (t : Fin cfg4.N) (i : S100000x16.Idx) :
    i ∈ ((cfg4.win 9).blk t).view.set ↔ ∀ a : Fin 2, win4_9.index t a * S5000x16.size a ≤ (i a).val ∧ (i a).val < win4_9.index t a * S5000x16.size a + S5000x16.size a := by
  show i ∈ ((View.whole main_v61).slice (win4_9.rect t)).set ↔ _
  rw [View.set_slice_whole, Rect.mem_set_unit]
  exact Iff.rfl

/-- Row `r` is covered by point `r / 5000`. -/
theorem cover (i : S100000x16.Idx) :
    ∃ t : Fin cfg4.N, (cfg4.win 9).flush t = true ∧ i ∈ ((cfg4.win 9).blk t).view.set := by
  have hi0 : (i 0).val < 100000 := (i 0).isLt
  have hi1 : (i 1).val < 16 := (i 1).isLt
  have hN : cfg4.N = 20 := Gen.N_4
  have ht : (i 0).val / 5000 < cfg4.N := by rw [hN]; omega
  obtain ⟨e0, e1⟩ := idx9 ⟨(i 0).val / 5000, ht⟩
  refine ⟨⟨(i 0).val / 5000, ht⟩, Gen.flush4_9 _, ?_⟩
  rw [mem_blk]
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_9.index ⟨(i 0).val / 5000, ht⟩ (1 : Fin 2) * 16 ≤ (i 1).val ∧ (i 1).val < win4_9.index ⟨(i 0).val / 5000, ht⟩ (1 : Fin 2) * 16 + 16
    rw [e1]; omega

/-- The output array after the run is `G`. -/
theorem arr_eq (c : Dev nD) : (Gen.dat4 (F := Ideal) V c).arrAt 9 cfg4.N = G V c :=
  (Gen.dat4 (F := Ideal) V c).arrAt_eq_of_cover 9 (G V c) (fun t _ => flushed_eq V c t) cover

/-- THE REGION'S RESULT, element by element: `spec` of the nine arrays the region finds. -/
theorem arr (V : (c : Dev nD) → (b : Ref sig .tc) → Buf (Elt Ideal) ((c : Thread nD τ).loc b)) (c : Dev nD) (r : Fin 100000) (j : Fin 16) :
    (Gen.dat4 (F := Ideal) V c).arrAt 9 cfg4.N (ix2 r j)
      = spec (V c main_v53) (V c main_v15) (V c main_v19) (V c main_v20) (V c main_v21) (V c main_v56) (V c main_v60)
          (V c main_arg11) (V c main_v22) r j := by
  rw [arr_eq]
  rfl

/-- The same with the arithmetic written out, over the nine arrays named as functions of literal shapes. -/
theorem arr_of (V : (c : Dev nD) → (b : Ref sig .tc) → Buf (Elt Ideal) ((c : Thread nD τ).loc b)) (c : Dev nD)
    (A0 : Vec Ideal S100000x128 .f32) (A1 : Vec Ideal S100000x1 .f32) (b g be mu var : Vec Ideal S1x128 .f32)
    (W : Vec Ideal S128x16 .f32) (bc : Vec Ideal S1x16 .f32)
    (h0 : V c main_v53 = A0) (h1 : V c main_v15 = A1) (h2 : V c main_v19 = b) (h3 : V c main_v20 = g)
    (h4 : V c main_v21 = be) (h5 : V c main_v56 = mu) (h6 : V c main_v60 = var) (h7 : V c main_arg11 = W)
    (h8 : V c main_v22 = bc) (r : Fin 100000) (j : Fin 16) :
    (Gen.dat4 (F := Ideal) V c).arrAt 9 cfg4.N (ix2 r j)
      = (∑ k : Fin 128,
          max (((A0 (ix2 r k) * A1 (ix2 r (0 : Fin 1)) + b (ix2 (0 : Fin 1) k)) - mu (ix2 (0 : Fin 1) k))
                  * Ideal.rsqrt (var (ix2 (0 : Fin 1) k) + Ideal.ofBits .f32 0x3727C5AC#32)
                  * g (ix2 (0 : Fin 1) k) + be (ix2 (0 : Fin 1) k)) 0
            * W (ix2 k j))
        + bc (ix2 (0 : Fin 1) j) := by
  subst h0 h1 h2 h3 h4 h5 h6 h7 h8
  exact arr V c r j

end Cert.KernelIdeal.Reg4

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.LibStats.lean ====
/- Finite calculus on the extended reals. An extended real is called real when it is the image of a real number.
   Sums, differences, products, maxima, finite sums, quotients by a nonzero real and reciprocal square roots of
   positive reals stay real, so that identities of real algebra (which fail at the infinities: distributivity,
   cancellation) can be carried to the extended reals for real-valued data. The main such identity here is the
   one behind batch statistics: the mean of the squared deviations from the mean is the mean of the squares
   minus the square of the mean. Also: 1600000 terms summed as 200 consecutive blocks of 8000. -/
import Mathlib.Data.EReal.Inv
import Mathlib.Algebra.BigOperators.Fin
import Mathlib.Tactic.Ring
import Mathlib.Tactic.FieldSimp
import Mathlib.Tactic.Positivity
import Mathlib.Tactic.NormNum
import Idealize.ShloMosaic.PureOps.Ideal
import proofs.«155254_j19997367730788_2_alg».proof.Proof.LibBlockSum

namespace Cert.Lib

open Idealize.ShloMosaic

/-- An extended real that is (the image of) a real number: neither infinity. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not the upper infinity. -/
theorem IsReal.ne_top {x : EReal} (h : IsReal x) : x ≠ ⊤ := by
  obtain ⟨r, rfl⟩ := h; exact EReal.coe_ne_top r

/-- A real extended real is not the lower infinity. -/
theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

/-- Being real is being neither infinity. -/
theorem isReal_iff {x : EReal} : IsReal x ↔ x ≠ ⊤ ∧ x ≠ ⊥ :=
  ⟨fun h => ⟨h.ne_top, h.ne_bot⟩, fun h => isReal_of_ne h.1 h.2⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two images of reals is the image of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two images of reals is the image of the minimum. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The maximum of two reals is real. -/
theorem IsReal.max {x y : EReal} (hx : IsReal x) (hy : IsReal y) : IsReal (max x y) := by
  obtain ⟨a, rfl⟩ := hx; obtain ⟨b, rfl⟩ := hy; exact ⟨_, coe_max a b⟩

/-- The minimum of two reals is real. -/
theorem IsReal.min {x y : EReal} (hx : IsReal x) (hy : IsReal y) : IsReal (min x y) := by
  obtain ⟨a, rfl⟩ := hx; obtain ⟨b, rfl⟩ := hy; exact ⟨_, coe_min a b⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A sum of reals over a whole finite type is real. -/
theorem isReal_sum_univ {ι : Type*} [Fintype ι] (f : ι → EReal) (h : ∀ i, IsReal (f i)) :
    IsReal (∑ i, f i) :=
  isReal_sum Finset.univ f (fun i _ => h i)

/-- A family of reals is the image of a family of real numbers. -/
theorem exists_real_family {ι : Type*} (z : ι → EReal) (h : ∀ i, IsReal (z i)) :
    ∃ a : ι → ℝ, z = fun i => (a i : EReal) := by
  choose a ha using h
  exact ⟨a, funext ha⟩

/-- The quotient of the image of a real by a nonzero real number is the image of the product with the reciprocal. -/
theorem div_coe_coe (a : ℝ) {N : ℝ} (hN : N ≠ 0) :
    Ideal.div (a : EReal) (N : EReal) = ((a * (1 / N) : ℝ) : EReal) := by
  rw [Ideal.div_coe hN, EReal.coe_mul]

/-- The quotient of a real by a nonzero real number is real. -/
theorem IsReal.div {x : EReal} (hx : IsReal x) {N : ℝ} (hN : N ≠ 0) : IsReal (Ideal.div x (N : EReal)) := by
  obtain ⟨a, rfl⟩ := hx; exact ⟨_, div_coe_coe a hN⟩

/-- The reciprocal square root of a positive real number is the image of the reciprocal of its square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real number is real. -/
theorem isReal_rsqrt_coe {r : ℝ} (h : 0 < r) : IsReal (Ideal.rsqrt (r : EReal)) :=
  ⟨_, rsqrt_coe_of_pos h⟩

/-- The reciprocal square root of a positive real is real. -/
theorem IsReal.rsqrt {x : EReal} (hx : IsReal x) (h : 0 < x) : IsReal (Ideal.rsqrt x) := by
  obtain ⟨a, rfl⟩ := hx; exact isReal_rsqrt_coe (EReal.coe_pos.mp h)

/-- A nonnegative real number plus a positive one, taken in the extended reals, has a real reciprocal square root. -/
theorem isReal_rsqrt_add {v e : ℝ} (hv : 0 ≤ v) (he : 0 < e) : IsReal (Ideal.rsqrt ((v : EReal) + (e : EReal))) := by
  rw [← EReal.coe_add]; exact isReal_rsqrt_coe (add_pos_of_nonneg_of_pos hv he)

/-- Adding to zero changes nothing (a reduction's initial value 0 in front of its sum). -/
theorem zero_add_ereal (x : EReal) : (0 : EReal) + x = x := zero_add x

/-! ### The mean of squared deviations -/

/-- Over the real numbers, with N the number of terms and mu = (∑ a) / N: the sum of the squared deviations from mu
    is the sum of the squares minus N mu², so their means differ by mu². Division is written as the product with the
    reciprocal. -/
theorem variance_real {n : ℕ} (hn : n ≠ 0) (a : Fin n → ℝ) (N : ℝ) (hN : N = n) :
    (∑ i, (a i - (∑ j, a j) * (1 / N)) * (a i - (∑ j, a j) * (1 / N))) * (1 / N)
      = (∑ i, a i * a i) * (1 / N) - ((∑ j, a j) * (1 / N)) * ((∑ j, a j) * (1 / N)) := by
  have hN0 : N ≠ 0 := by rw [hN]; exact_mod_cast hn
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    rw [Finset.sum_congr rfl (fun i _ => this i), Finset.sum_add_distrib, Finset.sum_sub_distrib,
      ← Finset.mul_sum, Finset.sum_const, Finset.card_univ, Fintype.card_fin, nsmul_eq_mul, ← hN]
  rw [h1]
  field_simp
  ring

/-- Over the real numbers the mean of the squared deviations is not negative. -/
theorem variance_real_nonneg {n : ℕ} (a : Fin n → ℝ) (mu N : ℝ) (hN : 0 ≤ N) :
    0 ≤ (∑ i, (a i - mu) * (a i - mu)) * (1 / N) :=
  mul_nonneg (Finset.sum_nonneg (fun i _ => mul_self_nonneg _)) (one_div_nonneg.mpr hN)

/-- The identity behind batch statistics, on the extended reals for real-valued data: with N the number n ≠ 0 of terms
    and mu = (∑ z) / N, the mean of the squared deviations from mu is the mean of the squares minus mu², and this
    common value is the image of a real number that is not negative. -/
theorem variance_identity_val {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) ∧
      Ideal.div (∑ i, z i * z i) (N : EReal)
          - Ideal.div (∑ j, z j) (N : EReal) * Ideal.div (∑ j, z j) (N : EReal) = (v : EReal) := by
  have hN0 : N ≠ 0 := by rw [hN]; exact_mod_cast hn
  have hNn : 0 ≤ N := by rw [hN]; exact Nat.cast_nonneg n
  obtain ⟨a, rfl⟩ := exists_real_family z hz
  have hmu : Ideal.div (∑ j, (a j : EReal)) (N : EReal) = (((∑ j, a j) * (1 / N) : ℝ) : EReal) := by
    rw [← coe_finset_sum, div_coe_coe _ hN0]
  have hD : ∀ mu : ℝ, ∑ i, ((a i : EReal) - (mu : EReal)) * ((a i : EReal) - (mu : EReal))
      = ((∑ i, (a i - mu) * (a i - mu) : ℝ) : EReal) := fun mu => by
    rw [coe_finset_sum]
    exact Finset.sum_congr rfl (fun i _ => by rw [EReal.coe_mul, EReal.coe_sub])
  have hQ : ∑ i, (a i : EReal) * (a i : EReal) = ((∑ i, a i * a i : ℝ) : EReal) := by
    rw [coe_finset_sum]
    exact Finset.sum_congr rfl (fun i _ => by rw [EReal.coe_mul])
  refine ⟨(∑ i, (a i - (∑ j, a j) * (1 / N)) * (a i - (∑ j, a j) * (1 / N))) * (1 / N),
    variance_real_nonneg a _ N hNn, ?_, ?_⟩
  · rw [hmu, hD, div_coe_coe _ hN0]
  · rw [hmu, hQ, div_coe_coe _ hN0, ← EReal.coe_mul, ← EReal.coe_sub, variance_real hn a N hN]

/-- The mean of the squared deviations from the mean is the mean of the squares minus the square of the mean
    (extended reals, real-valued data, N the number n ≠ 0 of terms). -/
theorem variance_identity {n : ℕ} (hn : n ≠ 0) (z : Fin n → EReal) (hz : ∀ i, IsReal (z i)) (N : ℝ) (hN : N = n) :
    Ideal.div (∑ i, (z i - Ideal.div (∑ j, z j) (N : EReal)) * (z i - Ideal.div (∑ j, z j) (N : EReal))) (N : EReal)
      = Ideal.div (∑ i, z i * z i) (N : EReal)
          - Ideal.div (∑ j, z j) (N : EReal) * Ideal.div (∑ j, z j) (N : EReal) := by
  obtain ⟨v, _, h1, h2⟩ := variance_identity_val hn z hz N hN
  rw [h1, h2]

/-- The same with the three sums, the mean and the sum of squared deviations named by equations, so that each may be
    given in whatever arrangement it was computed. -/
theorem variance_identity_of_eq {n : ℕ} (hn : n ≠ 0) (z : Fin n → EReal) (hz : ∀ i, IsReal (z i)) (N : ℝ) (hN : N = n)
    {S Q D mu : EReal} (hS : S = ∑ i, z i) (hQ : Q = ∑ i, z i * z i) (hmu : mu = Ideal.div S (N : EReal))
    (hD : D = ∑ i, (z i - mu) * (z i - mu)) :
    Ideal.div D (N : EReal) = Ideal.div Q (N : EReal) - mu * mu := by
  subst hS hQ hmu hD
  exact variance_identity hn z hz N hN

/-- The same with each sum preceded by a reduction's initial value 0. -/
theorem variance_identity_zero_add {n : ℕ} (hn : n ≠ 0) (z : Fin n → EReal) (hz : ∀ i, IsReal (z i)) (N : ℝ)
    (hN : N = n) :
    Ideal.div (0 + ∑ i, (z i - Ideal.div (0 + ∑ j, z j) (N : EReal)) * (z i - Ideal.div (0 + ∑ j, z j) (N : EReal)))
        (N : EReal)
      = Ideal.div (0 + ∑ i, z i * z i) (N : EReal)
          - Ideal.div (0 + ∑ j, z j) (N : EReal) * Ideal.div (0 + ∑ j, z j) (N : EReal) := by
  simp only [zero_add]
  exact variance_identity hn z hz N hN

/-- The mean of real-valued data is real. -/
theorem isReal_mean {n : ℕ} (z : Fin n → EReal) (hz : ∀ i, IsReal (z i)) {N : ℝ} (hN : N ≠ 0) :
    IsReal (Ideal.div (∑ j, z j) (N : EReal)) :=
  (isReal_sum_univ z hz).div hN

/-- The mean of the squared deviations of real-valued data from their mean is the image of a real number that is not
    negative. -/
theorem variance_nonneg_real {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) := by
  obtain ⟨v, hv, h1, _⟩ := variance_identity_val hn z hz N hN
  exact ⟨v, hv, h1⟩

/-- The mean of the squares minus the square of the mean, for real-valued data, is the image of a real number that is
    not negative. -/
theorem variance_nonneg_real' {n : ℕ} (hn : n ≠ 0) (z : Fin n → EReal) (hz : ∀ i, IsReal (z i)) (N : ℝ) (hN : N = n) :
    ∃ v : ℝ, 0 ≤ v ∧
      Ideal.div (∑ i, z i * z i) (N : EReal)
          - Ideal.div (∑ j, z j) (N : EReal) * Ideal.div (∑ j, z j) (N : EReal) = (v : EReal) := by
  obtain ⟨v, hv, _, h2⟩ := variance_identity_val hn z hz N hN
  exact ⟨v, hv, h2⟩

/-- Either form of the variance of real-valued data, plus a positive real number, has a real reciprocal square root. -/
theorem isReal_rsqrt_variance_add {n : ℕ} (hn : n ≠ 0) (z : Fin n → EReal) (hz : ∀ i, IsReal (z i)) (N : ℝ) (hN : N = n)
    {e : ℝ} (he : 0 < e) :
    IsReal (Ideal.rsqrt (Ideal.div (∑ i, z i * z i) (N : EReal)
          - Ideal.div (∑ j, z j) (N : EReal) * Ideal.div (∑ j, z j) (N : EReal) + (e : EReal))) := by
  obtain ⟨v, hv, h⟩ := variance_nonneg_real' hn z hz N hN
  rw [h]; exact isReal_rsqrt_add hv he

/-! ### The programs' two float literals, and the spellings of a literal -/

/-- The single-precision pattern 0x49C35000 is the real number 1600000 = (2²³ + 4411392) · 2⁻³. -/
theorem ofBits_1600000 : Ideal.ofBits .f32 0x49C35000#32 = ((1600000 : ℝ) : EReal) := by
  simp [Ideal.ofBits, Ideal.ieee, -EReal.coe_mul]; norm_num

/-- The single-precision pattern 0x3727C5AC (the float nearest to 10⁻⁵) is a positive real number,
    10995116 · 2⁻⁴⁰. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 1600000 is the number of terms of a sum over Fin 1600000. -/
theorem cast_1600000 : (1600000 : ℝ) = ((1600000 : ℕ) : ℝ) := by norm_num

/-- A scalar literal, on the extended reals, is what its pattern denotes. -/
theorem scalar_ofBits_ideal (φ : FTy) (w : BitVec φ.bits) : Scalar.ofBits (F := Ideal) φ w = Ideal.ofBits φ w := rfl

/-- A scalar literal spread over a shape is, at every index, what its pattern denotes. -/
theorem broadcast_scalar_ofBits (S : Shape) (φ : FTy) (w : BitVec φ.bits) (i : S.Idx) :
    broadcast S (Scalar.ofBits (F := Ideal) φ w) i = Ideal.ofBits φ w := rfl

/-- A constant array is, at every index, what its pattern denotes. -/
theorem constant_ideal_apply (S : Shape) (φ : FTy) (w : BitVec φ.bits) (i : S.Idx) :
    constant (F := Ideal) S φ w i = Ideal.ofBits φ w := rfl

/-! ### 1600000 terms as 200 blocks of 8000 -/

/-- Place y of block t, for 200 blocks of 8000, lies below 1600000. -/
theorem block_lt_1600000 (t : Fin 200) (y : Fin 8000) : 8000 * t.val + y.val < 1600000 := by omega

/-- 1600000 terms are 200 consecutive blocks of 8000. -/
theorem sum_blocks_1600000 {M : Type*} [AddCommMonoid M] (f : Fin 1600000 → M) :
    ∑ t : Fin 200, ∑ y : Fin 8000, f ⟨8000 * t.val + y.val, by omega⟩ = ∑ r : Fin 1600000, f r :=
  sum_blocks_of_eq (nb := 200) (bs := 8000) (N := 1600000) rfl f

/-- 1600000 terms from a range of 200 block sums. -/
theorem sum_range_blocks_1600000 {M : Type*} [AddCommMonoid M] (f : Fin 1600000 → M) (B : ℕ → M)
    (hB : ∀ (t : ℕ) (ht : t < 200), B t = ∑ y : Fin 8000, f ⟨8000 * t + y.val, by omega⟩) :
    ∑ s ∈ Finset.range 200, B s = ∑ r : Fin 1600000, f r :=
  sum_range_blocks_of_eq (nb := 200) (bs := 8000) (N := 1600000) rfl f B hB

/-- 1600000 terms from 200 block sums indexed by Fin 200. -/
theorem sum_fin_blocks_1600000 {M : Type*} [AddCommMonoid M] (f : Fin 1600000 → M) (B : Fin 200 → M)
    (hB : ∀ t : Fin 200, B t = ∑ y : Fin 8000, f ⟨8000 * t.val + y.val, by omega⟩) :
    ∑ t : Fin 200, B t = ∑ r : Fin 1600000, f r := by
  rw [← sum_blocks_1600000 f]
  exact Finset.sum_congr rfl (fun t _ => hB t)

end Cert.Lib
-- ==== Proof.RefRead.lean ====
/- The reference program read at an index, on the extended reals. Each statement below gives one element of one
   intermediate array of the reference (a two-layer graph convolution with batch normalisation, then a linear
   classifier) in terms of the elements of the arrays it is computed from, with the arithmetic written in the
   extended reals' own operations: the matrix products as sums over the contracted axis, the batch mean as a sum
   over the 100000 rows divided by 100000, the batch variance (computed by the program as the mean of the squared
   deviations from the mean) as the mean of the squares minus the square of the mean, which holds when the entries
   are real, and the normalised, scaled, shifted and clipped output. The scatter and gather stages (degree counts,
   neighbour aggregation) are left as they are. -/
import proofs.«155254_j19997367730788_2_alg».proof.Proof.Gen.ReferenceIdeal.Read
import proofs.«155254_j19997367730788_2_alg».proof.Proof.LibStats
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

variable (x0 : (⟨S100000x128, .f32⟩ : BufTy).Contents (Elt Ideal))
  (x1 x2 : (⟨S1000000, .i32⟩ : BufTy).Contents (Elt Ideal))
  (x3 : (⟨S128x128, .f32⟩ : BufTy).Contents (Elt Ideal))
  (x4 x5 x6 : (⟨S128, .f32⟩ : BufTy).Contents (Elt Ideal))
  (x7 : (⟨S128x128, .f32⟩ : BufTy).Contents (Elt Ideal))
  (x8 x9 x10 : (⟨S128, .f32⟩ : BufTy).Contents (Elt Ideal))
  (x11 : (⟨S128x16, .f32⟩ : BufTy).Contents (Elt Ideal))
  (x12 : (⟨S16, .f32⟩ : BufTy).Contents (Elt Ideal))

/-- The single-precision pattern 0x47C35000 is the real number 100000 = (2²³ + 4411392) · 2⁻⁷. -/
theorem ofBits_100000 : Ideal.ofBits .f32 0x47C35000#32 = ((100000 : ℝ) : EReal) := by
  simp [Ideal.ofBits, Ideal.ieee, -EReal.coe_mul]; norm_num

/-- 100000 is the number of terms of a sum over Fin 100000. -/
theorem cast_100000 : (100000 : ℝ) = ((100000 : ℕ) : ℝ) := by norm_num

/-! ## First layer -/

/-- The first matrix product: row r of x, scaled by the source-degree factor of r, times column j of W1. -/
theorem v14_at (r : Fin 100000) (j : Fin 128) :
    val_main_v14 (F := Ideal) x0 x1 x3 (ix2 r j)
      = ∑ k : Fin 128, (x0 (ix2 r k) * val_main_v10 (F := Ideal) x1 (ix1 r)) * x3 (ix2 k j) := by
  rw [val_main_v14_apply]
  refine Finset.sum_congr rfl fun k _ => ?_
  have e1 : lidx_main_v14 (ix2 r j) k = ix2 r k :=
    funext fun a => Fin.ext (by match a with | ⟨0, _⟩ => rfl | ⟨1, _⟩ => rfl)
  have e2 : ridx_main_v14 (ix2 r j) k = ix2 k j :=
    funext fun a => Fin.ext (by match a with | ⟨0, _⟩ => rfl | ⟨1, _⟩ => rfl)
  have e3 : idx_main_v11 (idx_main_v12 (ix2 r k)) = ix1 r :=
    funext fun a => Fin.ext (by match a with | ⟨0, _⟩ => rfl)
  rw [e1, e2, val_main_v13_apply, val_main_v12_apply, val_main_v11_apply, e3, Ideal.mulf_def]

/-- The first layer before normalisation: the aggregate scaled by the destination-degree factor, plus the bias. -/
theorem v32_at (r : Fin 100000) (j : Fin 128) :
    val_main_v32 (F := Ideal) x0 x1 x2 x3 x4 (ix2 r j)
      = val_main_v24 (F := Ideal) x0 x1 x2 x3 (ix2 r j) * val_main_v26 (F := Ideal) x2 (ix1 r) + x4 (ix1 j) := by
  have e1 : idx_main_v27 (idx_main_v28 (ix2 r j)) = ix1 r :=
    funext fun a => Fin.ext (by match a with | ⟨0, _⟩ => rfl)
  have e2 : idx_main_v30 (idx_main_v31 (ix2 r j)) = ix1 j :=
    funext fun a => Fin.ext (by match a with | ⟨0, _⟩ => rfl)
  rw [val_main_v32_apply, val_main_v29_apply, val_main_v28_apply, val_main_v27_apply, e1,
    val_main_v31_apply, val_main_v30_apply, e2, Ideal.mulf_def, Ideal.addf_def]

/-- The batch mean of column j of the first layer. -/
theorem v35_at (j : Fin 128) :
    val_main_v35 (F := Ideal) x0 x1 x2 x3 x4 (ix1 j)
      = Ideal.div (∑ r : Fin 100000, val_main_v32 (F := Ideal) x0 x1 x2 x3 x4 (ix2 r j))
          (Ideal.ofBits .f32 0x47C35000#32) := by
  have e : ∀ k : Fin 100000, idx_main_v33 (ix1 j) k = ix2 k j := fun k =>
    funext fun a => Fin.ext (by match a with | ⟨0, _⟩ => rfl | ⟨1, _⟩ => rfl)
  rw [val_main_v35_apply, val_main_v33_apply, val_main_v34_apply, val_main_cst_9_apply, val_main_cst_8_apply,
    Ideal.hostDivf_def]
  simp only [Ideal.ofBits_def, Ideal.ofBits_zero_f32, zero_add, e]

/-- A squared deviation from the batch mean, first layer. -/
theorem v39_at (r : Fin 100000) (j : Fin 128) :
    val_main_v39 (F := Ideal) x0 x1 x2 x3 x4 (ix2 r j)
      = (val_main_v32 (F := Ideal) x0 x1 x2 x3 x4 (ix2 r j) - val_main_v35 (F := Ideal) x0 x1 x2 x3 x4 (ix1 j))
        * (val_main_v32 (F := Ideal) x0 x1 x2 x3 x4 (ix2 r j) - val_main_v35 (F := Ideal) x0 x1 x2 x3 x4 (ix1 j)) := by
  have e : idx_main_v36 (idx_main_v37 (ix2 r j)) = ix1 j :=
    funext fun a => Fin.ext (by match a with | ⟨0, _⟩ => rfl)
  rw [val_main_v39_apply, val_main_v38_apply, val_main_v37_apply, val_main_v36_apply, e, Ideal.mulf_def,
    Ideal.subf_def]

/-- The sum of the squared deviations of column j, first layer. -/
theorem v40_at (j : Fin 128) :
    val_main_v40 (F := Ideal) x0 x1 x2 x3 x4 (ix1 j)
      = ∑ r : Fin 100000, val_main_v39 (F := Ideal) x0 x1 x2 x3 x4 (ix2 r j) := by
  have e : ∀ k : Fin 100000, idx_main_v40 (ix1 j) k = ix2 k j := fun k =>
    funext fun a => Fin.ext (by match a with | ⟨0, _⟩ => rfl | ⟨1, _⟩ => rfl)
  rw [val_main_v40_apply, val_main_cst_10_apply]
  simp only [Ideal.ofBits_def, Ideal.ofBits_zero_f32, zero_add, e]

/-- The batch variance of column j of the first layer, computed as the mean of the squared deviations, is the mean
    of the squares minus the square of the mean when the column's entries are real. -/
theorem v42_at (hY : ∀ (r : Fin 100000) (j : Fin 128),
      Cert.Lib.IsReal (val_main_v32 (F := Ideal) x0 x1 x2 x3 x4 (ix2 r j))) (j : Fin 128) :
    val_main_v42 (F := Ideal) x0 x1 x2 x3 x4 (ix1 j)
      = Ideal.div (∑ r : Fin 100000, val_main_v32 (F := Ideal) x0 x1 x2 x3 x4 (ix2 r j)
            * val_main_v32 (F := Ideal) x0 x1 x2 x3 x4 (ix2 r j)) (Ideal.ofBits .f32 0x47C35000#32)
        - Ideal.div (∑ r : Fin 100000, val_main_v32 (F := Ideal) x0 x1 x2 x3 x4 (ix2 r j))
            (Ideal.ofBits .f32 0x47C35000#32)
          * Ideal.div (∑ r : Fin 100000, val_main_v32 (F := Ideal) x0 x1 x2 x3 x4 (ix2 r j))
            (Ideal.ofBits .f32 0x47C35000#32) := by
  have h := Cert.Lib.variance_identity (n := 100000) (by norm_num)
    (fun r => val_main_v32 (F := Ideal) x0 x1 x2 x3 x4 (ix2 r j)) (fun r => hY r j) 100000 cast_100000
  rw [val_main_v42_apply, v40_at, val_main_v41_apply, val_main_cst_11_apply, Ideal.hostDivf_def, Ideal.ofBits_def,
    Finset.sum_congr rfl (fun r _ => v39_at x0 x1 x2 x3 x4 r j), v35_at, ofBits_100000]
  exact h

/-- The first layer's output: normalise, scale by gamma, shift by beta, clip below at zero. -/
theorem v58_at (r : Fin 100000) (k : Fin 128) :
    val_main_v58 (F := Ideal) x0 x1 x2 x3 x4 x5 x6 (ix2 r k)
      = max ((val_main_v32 (F := Ideal) x0 x1 x2 x3 x4 (ix2 r k) - val_main_v35 (F := Ideal) x0 x1 x2 x3 x4 (ix1 k))
            * Ideal.rsqrt (val_main_v42 (F := Ideal) x0 x1 x2 x3 x4 (ix1 k) + Ideal.ofBits .f32 0x3727C5AC#32)
            * x5 (ix1 k) + x6 (ix1 k)) 0 := by
  have e1 : idx_main_v43 (idx_main_v44 (ix2 r k)) = ix1 k :=
    funext fun a => Fin.ext (by match a with | ⟨0, _⟩ => rfl)
  have e2 : idx_main_v49 (idx_main_v50 (ix2 r k)) = ix1 k :=
    funext fun a => Fin.ext (by match a with | ⟨0, _⟩ => rfl)
  have e3 : idx_main_v52 (idx_main_v53 (ix2 r k)) = ix1 k :=
    funext fun a => Fin.ext (by match a with | ⟨0, _⟩ => rfl)
  have e4 : idx_main_v55 (idx_main_v56 (ix2 r k)) = ix1 k :=
    funext fun a => Fin.ext (by match a with | ⟨0, _⟩ => rfl)
  rw [val_main_v58_apply, val_main_v57_apply, val_main_v54_apply, val_main_v51_apply, val_main_v45_apply,
    val_main_v44_apply, val_main_v43_apply, e1, val_main_v50_apply, val_main_v49_apply, e2, val_main_v48_apply,
    val_main_v47_apply, val_main_v46_apply, val_main_cst_12_apply, val_main_v53_apply, val_main_v52_apply, e3,
    val_main_v56_apply, val_main_v55_apply, e4, val_main_call2_v0_apply, val_main_call2_cst_apply]
  simp only [Ideal.ofBits_def, Ideal.ofBits_zero_f32, Ideal.mulf_def, Ideal.subf_def, Ideal.addf_def,
    Ideal.maximumf_def, Ideal.hostUnary_rsqrt_def]

/-! ## The degree factors are computed twice -/

/-- The source-degree factor is recomputed for the second layer by the same operations on the same argument. -/
theorem v69_eq : val_main_v69 (F := Ideal) x1 = val_main_v10 (F := Ideal) x1 := by
  unfold val_main_v69 val_main_v10 val_main_v63 val_main_v4 val_main_v62 val_main_v3 val_main_v68 val_main_v9
    val_main_call3_v1 val_main_call0_v1 val_main_call3_v0 val_main_call0_v0 val_main_cst_15 val_main_cst_1
    val_main_v61 val_main_v2 val_main_v60 val_main_v1 val_main_v59 val_main_v0 val_main_cst_13 val_main_cst
    val_main_cst_14 val_main_cst_0 val_main_cst_18 val_main_cst_4
  rfl

/-- The destination-degree factor is recomputed for the second layer by the same operations on the same argument. -/
theorem v85_eq : val_main_v85 (F := Ideal) x2 = val_main_v26 (F := Ideal) x2 := by
  unfold val_main_v85 val_main_v26 val_main_v67 val_main_v8 val_main_v66 val_main_v7 val_main_v84 val_main_v25
    val_main_call4_v1 val_main_call1_v1 val_main_call4_v0 val_main_call1_v0 val_main_cst_17 val_main_cst_3
    val_main_v65 val_main_v6 val_main_v64 val_main_v5 val_main_v59 val_main_v0 val_main_cst_13 val_main_cst
    val_main_cst_16 val_main_cst_2 val_main_cst_22 val_main_cst_7
  rfl

/-! ## Second layer -/

/-- The second matrix product: row r of the first layer's output, scaled by the source-degree factor of r, times
    column j of W2. -/
theorem v73_at (r : Fin 100000) (j : Fin 128) :
    val_main_v73 (F := Ideal) x0 x1 x2 x3 x4 x5 x6 x7 (ix2 r j)
      = ∑ k : Fin 128, (val_main_v58 (F := Ideal) x0 x1 x2 x3 x4 x5 x6 (ix2 r k) * val_main_v69 (F := Ideal) x1 (ix1 r))
          * x7 (ix2 k j) := by
  rw [val_main_v73_apply]
  refine Finset.sum_congr rfl fun k _ => ?_
  have e1 : lidx_main_v73 (ix2 r j) k = ix2 r k :=
    funext fun a => Fin.ext (by match a with | ⟨0, _⟩ => rfl | ⟨1, _⟩ => rfl)
  have e2 : ridx_main_v73 (ix2 r j) k = ix2 k j :=
    funext fun a => Fin.ext (by match a with | ⟨0, _⟩ => rfl | ⟨1, _⟩ => rfl)
  have e3 : idx_main_v70 (idx_main_v71 (ix2 r k)) = ix1 r :=
    funext fun a => Fin.ext (by match a with | ⟨0, _⟩ => rfl)
  rw [e1, e2, val_main_v72_apply, val_main_v71_apply, val_main_v70_apply, e3, Ideal.mulf_def]

/-- The second layer before normalisation: the aggregate scaled by the destination-degree factor, plus the bias. -/
theorem v91_at (r : Fin 100000) (j : Fin 128) :
    val_main_v91 (F := Ideal) x0 x1 x2 x3 x4 x5 x6 x7 x8 (ix2 r j)
      = val_main_v83 (F := Ideal) x0 x1 x2 x3 x4 x5 x6 x7 (ix2 r j) * val_main_v85 (F := Ideal) x2 (ix1 r) + x8 (ix1 j) := by
  have e1 : idx_main_v86 (idx_main_v87 (ix2 r j)) = ix1 r :=
    funext fun a => Fin.ext (by match a with | ⟨0, _⟩ => rfl)
  have e2 : idx_main_v89 (idx_main_v90 (ix2 r j)) = ix1 j :=
    funext fun a => Fin.ext (by match a with | ⟨0, _⟩ => rfl)
  rw [val_main_v91_apply, val_main_v88_apply, val_main_v87_apply, val_main_v86_apply, e1,
    val_main_v90_apply, val_main_v89_apply, e2, Ideal.mulf_def, Ideal.addf_def]

/-- The batch mean of column j of the second layer. -/
theorem v94_at (j : Fin 128) :
    val_main_v94 (F := Ideal) x0 x1 x2 x3 x4 x5 x6 x7 x8 (ix1 j)
      = Ideal.div (∑ r : Fin 100000, val_main_v91 (F := Ideal) x0 x1 x2 x3 x4 x5 x6 x7 x8 (ix2 r j))
          (Ideal.ofBits .f32 0x47C35000#32) := by
  have e : ∀ k : Fin 100000, idx_main_v92 (ix1 j) k = ix2 k j := fun k =>
    funext fun a => Fin.ext (by match a with | ⟨0, _⟩ => rfl | ⟨1, _⟩ => rfl)
  rw [val_main_v94_apply, val_main_v92_apply, val_main_v93_apply, val_main_cst_24_apply, val_main_cst_23_apply,
    Ideal.hostDivf_def]
  simp only [Ideal.ofBits_def, Ideal.ofBits_zero_f32, zero_add, e]

/-- A squared deviation from the batch mean, second layer. -/
theorem v98_at (r : Fin 100000) (j : Fin 128) :
    val_main_v98 (F := Ideal) x0 x1 x2 x3 x4 x5 x6 x7 x8 (ix2 r j)
      = (val_main_v91 (F := Ideal) x0 x1 x2 x3 x4 x5 x6 x7 x8 (ix2 r j) - val_main_v94 (F := Ideal) x0 x1 x2 x3 x4 x5 x6 x7 x8 (ix1 j))
        * (val_main_v91 (F := Ideal) x0 x1 x2 x3 x4 x5 x6 x7 x8 (ix2 r j) - val_main_v94 (F := Ideal) x0 x1 x2 x3 x4 x5 x6 x7 x8 (ix1 j)) := by
  have e : idx_main_v95 (idx_main_v96 (ix2 r j)) = ix1 j :=
    funext fun a => Fin.ext (by match a with | ⟨0, _⟩ => rfl)
  rw [val_main_v98_apply, val_main_v97_apply, val_main_v96_apply, val_main_v95_apply, e, Ideal.mulf_def,
    Ideal.subf_def]

/-- The sum of the squared deviations of column j, second layer. -/
theorem v99_at (j : Fin 128) :
    val_main_v99 (F := Ideal) x0 x1 x2 x3 x4 x5 x6 x7 x8 (ix1 j)
      = ∑ r : Fin 100000, val_main_v98 (F := Ideal) x0 x1 x2 x3 x4 x5 x6 x7 x8 (ix2 r j) := by
  have e : ∀ k : Fin 100000, idx_main_v99 (ix1 j) k = ix2 k j := fun k =>
    funext fun a => Fin.ext (by match a with | ⟨0, _⟩ => rfl | ⟨1, _⟩ => rfl)
  rw [val_main_v99_apply, val_main_cst_25_apply]
  simp only [Ideal.ofBits_def, Ideal.ofBits_zero_f32, zero_add, e]

/-- The batch variance of column j of the second layer, computed as the mean of the squared deviations, is the mean
    of the squares minus the square of the mean when the column's entries are real. -/
theorem v101_at (hY2 : ∀ (r : Fin 100000) (j : Fin 128),
      Cert.Lib.IsReal (val_main_v91 (F := Ideal) x0 x1 x2 x3 x4 x5 x6 x7 x8 (ix2 r j))) (j : Fin 128) :
    val_main_v101 (F := Ideal) x0 x1 x2 x3 x4 x5 x6 x7 x8 (ix1 j)
      = Ideal.div (∑ r : Fin 100000, val_main_v91 (F := Ideal) x0 x1 x2 x3 x4 x5 x6 x7 x8 (ix2 r j)
            * val_main_v91 (F := Ideal) x0 x1 x2 x3 x4 x5 x6 x7 x8 (ix2 r j)) (Ideal.ofBits .f32 0x47C35000#32)
        - Ideal.div (∑ r : Fin 100000, val_main_v91 (F := Ideal) x0 x1 x2 x3 x4 x5 x6 x7 x8 (ix2 r j))
            (Ideal.ofBits .f32 0x47C35000#32)
          * Ideal.div (∑ r : Fin 100000, val_main_v91 (F := Ideal) x0 x1 x2 x3 x4 x5 x6 x7 x8 (ix2 r j))
            (Ideal.ofBits .f32 0x47C35000#32) := by
  have h := Cert.Lib.variance_identity (n := 100000) (by norm_num)
    (fun r => val_main_v91 (F := Ideal) x0 x1 x2 x3 x4 x5 x6 x7 x8 (ix2 r j)) (fun r => hY2 r j) 100000 cast_100000
  rw [val_main_v101_apply, v99_at, val_main_v100_apply, val_main_cst_26_apply, Ideal.hostDivf_def, Ideal.ofBits_def,
    Finset.sum_congr rfl (fun r _ => v98_at x0 x1 x2 x3 x4 x5 x6 x7 x8 r j), v94_at, ofBits_100000]
  exact h

/-- The second layer's output: normalise, scale by gamma, shift by beta, clip below at zero. -/
theorem v117_at (r : Fin 100000) (k : Fin 128) :
    val_main_v117 (F := Ideal) x0 x1 x2 x3 x4 x5 x6 x7 x8 x9 x10 (ix2 r k)
      = max ((val_main_v91 (F := Ideal) x0 x1 x2 x3 x4 x5 x6 x7 x8 (ix2 r k) - val_main_v94 (F := Ideal) x0 x1 x2 x3 x4 x5 x6 x7 x8 (ix1 k))
            * Ideal.rsqrt (val_main_v101 (F := Ideal) x0 x1 x2 x3 x4 x5 x6 x7 x8 (ix1 k) + Ideal.ofBits .f32 0x3727C5AC#32)
            * x9 (ix1 k) + x10 (ix1 k)) 0 := by
  have e1 : idx_main_v102 (idx_main_v103 (ix2 r k)) = ix1 k :=
    funext fun a => Fin.ext (by match a with | ⟨0, _⟩ => rfl)
  have e2 : idx_main_v108 (idx_main_v109 (ix2 r k)) = ix1 k :=
    funext fun a => Fin.ext (by match a with | ⟨0, _⟩ => rfl)
  have e3 : idx_main_v111 (idx_main_v112 (ix2 r k)) = ix1 k :=
    funext fun a => Fin.ext (by match a with | ⟨0, _⟩ => rfl)
  have e4 : idx_main_v114 (idx_main_v115 (ix2 r k)) = ix1 k :=
    funext fun a => Fin.ext (by match a with | ⟨0, _⟩ => rfl)
  rw [val_main_v117_apply, val_main_v116_apply, val_main_v113_apply, val_main_v110_apply, val_main_v104_apply,
    val_main_v103_apply, val_main_v102_apply, e1, val_main_v109_apply, val_main_v108_apply, e2, val_main_v107_apply,
    val_main_v106_apply, val_main_v105_apply, val_main_cst_27_apply, val_main_v112_apply, val_main_v111_apply, e3,
    val_main_v115_apply, val_main_v114_apply, e4, val_main_call5_v0_apply, val_main_call5_cst_apply]
  simp only [Ideal.ofBits_def, Ideal.ofBits_zero_f32, Ideal.mulf_def, Ideal.subf_def, Ideal.addf_def,
    Ideal.maximumf_def, Ideal.hostUnary_rsqrt_def]

/-! ## The classifier -/

/-- The result: row r of the second layer's output times column j of Wc, plus the bias. -/
theorem v121_at (r : Fin 100000) (j : Fin 16) :
    val_main_v121 (F := Ideal) x0 x1 x2 x3 x4 x5 x6 x7 x8 x9 x10 x11 x12 (ix2 r j)
      = (∑ k : Fin 128, val_main_v117 (F := Ideal) x0 x1 x2 x3 x4 x5 x6 x7 x8 x9 x10 (ix2 r k) * x11 (ix2 k j)) + x12 (ix1 j) := by
  have e3 : idx_main_v119 (idx_main_v120 (ix2 r j)) = ix1 j :=
    funext fun a => Fin.ext (by match a with | ⟨0, _⟩ => rfl)
  rw [val_main_v121_apply, val_main_v118_apply, val_main_v120_apply, val_main_v119_apply, e3, Ideal.addf_def]
  refine congrArg (· + x12 (ix1 j)) (Finset.sum_congr rfl fun k _ => ?_)
  have e1 : lidx_main_v118 (ix2 r j) k = ix2 r k :=
    funext fun a => Fin.ext (by match a with | ⟨0, _⟩ => rfl | ⟨1, _⟩ => rfl)
  have e2 : ridx_main_v118 (ix2 r j) k = ix2 k j :=
    funext fun a => Fin.ext (by match a with | ⟨0, _⟩ => rfl | ⟨1, _⟩ => rfl)
  rw [e1, e2]

end Cert.RefSide

end
-- ==== Proof.StageA.lean ====
/-
  Three stages of the comparison between the kernel's run and the reference: what each of the three projecting
  regions leaves in its output array is a stage of the reference, once the arrays the region reads are known to hold
  the reference's earlier stages.
    * The first projection  (x · deg_src) W1                      is the reference's first matrix product.
    * The second projection (relu(bn1(agg1 · deg_dst + b1)) · deg_src) W2   is its second matrix product.
    * The result            relu(bn2(agg2 · deg_dst + b2)) Wc + bc          is its last stage.
  Each is the region's array read element by element, the reference's stage read element by element, and the
  hypotheses used to identify the factors one by one; a buffer read where a hypothesis does not speak of it is
  first moved there by the fact that nothing wrote it in between.
-/
import proofs.«155254_j19997367730788_2_alg».proof.Proof.Keep
import proofs.«155254_j19997367730788_2_alg».proof.Proof.Reg0
import proofs.«155254_j19997367730788_2_alg».proof.Proof.Reg2
import proofs.«155254_j19997367730788_2_alg».proof.Proof.Reg4
import proofs.«155254_j19997367730788_2_alg».proof.Proof.RefRead
import proofs.«155254_j19997367730788_2_alg».proof.Proof.Gen.KernelIdeal.Frame
import proofs.«155254_j19997367730788_2_alg».proof.Proof.Gen.ReferenceIdeal.Read

noncomputable section

namespace Cert.KernelIdeal.StageA

open Cert.KernelIdeal Cert.KernelIdeal.Gen Idealize.ShloMosaic Idealize.ShloMosaic.TcCoe Idealize.SL.Sem
open Idealize.ShloMosaic.ValueIdx
open Cert.ReferenceIdeal.Read
open scoped BigOperators

variable (m : (ℓ : Loc nD τ sig) → Buf (Elt Ideal) ℓ) (ρ : Dev nD → PrngReg) (c : Dev nD)
variable (x0 : (⟨Cert.ReferenceIdeal.S100000x128, .f32⟩ : BufTy).Contents (Elt Ideal))
  (x1 x2 : (⟨Cert.ReferenceIdeal.S1000000, .i32⟩ : BufTy).Contents (Elt Ideal))
  (x3 : (⟨Cert.ReferenceIdeal.S128x128, .f32⟩ : BufTy).Contents (Elt Ideal))
  (x4 x5 x6 : (⟨Cert.ReferenceIdeal.S128, .f32⟩ : BufTy).Contents (Elt Ideal))
  (x7 : (⟨Cert.ReferenceIdeal.S128x128, .f32⟩ : BufTy).Contents (Elt Ideal))
  (x8 x9 x10 : (⟨Cert.ReferenceIdeal.S128, .f32⟩ : BufTy).Contents (Elt Ideal))
  (x11 : (⟨Cert.ReferenceIdeal.S128x16, .f32⟩ : BufTy).Contents (Elt Ideal))
  (x12 : (⟨Cert.ReferenceIdeal.S16, .f32⟩ : BufTy).Contents (Elt Ideal))

set_option maxHeartbeats 400000 in
/-- THE RESULT: region 4's output array is the reference's last stage, given what the region's nine input
    arrays hold. -/
theorem v61
    (h53 : W11 (F := Ideal) m ρ c (Proc.devRef .tc main_v53) = val_main_v83 (F := Ideal) x0 x1 x2 x3 x4 x5 x6 x7)
    (h15 : ∀ r : Fin 100000, W5 (F := Ideal) m ρ c (Proc.devRef .tc main_v15) (ix2 r (0 : Fin 1)) = val_main_v26 (F := Ideal) x2 (ix1 r))
    (h19 : ∀ j : Fin 128, W5 (F := Ideal) m ρ c (Proc.devRef .tc main_v19) (ix2 (0 : Fin 1) j) = x8 (ix1 j))
    (h20 : ∀ j : Fin 128, W5 (F := Ideal) m ρ c (Proc.devRef .tc main_v20) (ix2 (0 : Fin 1) j) = x9 (ix1 j))
    (h21 : ∀ j : Fin 128, W5 (F := Ideal) m ρ c (Proc.devRef .tc main_v21) (ix2 (0 : Fin 1) j) = x10 (ix1 j))
    (h56 : ∀ j : Fin 128, W13 (F := Ideal) m ρ c (Proc.devRef .tc main_v56) (ix2 (0 : Fin 1) j) = val_main_v94 (F := Ideal) x0 x1 x2 x3 x4 x5 x6 x7 x8 (ix1 j))
    (h60 : ∀ j : Fin 128, W13 (F := Ideal) m ρ c (Proc.devRef .tc main_v60) (ix2 (0 : Fin 1) j) = val_main_v101 (F := Ideal) x0 x1 x2 x3 x4 x5 x6 x7 x8 (ix1 j))
    (ha11 : W13 (F := Ideal) m ρ c (Proc.devRef .tc main_arg11) = x11)
    (h22 : ∀ j : Fin 16, W5 (F := Ideal) m ρ c (Proc.devRef .tc main_v22) (ix2 (0 : Fin 1) j) = x12 (ix1 j)) :
    W14 (F := Ideal) m ρ c (Proc.devRef .tc main_v61) = val_main_v121 (F := Ideal) x0 x1 x2 x3 x4 x5 x6 x7 x8 x9 x10 x11 x12 := by
  have k53 : W13 (F := Ideal) m ρ c (Proc.devRef .tc main_v53) = W11 (F := Ideal) m ρ c (Proc.devRef .tc main_v53) := Keep.keep_v53_13_11 m ρ c
  have k15 : W13 (F := Ideal) m ρ c (Proc.devRef .tc main_v15) = W5 (F := Ideal) m ρ c (Proc.devRef .tc main_v15) := Keep.keep_v15_13_5 m ρ c
  have k19 : W13 (F := Ideal) m ρ c (Proc.devRef .tc main_v19) = W5 (F := Ideal) m ρ c (Proc.devRef .tc main_v19) := Keep.keep_v19_13_5 m ρ c
  have k20 : W13 (F := Ideal) m ρ c (Proc.devRef .tc main_v20) = W5 (F := Ideal) m ρ c (Proc.devRef .tc main_v20) := Keep.keep_v20_13_5 m ρ c
  have k21 : W13 (F := Ideal) m ρ c (Proc.devRef .tc main_v21) = W5 (F := Ideal) m ρ c (Proc.devRef .tc main_v21) := Keep.keep_v21_13_5 m ρ c
  have k22 : W13 (F := Ideal) m ρ c (Proc.devRef .tc main_v22) = W5 (F := Ideal) m ρ c (Proc.devRef .tc main_v22) := Keep.keep_v22_13_5 m ρ c
  refine funext fun (i : S100000x16.Idx) => ?_
  obtain ⟨r, j, rfl⟩ : ∃ (r : Fin 100000) (j : Fin 16), i = ix2 r j := ⟨i 0, i 1, eq_ix2 i⟩
  refine (congrFun (W14_arr m ρ c 9) (ix2 r j)).trans ?_
  refine (Reg4.arr_of (V13 (F := Ideal) m ρ) c
    (W13 (F := Ideal) m ρ c (Proc.devRef .tc main_v53)) (W13 (F := Ideal) m ρ c (Proc.devRef .tc main_v15))
    (W13 (F := Ideal) m ρ c (Proc.devRef .tc main_v19)) (W13 (F := Ideal) m ρ c (Proc.devRef .tc main_v20))
    (W13 (F := Ideal) m ρ c (Proc.devRef .tc main_v21)) (W13 (F := Ideal) m ρ c (Proc.devRef .tc main_v56))
    (W13 (F := Ideal) m ρ c (Proc.devRef .tc main_v60)) (W13 (F := Ideal) m ρ c (Proc.devRef .tc main_arg11))
    (W13 (F := Ideal) m ρ c (Proc.devRef .tc main_v22)) rfl rfl rfl rfl rfl rfl rfl rfl rfl r j).trans ?_
  rw [Cert.RefSide.v121_at]
  refine congrArg₂ (· + ·) (Finset.sum_congr rfl fun k _ => ?_) ?_
  · rw [Cert.RefSide.v117_at, Cert.RefSide.v91_at, Cert.RefSide.v85_eq, k53, h53, k15, h15, k19, h19, h56, h60, k20, h20,
      k21, h21, ha11]
  · rw [k22, h22]

set_option maxHeartbeats 400000 in
/-- THE FIRST PROJECTION: region 0's output array is the reference's first matrix product, given the features,
    the source-degree factor and the weights it reads. -/
theorem v23
    (h0 : W5 (F := Ideal) m ρ c (Proc.devRef .tc main_arg0) = x0)
    (h3 : W5 (F := Ideal) m ρ c (Proc.devRef .tc main_arg3) = x3)
    (h7 : ∀ r : Fin 100000, W5 (F := Ideal) m ρ c (Proc.devRef .tc main_v7) (ix2 r (0 : Fin 1)) = val_main_v10 (F := Ideal) x1 (ix1 r)) :
    W6 (F := Ideal) m ρ c (Proc.devRef .tc main_v23) = val_main_v14 (F := Ideal) x0 x1 x3 := by
  refine funext fun (i : S100000x128.Idx) => ?_
  obtain ⟨r, j, rfl⟩ : ∃ (r : Fin 100000) (j : Fin 128), i = ix2 r j := ⟨i 0, i 1, eq_ix2 i⟩
  refine (congrFun (W6_arr m ρ c 3) (ix2 r j)).trans ?_
  refine (Reg0.arr_of (V5 (F := Ideal) m ρ) c
    (W5 (F := Ideal) m ρ c (Proc.devRef .tc main_arg0)) (W5 (F := Ideal) m ρ c (Proc.devRef .tc main_v7))
    (W5 (F := Ideal) m ρ c (Proc.devRef .tc main_arg3)) rfl rfl rfl r j).trans ?_
  rw [Cert.RefSide.v14_at]
  show @Eq EReal _ _
  refine Finset.sum_congr rfl fun k _ => ?_
  rw [h0, h7, h3]

set_option maxHeartbeats 400000 in
/-- THE SECOND PROJECTION: region 2's output array is the reference's second matrix product, given the first
    layer's aggregate, the degree factors, the first layer's parameters and batch statistics, and the weights. -/
theorem v42
    (h34 : W7 (F := Ideal) m ρ c (Proc.devRef .tc main_v34) = val_main_v24 (F := Ideal) x0 x1 x2 x3)
    (h15 : ∀ r : Fin 100000, W5 (F := Ideal) m ρ c (Proc.devRef .tc main_v15) (ix2 r (0 : Fin 1)) = val_main_v26 (F := Ideal) x2 (ix1 r))
    (h16 : ∀ j : Fin 128, W5 (F := Ideal) m ρ c (Proc.devRef .tc main_v16) (ix2 (0 : Fin 1) j) = x4 (ix1 j))
    (h17 : ∀ j : Fin 128, W5 (F := Ideal) m ρ c (Proc.devRef .tc main_v17) (ix2 (0 : Fin 1) j) = x5 (ix1 j))
    (h18 : ∀ j : Fin 128, W5 (F := Ideal) m ρ c (Proc.devRef .tc main_v18) (ix2 (0 : Fin 1) j) = x6 (ix1 j))
    (h37 : ∀ j : Fin 128, W9 (F := Ideal) m ρ c (Proc.devRef .tc main_v37) (ix2 (0 : Fin 1) j) = val_main_v35 (F := Ideal) x0 x1 x2 x3 x4 (ix1 j))
    (h41 : ∀ j : Fin 128, W9 (F := Ideal) m ρ c (Proc.devRef .tc main_v41) (ix2 (0 : Fin 1) j) = val_main_v42 (F := Ideal) x0 x1 x2 x3 x4 (ix1 j))
    (h7 : ∀ r : Fin 100000, W5 (F := Ideal) m ρ c (Proc.devRef .tc main_v7) (ix2 r (0 : Fin 1)) = val_main_v10 (F := Ideal) x1 (ix1 r))
    (ha7 : W9 (F := Ideal) m ρ c (Proc.devRef .tc main_arg7) = x7) :
    W10 (F := Ideal) m ρ c (Proc.devRef .tc main_v42) = val_main_v73 (F := Ideal) x0 x1 x2 x3 x4 x5 x6 x7 := by
  have k34 : W9 (F := Ideal) m ρ c (Proc.devRef .tc main_v34) = W7 (F := Ideal) m ρ c (Proc.devRef .tc main_v34) := Keep.keep_v34_9_7 m ρ c
  have k15 : W9 (F := Ideal) m ρ c (Proc.devRef .tc main_v15) = W5 (F := Ideal) m ρ c (Proc.devRef .tc main_v15) := Keep.keep_v15_9_5 m ρ c
  have k16 : W9 (F := Ideal) m ρ c (Proc.devRef .tc main_v16) = W5 (F := Ideal) m ρ c (Proc.devRef .tc main_v16) := Keep.keep_v16_9_5 m ρ c
  have k17 : W9 (F := Ideal) m ρ c (Proc.devRef .tc main_v17) = W5 (F := Ideal) m ρ c (Proc.devRef .tc main_v17) := Keep.keep_v17_9_5 m ρ c
  have k18 : W9 (F := Ideal) m ρ c (Proc.devRef .tc main_v18) = W5 (F := Ideal) m ρ c (Proc.devRef .tc main_v18) := Keep.keep_v18_9_5 m ρ c
  have k7 : W9 (F := Ideal) m ρ c (Proc.devRef .tc main_v7) = W5 (F := Ideal) m ρ c (Proc.devRef .tc main_v7) := Keep.keep_v7_9_5 m ρ c
  refine funext fun (i : S100000x128.Idx) => ?_
  obtain ⟨r, j, rfl⟩ : ∃ (r : Fin 100000) (j : Fin 128), i = ix2 r j := ⟨i 0, i 1, eq_ix2 i⟩
  refine (congrFun (W10_arr m ρ c 9) (ix2 r j)).trans ?_
  refine (Reg2.arr_of (V9 (F := Ideal) m ρ) c
    (W9 (F := Ideal) m ρ c (Proc.devRef .tc main_v34)) (W9 (F := Ideal) m ρ c (Proc.devRef .tc main_v15))
    (W9 (F := Ideal) m ρ c (Proc.devRef .tc main_v16)) (W9 (F := Ideal) m ρ c (Proc.devRef .tc main_v17))
    (W9 (F := Ideal) m ρ c (Proc.devRef .tc main_v18)) (W9 (F := Ideal) m ρ c (Proc.devRef .tc main_v37))
    (W9 (F := Ideal) m ρ c (Proc.devRef .tc main_v41)) (W9 (F := Ideal) m ρ c (Proc.devRef .tc main_v7))
    (W9 (F := Ideal) m ρ c (Proc.devRef .tc main_arg7)) rfl rfl rfl rfl rfl rfl rfl rfl rfl r j).trans ?_
  rw [Cert.RefSide.v73_at]
  show @Eq EReal _ _
  refine Finset.sum_congr rfl fun k _ => ?_
  rw [Cert.RefSide.v58_at, Cert.RefSide.v32_at, Cert.RefSide.v69_eq, k34, h34, k15, h15, k16, h16, h37, h41, k17, h17,
    k18, h18, k7, h7, ha7]

end Cert.KernelIdeal.StageA

end
-- ==== Proof.Reg1.lean ====
/-
  Region 1 of the program: the batch-norm statistics pass. Over a grid of 20 points, point t stages rows
  5000 t … 5000 t + 4999 of agg [100000, 128] and of the scale column invdeg [100000, 1], and the bias row b [1, 128];
  with y = agg * invdeg + b it adds the column sums of y over those rows into one [1, 128] output and the column sums
  of y * y into another, both zeroed at point 0 and written back once, after point 19. So the two arrays end
  holding, lane by lane, the sum over all 100000 rows of y and of y * y: the running sums are read off the stores of
  the two control cases (first point, later point), the accumulation is an induction on the point, and twenty
  blocks of 5000 rows regroup into one sum over 100000 in any additive commutative monoid, so no finiteness is used.
-/
import proofs.«155254_j19997367730788_2_alg».proof.Proof.Gen.KernelIdeal.Frame
import proofs.«155254_j19997367730788_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen

/- The arrays' element types are extended reals only after unfolding the buffer signature, so the products and sums of
   their entries are written with the extended reals' own operations named outright. -/
local notation:70 a:70 " *ᵉ " b:71 => @HMul.hMul EReal EReal EReal instHMul a b
local notation:65 a:65 " +ᵉ " b:66 => @HAdd.hAdd EReal EReal EReal instHAdd a b

variable {F : FTy → Type} [FloatOps F]

theorem hz : (![0, 0] : Fin 2 → Nat) = fun _ => 0 := funext fun a => by fin_cases a <;> rfl

/-- Away from the first point the body leaves in output 3 the running column sums it found there plus this block's. -/
theorem out_B_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32) (xo3 xo4 : Vec F S1x128 .f32) :
    out1_B_3 c i a1 h1 a2 h2 a3 h3 a4 h4 a5 h5 hc x0 x1 x2 xo3 xo4 = k1_pay4 x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S1x128) hz]

/-- Away from the first point the body leaves in output 4 the running column sums of squares plus this block's. -/
theorem out_B_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 : Vec F S1x128 .f32) (xo3 xo4 : Vec F S1x128 .f32) :
    out1_B_4 c i a1 h1 a2 h2 a3 h3 a4 h4 a5 h5 hc x0 x1 x2 xo3 xo4 = k1_pay5 x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- At the first point the body zeroes output 3, reads the zero row back and leaves it plus this block's column sums. -/
theorem out_A_3 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay4 x0 x1 x2 (k1_pay1 (F := F)) := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- At the first point the body zeroes output 4, reads the zero row back and leaves it plus this block's column sums of squares. -/
theorem out_A_4 (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay5 x0 x1 x2 (k1_pay2 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-! ## The body's arithmetic read at an index, over the extended reals -/

section Payloads
variable {α : Type}

/-- A column [a, 1] broadcast along the lanes to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Payloads

/-- The sum over the 5000 rows of a block, lane by lane: the lane reduction read at lane j. -/
theorem colsum_apply (v : FVec Ideal S5000x128 .f32) (j : Fin 128) :
    multiReduction (F := Ideal) .add [0] S128 v 0x00000000#32 reduces_S5000x128_S128 (.inl rfl) rfl (ix1 j)
      = ∑ r : Fin 5000, v (ix2 r j) := by
  refine (Ideal.multiReduction_add_single v 0x00000000#32 reduces_S5000x128_S128 (.inl rfl) rfl (ix1 j)).trans ?_
  refine Finset.sum_congr rfl fun r _ => congrArg v ?_
  funext a
  match a with
  | ⟨0, _⟩ => rfl
  | ⟨1, _⟩ => rfl

/-- y = agg * invdeg + b at row r, lane j of a block: the row's scale multiplies every lane, the bias row is added to every row. -/
theorem pay3_apply (x0 : Vec Ideal S5000x128 .f32) (x1 : Vec Ideal S5000x1 .f32) (x2 : Vec Ideal S1x128 .f32)
    (r : Fin 5000) (j : Fin 128) :
    k1_pay3 (F := Ideal) x0 x1 x2 (ix2 r j) = x0 (ix2 r j) * x1 (ix2 r (0 : Fin 1)) + x2 (ix2 (0 : Fin 1) j) := by
  unfold k1_pay3
  show shapeCast S5000x128 x0 _ (ix2 r j) * broadcastTo S5000x128 (shapeCast S5000x1 x1 _) _ (ix2 r j)
      + broadcastTo S5000x128 (shapeCast S1x128 x2 _) _ (ix2 r j) = _
  rw [shapeCast_self, shapeCast_self, shapeCast_self, broadcastTo_a1_ab_apply, broadcastTo_1b_ab_apply]

/-- The new running column sum: the old one at lane j plus the sum of y over the block's rows. -/
theorem pay4_apply (x0 : Vec Ideal S5000x128 .f32) (x1 : Vec Ideal S5000x1 .f32) (x2 : Vec Ideal S1x128 .f32)
    (acc : Vec Ideal S1x128 .f32) (j : Fin 128) :
    k1_pay4 (F := Ideal) x0 x1 x2 acc (ix2 (0 : Fin 1) j)
      = acc (ix2 (0 : Fin 1) j)
        + ∑ r : Fin 5000, (x0 (ix2 r j) * x1 (ix2 r (0 : Fin 1)) + x2 (ix2 (0 : Fin 1) j)) := by
  unfold k1_pay4
  show shapeCast S1x128 acc _ (ix2 (0 : Fin 1) j) + shapeCast S1x128 (multiReduction (F := Ideal) .add [0] S128 (k1_pay3 x0 x1 x2) 0x00000000#32 reduces_S5000x128_S128 (.inl rfl) rfl) _ (ix2 (0 : Fin 1) j) = _
  rw [shapeCast_self, shapeCast_a_1a_apply, colsum_apply]
  exact congrArg _ (Finset.sum_congr rfl fun r _ => pay3_apply x0 x1 x2 r j)

/-- The new running column sum of squares: the old one at lane j plus the sum of y * y over the block's rows. -/
theorem pay5_apply (x0 : Vec Ideal S5000x128 .f32) (x1 : Vec Ideal S5000x1 .f32) (x2 : Vec Ideal S1x128 .f32)
    (acc : Vec Ideal S1x128 .f32) (j : Fin 128) :
    k1_pay5 (F := Ideal) x0 x1 x2 acc (ix2 (0 : Fin 1) j)
      = acc (ix2 (0 : Fin 1) j)
        + ∑ r : Fin 5000, (x0 (ix2 r j) * x1 (ix2 r (0 : Fin 1)) + x2 (ix2 (0 : Fin 1) j))
                          * (x0 (ix2 r j) * x1 (ix2 r (0 : Fin 1)) + x2 (ix2 (0 : Fin 1) j)) := by
  unfold k1_pay5
  show shapeCast S1x128 acc _ (ix2 (0 : Fin 1) j) + shapeCast S1x128 (multiReduction (F := Ideal) .add [0] S128 (mulf (k1_pay3 x0 x1 x2) (k1_pay3 x0 x1 x2)) 0x00000000#32 reduces_S5000x128_S128 (.inl rfl) rfl) _ (ix2 (0 : Fin 1) j) = _
  rw [shapeCast_self, shapeCast_a_1a_apply, colsum_apply]
  refine congrArg _ (Finset.sum_congr rfl fun r _ => ?_)
  show k1_pay3 (F := Ideal) x0 x1 x2 (ix2 r j) * k1_pay3 (F := Ideal) x0 x1 x2 (ix2 r j) = _
  rw [pay3_apply]

/-- The zero row the first point stores reads 0 at every lane. -/
theorem pay1_apply (i : S1x128.Idx) : k1_pay1 (F := Ideal) i = (0 : EReal) := Ideal.ofBits_zero_f32
theorem pay2_apply (i : S1x128.Idx) : k1_pay2 (F := Ideal) i = (0 : EReal) := Ideal.ofBits_zero_f32

/-! ## The blocks the windows stage, read at an index -/

section Blocks
variable (V : (c : Dev nD) → (b : Ref sig .tc) → Buf (Elt F) ((c : Thread nD τ).loc b))

/-- The windows' index maps over the grid: the two 100000-row operands are cut into 20 row blocks, point t staging
    block t; the bias row and both outputs stay on block (0, 0). -/
theorem idx_facts : ∀ t : Fin cfg1.N,
    win1_0.index t (0 : Fin 2) = t.val ∧ win1_0.index t (1 : Fin 2) = 0 ∧
    win1_1.index t (0 : Fin 2) = t.val ∧ win1_1.index t (1 : Fin 2) = 0 ∧
    win1_2.index t (0 : Fin 2) = 0 ∧ win1_2.index t (1 : Fin 2) = 0 ∧
    win1_3.index t (0 : Fin 2) = 0 ∧ win1_3.index t (1 : Fin 2) = 0 ∧
    win1_4.index t (0 : Fin 2) = 0 ∧ win1_4.index t (1 : Fin 2) = 0 :=
  (by decide +kernel : ∀ t : Fin grid1.N, _)

/-- Row y, lane j of the block of agg staged at point t is row 5000 t + y of the array. -/
theorem blk0_apply (c : Dev nD) (t : Fin cfg1.N) (y : Fin 5000) (j : Fin 128) (hr : 5000 * t.val + y.val < 100000) :
    (iblk1 V c 0 t : Vec F S5000x128 .f32) (ix2 y j) = V c main_v34 (ix2 ⟨5000 * t.val + y.val, hr⟩ j) := by
  have hi := idx_facts t
  unfold iblk1
  rw [View.read_apply]
  show V c main_v34 _ = V c main_v34 _
  refine congrArg _ (funext fun a => Fin.ext ?_)
  match a with
  | ⟨0, _⟩ => show win1_0.index t 0 * 5000 + 1 * y.val = 5000 * t.val + y.val; rw [hi.1]; omega
  | ⟨1, _⟩ => show win1_0.index t 1 * 128 + 1 * j.val = j.val; rw [hi.2.1]; omega

/-- Row y of the block of the scale column staged at point t is row 5000 t + y of the column. -/
theorem blk1_apply (c : Dev nD) (t : Fin cfg1.N) (y : Fin 5000) (hr : 5000 * t.val + y.val < 100000) :
    (iblk1 V c 1 t : Vec F S5000x1 .f32) (ix2 y (0 : Fin 1)) = V c main_v15 (ix2 ⟨5000 * t.val + y.val, hr⟩ (0 : Fin 1)) := by
  have hi := idx_facts t
  unfold iblk1
  rw [View.read_apply]
  show V c main_v15 _ = V c main_v15 _
  refine congrArg _ (funext fun a => Fin.ext ?_)
  match a with
  | ⟨0, _⟩ => show win1_1.index t 0 * 5000 + 1 * y.val = 5000 * t.val + y.val; rw [hi.2.2.1]; omega
  | ⟨1, _⟩ => show win1_1.index t 1 * 1 + 1 * 0 = 0; rw [hi.2.2.2.1]

/-- The bias row is staged whole at every point. -/
theorem blk2_apply (c : Dev nD) (t : Fin cfg1.N) (j : Fin 128) :
    (iblk1 V c 2 t : Vec F S1x128 .f32) (ix2 (0 : Fin 1) j) = V c main_v16 (ix2 (0 : Fin 1) j) := by
  have hi := idx_facts t
  unfold iblk1
  rw [View.read_apply]
  show V c main_v16 _ = V c main_v16 _
  refine congrArg _ (funext fun a => Fin.ext ?_)
  match a with
  | ⟨0, _⟩ => show win1_2.index t 0 * 1 + 1 * 0 = 0; rw [hi.2.2.2.2.1]
  | ⟨1, _⟩ => show win1_2.index t 1 * 128 + 1 * j.val = j.val; rw [hi.2.2.2.2.2.1]; omega

end Blocks

/-! ## One point's contribution, over variables -/

/-- If the staged blocks are rows 5000 t … 5000 t + 4999 of the arrays A0, A1 and the row A2, the new running column
    sum at lane j is the old one plus the sum of y over those rows. -/
theorem step_sum (x0 : Vec Ideal S5000x128 .f32) (x1 : Vec Ideal S5000x1 .f32) (x2 acc : Vec Ideal S1x128 .f32)
    (A0 : S100000x128.Idx → EReal) (A1 : S100000x1.Idx → EReal) (A2 : S1x128.Idx → EReal) (t : ℕ) (ht : t < 20)
    (e0 : ∀ (y : Fin 5000) (j : Fin 128), x0 (ix2 y j) = A0 (ix2 ⟨5000 * t + y.val, by omega⟩ j))
    (e1 : ∀ (y : Fin 5000), x1 (ix2 y (0 : Fin 1)) = A1 (ix2 ⟨5000 * t + y.val, by omega⟩ (0 : Fin 1)))
    (e2 : ∀ (j : Fin 128), x2 (ix2 (0 : Fin 1) j) = A2 (ix2 (0 : Fin 1) j)) (j : Fin 128) :
    k1_pay4 (F := Ideal) x0 x1 x2 acc (ix2 (0 : Fin 1) j)
      = acc (ix2 (0 : Fin 1) j)
        + ∑ y : Fin 5000, (A0 (ix2 ⟨5000 * t + y.val, by omega⟩ j) * A1 (ix2 ⟨5000 * t + y.val, by omega⟩ (0 : Fin 1))
            + A2 (ix2 (0 : Fin 1) j)) := by
  rw [pay4_apply]
  refine congrArg _ (Finset.sum_congr rfl fun y _ => ?_)
  rw [e0, e1, e2]

/-- The same for the running column sum of squares. -/
theorem step_sumsq (x0 : Vec Ideal S5000x128 .f32) (x1 : Vec Ideal S5000x1 .f32) (x2 acc : Vec Ideal S1x128 .f32)
    (A0 : S100000x128.Idx → EReal) (A1 : S100000x1.Idx → EReal) (A2 : S1x128.Idx → EReal) (t : ℕ) (ht : t < 20)
    (e0 : ∀ (y : Fin 5000) (j : Fin 128), x0 (ix2 y j) = A0 (ix2 ⟨5000 * t + y.val, by omega⟩ j))
    (e1 : ∀ (y : Fin 5000), x1 (ix2 y (0 : Fin 1)) = A1 (ix2 ⟨5000 * t + y.val, by omega⟩ (0 : Fin 1)))
    (e2 : ∀ (j : Fin 128), x2 (ix2 (0 : Fin 1) j) = A2 (ix2 (0 : Fin 1) j)) (j : Fin 128) :
    k1_pay5 (F := Ideal) x0 x1 x2 acc (ix2 (0 : Fin 1) j)
      = acc (ix2 (0 : Fin 1) j)
        + ∑ y : Fin 5000, (A0 (ix2 ⟨5000 * t + y.val, by omega⟩ j) * A1 (ix2 ⟨5000 * t + y.val, by omega⟩ (0 : Fin 1))
              + A2 (ix2 (0 : Fin 1) j))
            * (A0 (ix2 ⟨5000 * t + y.val, by omega⟩ j) * A1 (ix2 ⟨5000 * t + y.val, by omega⟩ (0 : Fin 1))
              + A2 (ix2 (0 : Fin 1) j)) := by
  rw [pay5_apply]
  refine congrArg _ (Finset.sum_congr rfl fun y _ => ?_)
  rw [e0, e1, e2]

/-! ## The accumulation over the grid -/

section Accumulation
variable (V : (c : Dev nD) → (b : Ref sig .tc) → Buf (Elt Ideal) ((c : Thread nD τ).loc b))

/-- y = agg * invdeg + b at row r, lane j of the whole arrays. -/
def yv (c : Dev nD) (j : Fin 128) (r : Fin 100000) : EReal :=
  V c main_v34 (ix2 r j) *ᵉ V c main_v15 (ix2 r (0 : Fin 1)) +ᵉ V c main_v16 (ix2 (0 : Fin 1) j)

/-- The sum of y over row block s (0 past the grid). -/
def bsum (c : Dev nD) (j : Fin 128) (s : ℕ) : EReal :=
  if hs : s < 20 then ∑ y : Fin 5000, yv V c j ⟨5000 * s + y.val, by omega⟩ else 0

/-- The sum of y * y over row block s (0 past the grid). -/
def bsumsq (c : Dev nD) (j : Fin 128) (s : ℕ) : EReal :=
  if hs : s < 20 then ∑ y : Fin 5000, yv V c j ⟨5000 * s + y.val, by omega⟩ * yv V c j ⟨5000 * s + y.val, by omega⟩ else 0

/-- Lane j of output 3's staging buffer after point n (0 past the grid). -/
def acc3 (c : Dev nD) (j : Fin 128) (n : ℕ) : EReal :=
  if h : n < cfg1.N then (outsAt1 V c n h).1 (ix2 (0 : Fin 1) j) else 0

/-- Lane j of output 4's staging buffer after point n (0 past the grid). -/
def acc4 (c : Dev nD) (j : Fin 128) (n : ℕ) : EReal :=
  if h : n < cfg1.N then (outsAt1 V c n h).2 (ix2 (0 : Fin 1) j) else 0

/-- At the first point output 3 is zeroed and block 0's column sums added. -/
theorem acc3_zero (c : Dev nD) (j : Fin 128) : acc3 V c j 0 = 0 + bsum V c j 0 := by
  have hN : cfg1.N = 20 := N_1
  have h0 : (0 : ℕ) < cfg1.N := by omega
  unfold acc3 bsum
  rw [dif_pos h0, dif_pos (by omega : (0 : ℕ) < 20), outsAt1_A V c ⟨0, h0⟩ rfl]
  dsimp only
  refine (congrFun (out_A_3 c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) (ms1_4 ⟨0, h0⟩) (hs1_4 ⟨0, h0⟩) ((hcond1_0 ⟨0, h0⟩).mpr rfl)
    (iblk1 V c 0 ⟨0, h0⟩) (iblk1 V c 1 ⟨0, h0⟩) (iblk1 V c 2 ⟨0, h0⟩)) (ix2 (0 : Fin 1) j)).trans ?_
  refine (step_sum (iblk1 V c 0 ⟨0, h0⟩) (iblk1 V c 1 ⟨0, h0⟩) (iblk1 V c 2 ⟨0, h0⟩) (k1_pay1 (F := Ideal))
    (V c main_v34) (V c main_v15) (V c main_v16) 0 (by omega)
    (fun y j => blk0_apply V c ⟨0, h0⟩ y j _) (fun y => blk1_apply V c ⟨0, h0⟩ y _) (fun j => blk2_apply V c ⟨0, h0⟩ j) j).trans ?_
  rw [pay1_apply]
  rfl

/-- At a later point block n + 1's column sums are added to what point n left in output 3. -/
theorem acc3_succ (c : Dev nD) (j : Fin 128) (n : ℕ) (hn : n + 1 < 20) :
    acc3 V c j (n + 1) = acc3 V c j n + bsum V c j (n + 1) := by
  have hN : cfg1.N = 20 := N_1
  have h1 : n + 1 < cfg1.N := by omega
  have h0 : n < cfg1.N := by omega
  have hB : ¬(⟨n + 1, h1⟩ : Fin cfg1.N).val % 20 = 0 := by dsimp only; omega
  unfold acc3 bsum
  rw [dif_pos h1, dif_pos h0, dif_pos hn, outsAt1_B V c ⟨n + 1, h1⟩ hB]
  dsimp only
  refine (congrFun (out_B_3 c (grid1.coords ⟨n + 1, h1⟩) (ms1_0 ⟨n + 1, h1⟩) (hs1_0 ⟨n + 1, h1⟩) (ms1_1 ⟨n + 1, h1⟩) (hs1_1 ⟨n + 1, h1⟩) (ms1_2 ⟨n + 1, h1⟩) (hs1_2 ⟨n + 1, h1⟩) (ms1_3 ⟨n + 1, h1⟩) (hs1_3 ⟨n + 1, h1⟩) (ms1_4 ⟨n + 1, h1⟩) (hs1_4 ⟨n + 1, h1⟩) (fun h => hB ((hcond1_0 ⟨n + 1, h1⟩).mp h))
    (iblk1 V c 0 ⟨n + 1, h1⟩) (iblk1 V c 1 ⟨n + 1, h1⟩) (iblk1 V c 2 ⟨n + 1, h1⟩)
    (outsAt1 V c n h0).1 (outsAt1 V c n h0).2) (ix2 (0 : Fin 1) j)).trans ?_
  exact step_sum (iblk1 V c 0 ⟨n + 1, h1⟩) (iblk1 V c 1 ⟨n + 1, h1⟩) (iblk1 V c 2 ⟨n + 1, h1⟩) (outsAt1 V c n h0).1
    (V c main_v34) (V c main_v15) (V c main_v16) (n + 1) hn
    (fun y j => blk0_apply V c ⟨n + 1, h1⟩ y j _) (fun y => blk1_apply V c ⟨n + 1, h1⟩ y _) (fun j => blk2_apply V c ⟨n + 1, h1⟩ j) j

/-- At the first point output 4 is zeroed and block 0's column sums of squares added. -/
theorem acc4_zero (c : Dev nD) (j : Fin 128) : acc4 V c j 0 = 0 + bsumsq V c j 0 := by
  have hN : cfg1.N = 20 := N_1
  have h0 : (0 : ℕ) < cfg1.N := by omega
  unfold acc4 bsumsq
  rw [dif_pos h0, dif_pos (by omega : (0 : ℕ) < 20), outsAt1_A V c ⟨0, h0⟩ rfl]
  dsimp only
  refine (congrFun (out_A_4 c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) (ms1_4 ⟨0, h0⟩) (hs1_4 ⟨0, h0⟩) ((hcond1_0 ⟨0, h0⟩).mpr rfl)
    (iblk1 V c 0 ⟨0, h0⟩) (iblk1 V c 1 ⟨0, h0⟩) (iblk1 V c 2 ⟨0, h0⟩)) (ix2 (0 : Fin 1) j)).trans ?_
  refine (step_sumsq (iblk1 V c 0 ⟨0, h0⟩) (iblk1 V c 1 ⟨0, h0⟩) (iblk1 V c 2 ⟨0, h0⟩) (k1_pay2 (F := Ideal))
    (V c main_v34) (V c main_v15) (V c main_v16) 0 (by omega)
    (fun y j => blk0_apply V c ⟨0, h0⟩ y j _) (fun y => blk1_apply V c ⟨0, h0⟩ y _) (fun j => blk2_apply V c ⟨0, h0⟩ j) j).trans ?_
  rw [pay2_apply]
  rfl

/-- At a later point block n + 1's column sums of squares are added to what point n left in output 4. -/
theorem acc4_succ (c : Dev nD) (j : Fin 128) (n : ℕ) (hn : n + 1 < 20) :
    acc4 V c j (n + 1) = acc4 V c j n + bsumsq V c j (n + 1) := by
  have hN : cfg1.N = 20 := N_1
  have h1 : n + 1 < cfg1.N := by omega
  have h0 : n < cfg1.N := by omega
  have hB : ¬(⟨n + 1, h1⟩ : Fin cfg1.N).val % 20 = 0 := by dsimp only; omega
  unfold acc4 bsumsq
  rw [dif_pos h1, dif_pos h0, dif_pos hn, outsAt1_B V c ⟨n + 1, h1⟩ hB]
  dsimp only
  refine (congrFun (out_B_4 c (grid1.coords ⟨n + 1, h1⟩) (ms1_0 ⟨n + 1, h1⟩) (hs1_0 ⟨n + 1, h1⟩) (ms1_1 ⟨n + 1, h1⟩) (hs1_1 ⟨n + 1, h1⟩) (ms1_2 ⟨n + 1, h1⟩) (hs1_2 ⟨n + 1, h1⟩) (ms1_3 ⟨n + 1, h1⟩) (hs1_3 ⟨n + 1, h1⟩) (ms1_4 ⟨n + 1, h1⟩) (hs1_4 ⟨n + 1, h1⟩) (fun h => hB ((hcond1_0 ⟨n + 1, h1⟩).mp h))
    (iblk1 V c 0 ⟨n + 1, h1⟩) (iblk1 V c 1 ⟨n + 1, h1⟩) (iblk1 V c 2 ⟨n + 1, h1⟩)
    (outsAt1 V c n h0).1 (outsAt1 V c n h0).2) (ix2 (0 : Fin 1) j)).trans ?_
  exact step_sumsq (iblk1 V c 0 ⟨n + 1, h1⟩) (iblk1 V c 1 ⟨n + 1, h1⟩) (iblk1 V c 2 ⟨n + 1, h1⟩) (outsAt1 V c n h0).2
    (V c main_v34) (V c main_v15) (V c main_v16) (n + 1) hn
    (fun y j => blk0_apply V c ⟨n + 1, h1⟩ y j _) (fun y => blk1_apply V c ⟨n + 1, h1⟩ y _) (fun j => blk2_apply V c ⟨n + 1, h1⟩ j) j

/-- After the last point output 3 holds, lane by lane, the sum of y over all 100000 rows: twenty blocks of 5000. -/
theorem acc3_last (c : Dev nD) (j : Fin 128) : acc3 V c j 19 = ∑ r : Fin 100000, yv V c j r := by
  rw [Cert.Lib.running_sum_lt' (N := 20) (bsum V c j) (acc3 V c j) (acc3_zero V c j) (acc3_succ V c j) 19 (by omega)]
  exact Cert.Lib.sum_range_blocks_of_eq (nb := 20) (bs := 5000) (N := 100000) rfl (yv V c j) (bsum V c j)
    (fun t ht => by unfold bsum; exact dif_pos ht)

/-- After the last point output 4 holds, lane by lane, the sum of y * y over all 100000 rows. -/
theorem acc4_last (c : Dev nD) (j : Fin 128) : acc4 V c j 19 = ∑ r : Fin 100000, yv V c j r * yv V c j r := by
  rw [Cert.Lib.running_sum_lt' (N := 20) (bsumsq V c j) (acc4 V c j) (acc4_zero V c j) (acc4_succ V c j) 19 (by omega)]
  exact Cert.Lib.sum_range_blocks_of_eq (nb := 20) (bs := 5000) (N := 100000) rfl (fun r => yv V c j r * yv V c j r) (bsumsq V c j)
    (fun t ht => by unfold bsumsq; exact dif_pos ht)

end Accumulation

/-! ## The arrays after the run -/

section Arrays
variable (V : (c : Dev nD) → (b : Ref sig .tc) → Buf (Elt Ideal) ((c : Thread nD τ).loc b))

/-- The last point of the grid, the one write-back of both outputs. -/
abbrev tlast : Fin cfg1.N := ⟨19, by rw [show cfg1.N = 20 from N_1]; decide⟩

/-- Both outputs' blocks are the whole [1, 128] row at every point. -/
theorem xsize_facts : ∀ t : Fin cfg1.N,
    win1_3.xsize (grid1.coords t) (0 : Fin 2) = 1 ∧ win1_3.xsize (grid1.coords t) (1 : Fin 2) = 128 ∧
    win1_4.xsize (grid1.coords t) (0 : Fin 2) = 1 ∧ win1_4.xsize (grid1.coords t) (1 : Fin 2) = 128 :=
  (by decide +kernel : ∀ t : Fin grid1.N, _)

/-- What output 3's array ends holding: its staging buffer after the last point. -/
abbrev res3 (c : Dev nD) : Buf (Elt Ideal) ((c : Thread nD τ).loc main_v35_0) := (outsAt1 V c 19 tlast.isLt).1
/-- What output 4's array ends holding: its staging buffer after the last point. -/
abbrev res4 (c : Dev nD) : Buf (Elt Ideal) ((c : Thread nD τ).loc main_v35_1) := (outsAt1 V c 19 tlast.isLt).2

/-- The one write-back of output 3, at the last point, writes the whole staging row: block (0, 0) of a [1, 128] array
    read through zero offsets is the array. -/
theorem flushed3_eq (c : Dev nD) (t : Fin cfg1.N) (hf : (cfg1.win 3).flush t = true) :
    (dat1 V c).flushed 3 t = ((cfg1.win 3).blk t).view.read (Elt Ideal) (res3 V c) := by
  have hN : cfg1.N = 20 := N_1
  have h19 : t.val = 19 := by have := (flush1_3 t).mp hf; have := t.isLt; omega
  obtain rfl : t = tlast := Fin.ext h19
  show (cfg1.win 3).cut (grid1.coords tlast) ((dat1 V c).after 3 tlast) = _
  rw [after1_3]
  have hi := idx_facts tlast
  have hz' : (fun a => win1_3.index tlast a * main_v35_0.ty.shape.size a) = fun _ => 0 := funext fun a => by
    fin_cases a
    · show win1_3.index tlast 0 * _ = 0; rw [hi.2.2.2.2.2.2.1, Nat.zero_mul]
    · show win1_3.index tlast 1 * _ = 0; rw [hi.2.2.2.2.2.2.2.1, Nat.zero_mul]
  exact (Memref.read_access_unit_zero (Elt Ideal) main_v35_0 hz' (fun a => by rw [congrFun hz' a]; simp) (res3 V c)).symm

theorem flushed4_eq (c : Dev nD) (t : Fin cfg1.N) (hf : (cfg1.win 4).flush t = true) :
    (dat1 V c).flushed 4 t = ((cfg1.win 4).blk t).view.read (Elt Ideal) (res4 V c) := by
  have hN : cfg1.N = 20 := N_1
  have h19 : t.val = 19 := by have := (flush1_4 t).mp hf; have := t.isLt; omega
  obtain rfl : t = tlast := Fin.ext h19
  show (cfg1.win 4).cut (grid1.coords tlast) ((dat1 V c).after 4 tlast) = _
  rw [after1_4]
  have hi := idx_facts tlast
  have hz' : (fun a => win1_4.index tlast a * main_v35_1.ty.shape.size a) = fun _ => 0 := funext fun a => by
    fin_cases a
    · show win1_4.index tlast 0 * _ = 0; rw [hi.2.2.2.2.2.2.2.2.1, Nat.zero_mul]
    · show win1_4.index tlast 1 * _ = 0; rw [hi.2.2.2.2.2.2.2.2.2, Nat.zero_mul]
  exact (Memref.read_access_unit_zero (Elt Ideal) main_v35_1 hz' (fun a => by rw [congrFun hz' a]; simp) (res4 V c)).symm

/-- Output 3's array after the run is its staging row after the last point: that point's block covers the array. -/
theorem arr3 (c : Dev nD) : (dat1 V c).arrAt 3 cfg1.N = res3 V c :=
  (dat1 V c).arrAt_eq_of_cover 3 (res3 V c) (flushed3_eq V c) fun i =>
    ⟨tlast, (flush1_3 tlast).mpr rfl, by
      show i ∈ ((View.whole main_v35_0).slice (win1_3.rect tlast)).set
      rw [View.set_slice_whole, Rect.mem_set_unit]
      intro a
      have h0 : (i 0 : Nat) < 1 := (i 0).isLt
      have h1 : (i 1 : Nat) < 128 := (i 1).isLt
      have hi := idx_facts tlast
      have hx := xsize_facts tlast
      match a with
      | ⟨0, _⟩ =>
        show win1_3.index tlast 0 * win1_3.size 0 ≤ (i 0 : Nat) ∧ (i 0 : Nat) < win1_3.index tlast 0 * win1_3.size 0 + win1_3.xsize (grid1.coords tlast) 0
        rw [hi.2.2.2.2.2.2.1, hx.1]; omega
      | ⟨1, _⟩ =>
        show win1_3.index tlast 1 * win1_3.size 1 ≤ (i 1 : Nat) ∧ (i 1 : Nat) < win1_3.index tlast 1 * win1_3.size 1 + win1_3.xsize (grid1.coords tlast) 1
        rw [hi.2.2.2.2.2.2.2.1, hx.2.1]; omega⟩

/-- Output 4's array after the run is its staging row after the last point. -/
theorem arr4 (c : Dev nD) : (dat1 V c).arrAt 4 cfg1.N = res4 V c :=
  (dat1 V c).arrAt_eq_of_cover 4 (res4 V c) (flushed4_eq V c) fun i =>
    ⟨tlast, (flush1_4 tlast).mpr rfl, by
      show i ∈ ((View.whole main_v35_1).slice (win1_4.rect tlast)).set
      rw [View.set_slice_whole, Rect.mem_set_unit]
      intro a
      have h0 : (i 0 : Nat) < 1 := (i 0).isLt
      have h1 : (i 1 : Nat) < 128 := (i 1).isLt
      have hi := idx_facts tlast
      have hx := xsize_facts tlast
      match a with
      | ⟨0, _⟩ =>
        show win1_4.index tlast 0 * win1_4.size 0 ≤ (i 0 : Nat) ∧ (i 0 : Nat) < win1_4.index tlast 0 * win1_4.size 0 + win1_4.xsize (grid1.coords tlast) 0
        rw [hi.2.2.2.2.2.2.2.2.1, hx.2.2.1]; omega
      | ⟨1, _⟩ =>
        show win1_4.index tlast 1 * win1_4.size 1 ≤ (i 1 : Nat) ∧ (i 1 : Nat) < win1_4.index tlast 1 * win1_4.size 1 + win1_4.xsize (grid1.coords tlast) 1
        rw [hi.2.2.2.2.2.2.2.2.2, hx.2.2.2]; omega⟩

end Arrays

/-- The accumulator of output 3 after the last point, the point named by a variable so that no step of the proof
    unrolls the recursion over the points. -/
theorem last3 (V : (c : Dev nD) → (b : Ref sig .tc) → Buf (Elt Ideal) ((c : Thread nD τ).loc b)) (c : Dev nD) (j : Fin 128)
    (n : ℕ) (hn : n < cfg1.N) (h19 : n = 19) :
    (outsAt1 V c n hn).1 (ix2 (0 : Fin 1) j) = ∑ r : Fin 100000, yv V c j r := by
  have h := acc3_last V c j
  rw [← h19] at h
  unfold acc3 at h
  rw [dif_pos hn] at h
  exact h

/-- The accumulator of output 4 after the last point. -/
theorem last4 (V : (c : Dev nD) → (b : Ref sig .tc) → Buf (Elt Ideal) ((c : Thread nD τ).loc b)) (c : Dev nD) (j : Fin 128)
    (n : ℕ) (hn : n < cfg1.N) (h19 : n = 19) :
    (outsAt1 V c n hn).2 (ix2 (0 : Fin 1) j) = ∑ r : Fin 100000, yv V c j r * yv V c j r := by
  have h := acc4_last V c j
  rw [← h19] at h
  unfold acc4 at h
  rw [dif_pos hn] at h
  exact h

/-! ## The two results -/

/-- The sum over all 100000 rows of y = agg * invdeg + b at lane j, over arrays typed as extended-real vectors. -/
def spec_sum (A0 : Vec Ideal S100000x128 .f32) (A1 : Vec Ideal S100000x1 .f32) (A2 : Vec Ideal S1x128 .f32) (j : Fin 128) : EReal :=
  ∑ r : Fin 100000, (A0 (ix2 r j) * A1 (ix2 r (0 : Fin 1)) + A2 (ix2 (0 : Fin 1) j))

/-- The sum over all 100000 rows of y * y at lane j. -/
def spec_sumsq (A0 : Vec Ideal S100000x128 .f32) (A1 : Vec Ideal S100000x1 .f32) (A2 : Vec Ideal S1x128 .f32) (j : Fin 128) : EReal :=
  ∑ r : Fin 100000, (A0 (ix2 r j) * A1 (ix2 r (0 : Fin 1)) + A2 (ix2 (0 : Fin 1) j))
                     * (A0 (ix2 r j) * A1 (ix2 r (0 : Fin 1)) + A2 (ix2 (0 : Fin 1) j))

/-- Region 1's first result, over any typed names A0, A1, A2 of the three operand arrays: lane j of the array is the
    sum of y over all rows. -/
theorem arr_sum_of (V : (c : Dev nD) → (b : Ref sig .tc) → Buf (Elt Ideal) ((c : Thread nD τ).loc b)) (c : Dev nD)
    (A0 : Vec Ideal S100000x128 .f32) (A1 : Vec Ideal S100000x1 .f32) (A2 : Vec Ideal S1x128 .f32)
    (h0 : V c main_v34 = A0) (h1 : V c main_v15 = A1) (h2 : V c main_v16 = A2) (j : Fin 128) :
    (Gen.dat1 (F := Ideal) V c).arrAt 3 cfg1.N (ix2 (0 : Fin 1) j)
      = ∑ r : Fin 100000, (A0 (ix2 r j) * A1 (ix2 r (0 : Fin 1)) + A2 (ix2 (0 : Fin 1) j)) := by
  subst h0 h1 h2
  exact (congrFun (arr3 V c) (ix2 (0 : Fin 1) j)).trans (last3 V c j 19 tlast.isLt rfl)

/-- Region 1's second result: lane j of the array is the sum of y * y over all rows. -/
theorem arr_sumsq_of (V : (c : Dev nD) → (b : Ref sig .tc) → Buf (Elt Ideal) ((c : Thread nD τ).loc b)) (c : Dev nD)
    (A0 : Vec Ideal S100000x128 .f32) (A1 : Vec Ideal S100000x1 .f32) (A2 : Vec Ideal S1x128 .f32)
    (h0 : V c main_v34 = A0) (h1 : V c main_v15 = A1) (h2 : V c main_v16 = A2) (j : Fin 128) :
    (Gen.dat1 (F := Ideal) V c).arrAt 4 cfg1.N (ix2 (0 : Fin 1) j)
      = ∑ r : Fin 100000, (A0 (ix2 r j) * A1 (ix2 r (0 : Fin 1)) + A2 (ix2 (0 : Fin 1) j))
                           * (A0 (ix2 r j) * A1 (ix2 r (0 : Fin 1)) + A2 (ix2 (0 : Fin 1) j)) := by
  subst h0 h1 h2
  exact (congrFun (arr4 V c) (ix2 (0 : Fin 1) j)).trans (last4 V c j 19 tlast.isLt rfl)

/-- The first result at the region's own arrays. -/
theorem arr_sum (V : (c : Dev nD) → (b : Ref sig .tc) → Buf (Elt Ideal) ((c : Thread nD τ).loc b)) (c : Dev nD) (j : Fin 128) :
    (Gen.dat1 (F := Ideal) V c).arrAt 3 cfg1.N (ix2 (0 : Fin 1) j)
      = spec_sum (V c main_v34) (V c main_v15) (V c main_v16) j :=
  arr_sum_of V c (V c main_v34) (V c main_v15) (V c main_v16) rfl rfl rfl j

/-- The second result at the region's own arrays. -/
theorem arr_sumsq (V : (c : Dev nD) → (b : Ref sig .tc) → Buf (Elt Ideal) ((c : Thread nD τ).loc b)) (c : Dev nD) (j : Fin 128) :
    (Gen.dat1 (F := Ideal) V c).arrAt 4 cfg1.N (ix2 (0 : Fin 1) j)
      = spec_sumsq (V c main_v34) (V c main_v15) (V c main_v16) j :=
  arr_sumsq_of V c (V c main_v34) (V c main_v15) (V c main_v16) rfl rfl rfl j

end Cert.KernelIdeal.Reg1
-- ==== Proof.Reg3.lean ====
/-
  Region 3 of the program: the second batch-norm statistics pass, the same kernel as region 1 on the second
  layer's arrays. Over a grid of 20 points, point t stages rows 5000 t … 5000 t + 4999 of agg [100000, 128] and of
  the scale column invdeg [100000, 1], and the bias row b [1, 128];
  with y = agg * invdeg + b it adds the column sums of y over those rows into one [1, 128] output and the column sums
  of y * y into another, both zeroed at point 0 and written back once, after point 19. So the two arrays end
  holding, lane by lane, the sum over all 100000 rows of y and of y * y: the running sums are read off the stores of
  the two control cases (first point, later point), the accumulation is an induction on the point, and twenty
  blocks of 5000 rows regroup into one sum over 100000 in any additive commutative monoid, so no finiteness is used.
-/
import proofs.«155254_j19997367730788_2_alg».proof.Proof.Gen.KernelIdeal.Frame
import proofs.«155254_j19997367730788_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Reg3

open Cert.KernelIdeal Cert.KernelIdeal.Gen

/- The arrays' element types are extended reals only after unfolding the buffer signature, so the products and sums of
   their entries are written with the extended reals' own operations named outright. -/
local notation:70 a:70 " *ᵉ " b:71 => @HMul.hMul EReal EReal EReal instHMul a b
local notation:65 a:65 " +ᵉ " b:66 => @HAdd.hAdd EReal EReal EReal instHAdd a b

variable {F : FTy → Type} [FloatOps F]

theorem hz : (![0, 0] : Fin 2 → Nat) = fun _ => 0 := funext fun a => by fin_cases a <;> rfl

/-- Away from the first point the body leaves in output 3 the running column sums it found there plus this block's. -/
theorem out_B_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond3_0 i) (x0 : Vec F S5000x128 .f32) (x1 : Vec F S5000x1 .f32) (x2 : Vec F S1x128 .f32) (xo3 xo4 : Vec F S1x128 .f32) :
    out3_B_3 c i a1 h1 a2 h2 a3 h3 a4 h4 a5 h5 hc x0 x1 x2 xo3 xo4 = k3_pay4 x0 x1 x2 xo3 := by
  unfold out3_B_3
  rw [View.read_writes_eq_canon _ _ _ (cover3_B_3 c i a1 h1 a2 h2 a3 h3 a4 h4 a5 h5 hc x0 x1 x2 xo3 xo4)]
  unfold kernelRun3_B
  dsimp only
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S1x128) hz]

/-- Away from the first point the body leaves in output 4 the running column sums of squares plus this block's. -/
theorem out_B_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond3_0 i) (x0 : Vec F S5000x128 .f32) (x1 : Vec F S5000x1 .f32) (x2 : Vec F S1x128 .f32) (xo3 xo4 : Vec F S1x128 .f32) :
    out3_B_4 c i a1 h1 a2 h2 a3 h3 a4 h4 a5 h5 hc x0 x1 x2 xo3 xo4 = k3_pay5 x0 x1 x2 xo4 := by
  unfold out3_B_4
  rw [View.read_writes_eq_canon _ _ _ (cover3_B_4 c i a1 h1 a2 h2 a3 h3 a4 h4 a5 h5 hc x0 x1 x2 xo3 xo4)]
  unfold kernelRun3_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- At the first point the body zeroes output 3, reads the zero row back and leaves it plus this block's column sums. -/
theorem out_A_3 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond3_0 i) (x0 : Vec F S5000x128 .f32) (x1 : Vec F S5000x1 .f32) (x2 : Vec F S1x128 .f32) :
    out3_A_3 c i a1 h1 a2 h2 a3 h3 a4 h4 a5 h5 hc x0 x1 x2 = k3_pay4 x0 x1 x2 (k3_pay1 (F := F)) := by
  unfold out3_A_3
  rw [View.read_writes_eq_canon _ _ _ (cover3_A_3 c i a1 h1 a2 h2 a3 h3 a4 h4 a5 h5 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- At the first point the body zeroes output 4, reads the zero row back and leaves it plus this block's column sums of squares. -/
theorem out_A_4 (c : Dev nD) (i : grid3.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond3_0 i) (x0 : Vec F S5000x128 .f32) (x1 : Vec F S5000x1 .f32) (x2 : Vec F S1x128 .f32) :
    out3_A_4 c i a1 h1 a2 h2 a3 h3 a4 h4 a5 h5 hc x0 x1 x2 = k3_pay5 x0 x1 x2 (k3_pay2 (F := F)) := by
  unfold out3_A_4
  rw [View.read_writes_eq_canon _ _ _ (cover3_A_4 c i a1 h1 a2 h2 a3 h3 a4 h4 a5 h5 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-! ## The body's arithmetic read at an index, over the extended reals -/

section Payloads
variable {α : Type}

/-- A column [a, 1] broadcast along the lanes to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Payloads

/-- The sum over the 5000 rows of a block, lane by lane: the lane reduction read at lane j. -/
theorem colsum_apply (v : FVec Ideal S5000x128 .f32) (j : Fin 128) :
    multiReduction (F := Ideal) .add [0] S128 v 0x00000000#32 reduces_S5000x128_S128 (.inl rfl) rfl (ix1 j)
      = ∑ r : Fin 5000, v (ix2 r j) := by
  refine (Ideal.multiReduction_add_single v 0x00000000#32 reduces_S5000x128_S128 (.inl rfl) rfl (ix1 j)).trans ?_
  refine Finset.sum_congr rfl fun r _ => congrArg v ?_
  funext a
  match a with
  | ⟨0, _⟩ => rfl
  | ⟨1, _⟩ => rfl

/-- y = agg * invdeg + b at row r, lane j of a block: the row's scale multiplies every lane, the bias row is added to every row. -/
theorem pay3_apply (x0 : Vec Ideal S5000x128 .f32) (x1 : Vec Ideal S5000x1 .f32) (x2 : Vec Ideal S1x128 .f32)
    (r : Fin 5000) (j : Fin 128) :
    k3_pay3 (F := Ideal) x0 x1 x2 (ix2 r j) = x0 (ix2 r j) * x1 (ix2 r (0 : Fin 1)) + x2 (ix2 (0 : Fin 1) j) := by
  unfold k3_pay3
  show shapeCast S5000x128 x0 _ (ix2 r j) * broadcastTo S5000x128 (shapeCast S5000x1 x1 _) _ (ix2 r j)
      + broadcastTo S5000x128 (shapeCast S1x128 x2 _) _ (ix2 r j) = _
  rw [shapeCast_self, shapeCast_self, shapeCast_self, broadcastTo_a1_ab_apply, broadcastTo_1b_ab_apply]

/-- The new running column sum: the old one at lane j plus the sum of y over the block's rows. -/
theorem pay4_apply (x0 : Vec Ideal S5000x128 .f32) (x1 : Vec Ideal S5000x1 .f32) (x2 : Vec Ideal S1x128 .f32)
    (acc : Vec Ideal S1x128 .f32) (j : Fin 128) :
    k3_pay4 (F := Ideal) x0 x1 x2 acc (ix2 (0 : Fin 1) j)
      = acc (ix2 (0 : Fin 1) j)
        + ∑ r : Fin 5000, (x0 (ix2 r j) * x1 (ix2 r (0 : Fin 1)) + x2 (ix2 (0 : Fin 1) j)) := by
  unfold k3_pay4
  show shapeCast S1x128 acc _ (ix2 (0 : Fin 1) j) + shapeCast S1x128 (multiReduction (F := Ideal) .add [0] S128 (k3_pay3 x0 x1 x2) 0x00000000#32 reduces_S5000x128_S128 (.inl rfl) rfl) _ (ix2 (0 : Fin 1) j) = _
  rw [shapeCast_self, shapeCast_a_1a_apply, colsum_apply]
  exact congrArg _ (Finset.sum_congr rfl fun r _ => pay3_apply x0 x1 x2 r j)

/-- The new running column sum of squares: the old one at lane j plus the sum of y * y over the block's rows. -/
theorem pay5_apply (x0 : Vec Ideal S5000x128 .f32) (x1 : Vec Ideal S5000x1 .f32) (x2 : Vec Ideal S1x128 .f32)
    (acc : Vec Ideal S1x128 .f32) (j : Fin 128) :
    k3_pay5 (F := Ideal) x0 x1 x2 acc (ix2 (0 : Fin 1) j)
      = acc (ix2 (0 : Fin 1) j)
        + ∑ r : Fin 5000, (x0 (ix2 r j) * x1 (ix2 r (0 : Fin 1)) + x2 (ix2 (0 : Fin 1) j))
                          * (x0 (ix2 r j) * x1 (ix2 r (0 : Fin 1)) + x2 (ix2 (0 : Fin 1) j)) := by
  unfold k3_pay5
  show shapeCast S1x128 acc _ (ix2 (0 : Fin 1) j) + shapeCast S1x128 (multiReduction (F := Ideal) .add [0] S128 (mulf (k3_pay3 x0 x1 x2) (k3_pay3 x0 x1 x2)) 0x00000000#32 reduces_S5000x128_S128 (.inl rfl) rfl) _ (ix2 (0 : Fin 1) j) = _
  rw [shapeCast_self, shapeCast_a_1a_apply, colsum_apply]
  refine congrArg _ (Finset.sum_congr rfl fun r _ => ?_)
  show k3_pay3 (F := Ideal) x0 x1 x2 (ix2 r j) * k3_pay3 (F := Ideal) x0 x1 x2 (ix2 r j) = _
  rw [pay3_apply]

/-- The zero row the first point stores reads 0 at every lane. -/
theorem pay1_apply (i : S1x128.Idx) : k3_pay1 (F := Ideal) i = (0 : EReal) := Ideal.ofBits_zero_f32
theorem pay2_apply (i : S1x128.Idx) : k3_pay2 (F := Ideal) i = (0 : EReal) := Ideal.ofBits_zero_f32

/-! ## The blocks the windows stage, read at an index -/

section Blocks
variable (V : (c : Dev nD) → (b : Ref sig .tc) → Buf (Elt F) ((c : Thread nD τ).loc b))

/-- The windows' index maps over the grid: the two 100000-row operands are cut into 20 row blocks, point t staging
    block t; the bias row and both outputs stay on block (0, 0). -/
theorem idx_facts : ∀ t : Fin cfg3.N,
    win3_0.index t (0 : Fin 2) = t.val ∧ win3_0.index t (1 : Fin 2) = 0 ∧
    win3_1.index t (0 : Fin 2) = t.val ∧ win3_1.index t (1 : Fin 2) = 0 ∧
    win3_2.index t (0 : Fin 2) = 0 ∧ win3_2.index t (1 : Fin 2) = 0 ∧
    win3_3.index t (0 : Fin 2) = 0 ∧ win3_3.index t (1 : Fin 2) = 0 ∧
    win3_4.index t (0 : Fin 2) = 0 ∧ win3_4.index t (1 : Fin 2) = 0 :=
  (by decide +kernel : ∀ t : Fin grid3.N, _)

/-- Row y, lane j of the block of agg staged at point t is row 5000 t + y of the array. -/
theorem blk0_apply (c : Dev nD) (t : Fin cfg3.N) (y : Fin 5000) (j : Fin 128) (hr : 5000 * t.val + y.val < 100000) :
    (iblk3 V c 0 t : Vec F S5000x128 .f32) (ix2 y j) = V c main_v53 (ix2 ⟨5000 * t.val + y.val, hr⟩ j) := by
  have hi := idx_facts t
  unfold iblk3
  rw [View.read_apply]
  show V c main_v53 _ = V c main_v53 _
  refine congrArg _ (funext fun a => Fin.ext ?_)
  match a with
  | ⟨0, _⟩ => show win3_0.index t 0 * 5000 + 1 * y.val = 5000 * t.val + y.val; rw [hi.1]; omega
  | ⟨1, _⟩ => show win3_0.index t 1 * 128 + 1 * j.val = j.val; rw [hi.2.1]; omega

/-- Row y of the block of the scale column staged at point t is row 5000 t + y of the column. -/
theorem blk1_apply (c : Dev nD) (t : Fin cfg3.N) (y : Fin 5000) (hr : 5000 * t.val + y.val < 100000) :
    (iblk3 V c 1 t : Vec F S5000x1 .f32) (ix2 y (0 : Fin 1)) = V c main_v15 (ix2 ⟨5000 * t.val + y.val, hr⟩ (0 : Fin 1)) := by
  have hi := idx_facts t
  unfold iblk3
  rw [View.read_apply]
  show V c main_v15 _ = V c main_v15 _
  refine congrArg _ (funext fun a => Fin.ext ?_)
  match a with
  | ⟨0, _⟩ => show win3_1.index t 0 * 5000 + 1 * y.val = 5000 * t.val + y.val; rw [hi.2.2.1]; omega
  | ⟨1, _⟩ => show win3_1.index t 1 * 1 + 1 * 0 = 0; rw [hi.2.2.2.1]

/-- The bias row is staged whole at every point. -/
theorem blk2_apply (c : Dev nD) (t : Fin cfg3.N) (j : Fin 128) :
    (iblk3 V c 2 t : Vec F S1x128 .f32) (ix2 (0 : Fin 1) j) = V c main_v19 (ix2 (0 : Fin 1) j) := by
  have hi := idx_facts t
  unfold iblk3
  rw [View.read_apply]
  show V c main_v19 _ = V c main_v19 _
  refine congrArg _ (funext fun a => Fin.ext ?_)
  match a with
  | ⟨0, _⟩ => show win3_2.index t 0 * 1 + 1 * 0 = 0; rw [hi.2.2.2.2.1]
  | ⟨1, _⟩ => show win3_2.index t 1 * 128 + 1 * j.val = j.val; rw [hi.2.2.2.2.2.1]; omega

end Blocks

/-! ## One point's contribution, over variables -/

/-- If the staged blocks are rows 5000 t … 5000 t + 4999 of the arrays A0, A1 and the row A2, the new running column
    sum at lane j is the old one plus the sum of y over those rows. -/
theorem step_sum (x0 : Vec Ideal S5000x128 .f32) (x1 : Vec Ideal S5000x1 .f32) (x2 acc : Vec Ideal S1x128 .f32)
    (A0 : S100000x128.Idx → EReal) (A1 : S100000x1.Idx → EReal) (A2 : S1x128.Idx → EReal) (t : ℕ) (ht : t < 20)
    (e0 : ∀ (y : Fin 5000) (j : Fin 128), x0 (ix2 y j) = A0 (ix2 ⟨5000 * t + y.val, by omega⟩ j))
    (e1 : ∀ (y : Fin 5000), x1 (ix2 y (0 : Fin 1)) = A1 (ix2 ⟨5000 * t + y.val, by omega⟩ (0 : Fin 1)))
    (e2 : ∀ (j : Fin 128), x2 (ix2 (0 : Fin 1) j) = A2 (ix2 (0 : Fin 1) j)) (j : Fin 128) :
    k3_pay4 (F := Ideal) x0 x1 x2 acc (ix2 (0 : Fin 1) j)
      = acc (ix2 (0 : Fin 1) j)
        + ∑ y : Fin 5000, (A0 (ix2 ⟨5000 * t + y.val, by omega⟩ j) * A1 (ix2 ⟨5000 * t + y.val, by omega⟩ (0 : Fin 1))
            + A2 (ix2 (0 : Fin 1) j)) := by
  rw [pay4_apply]
  refine congrArg _ (Finset.sum_congr rfl fun y _ => ?_)
  rw [e0, e1, e2]

/-- The same for the running column sum of squares. -/
theorem step_sumsq (x0 : Vec Ideal S5000x128 .f32) (x1 : Vec Ideal S5000x1 .f32) (x2 acc : Vec Ideal S1x128 .f32)
    (A0 : S100000x128.Idx → EReal) (A1 : S100000x1.Idx → EReal) (A2 : S1x128.Idx → EReal) (t : ℕ) (ht : t < 20)
    (e0 : ∀ (y : Fin 5000) (j : Fin 128), x0 (ix2 y j) = A0 (ix2 ⟨5000 * t + y.val, by omega⟩ j))
    (e1 : ∀ (y : Fin 5000), x1 (ix2 y (0 : Fin 1)) = A1 (ix2 ⟨5000 * t + y.val, by omega⟩ (0 : Fin 1)))
    (e2 : ∀ (j : Fin 128), x2 (ix2 (0 : Fin 1) j) = A2 (ix2 (0 : Fin 1) j)) (j : Fin 128) :
    k3_pay5 (F := Ideal) x0 x1 x2 acc (ix2 (0 : Fin 1) j)
      = acc (ix2 (0 : Fin 1) j)
        + ∑ y : Fin 5000, (A0 (ix2 ⟨5000 * t + y.val, by omega⟩ j) * A1 (ix2 ⟨5000 * t + y.val, by omega⟩ (0 : Fin 1))
              + A2 (ix2 (0 : Fin 1) j))
            * (A0 (ix2 ⟨5000 * t + y.val, by omega⟩ j) * A1 (ix2 ⟨5000 * t + y.val, by omega⟩ (0 : Fin 1))
              + A2 (ix2 (0 : Fin 1) j)) := by
  rw [pay5_apply]
  refine congrArg _ (Finset.sum_congr rfl fun y _ => ?_)
  rw [e0, e1, e2]

/-! ## The accumulation over the grid -/

section Accumulation
variable (V : (c : Dev nD) → (b : Ref sig .tc) → Buf (Elt Ideal) ((c : Thread nD τ).loc b))

/-- y = agg * invdeg + b at row r, lane j of the whole arrays. -/
def yv (c : Dev nD) (j : Fin 128) (r : Fin 100000) : EReal :=
  V c main_v53 (ix2 r j) *ᵉ V c main_v15 (ix2 r (0 : Fin 1)) +ᵉ V c main_v19 (ix2 (0 : Fin 1) j)

/-- The sum of y over row block s (0 past the grid). -/
def bsum (c : Dev nD) (j : Fin 128) (s : ℕ) : EReal :=
  if hs : s < 20 then ∑ y : Fin 5000, yv V c j ⟨5000 * s + y.val, by omega⟩ else 0

/-- The sum of y * y over row block s (0 past the grid). -/
def bsumsq (c : Dev nD) (j : Fin 128) (s : ℕ) : EReal :=
  if hs : s < 20 then ∑ y : Fin 5000, yv V c j ⟨5000 * s + y.val, by omega⟩ * yv V c j ⟨5000 * s + y.val, by omega⟩ else 0

/-- Lane j of output 3's staging buffer after point n (0 past the grid). -/
def acc3 (c : Dev nD) (j : Fin 128) (n : ℕ) : EReal :=
  if h : n < cfg3.N then (outsAt3 V c n h).1 (ix2 (0 : Fin 1) j) else 0

/-- Lane j of output 4's staging buffer after point n (0 past the grid). -/
def acc4 (c : Dev nD) (j : Fin 128) (n : ℕ) : EReal :=
  if h : n < cfg3.N then (outsAt3 V c n h).2 (ix2 (0 : Fin 1) j) else 0

/-- At the first point output 3 is zeroed and block 0's column sums added. -/
theorem acc3_zero (c : Dev nD) (j : Fin 128) : acc3 V c j 0 = 0 + bsum V c j 0 := by
  have hN : cfg3.N = 20 := N_3
  have h0 : (0 : ℕ) < cfg3.N := by omega
  unfold acc3 bsum
  rw [dif_pos h0, dif_pos (by omega : (0 : ℕ) < 20), outsAt3_A V c ⟨0, h0⟩ rfl]
  dsimp only
  refine (congrFun (out_A_3 c (grid3.coords ⟨0, h0⟩) (ms3_0 ⟨0, h0⟩) (hs3_0 ⟨0, h0⟩) (ms3_1 ⟨0, h0⟩) (hs3_1 ⟨0, h0⟩) (ms3_2 ⟨0, h0⟩) (hs3_2 ⟨0, h0⟩) (ms3_3 ⟨0, h0⟩) (hs3_3 ⟨0, h0⟩) (ms3_4 ⟨0, h0⟩) (hs3_4 ⟨0, h0⟩) ((hcond3_0 ⟨0, h0⟩).mpr rfl)
    (iblk3 V c 0 ⟨0, h0⟩) (iblk3 V c 1 ⟨0, h0⟩) (iblk3 V c 2 ⟨0, h0⟩)) (ix2 (0 : Fin 1) j)).trans ?_
  refine (step_sum (iblk3 V c 0 ⟨0, h0⟩) (iblk3 V c 1 ⟨0, h0⟩) (iblk3 V c 2 ⟨0, h0⟩) (k3_pay1 (F := Ideal))
    (V c main_v53) (V c main_v15) (V c main_v19) 0 (by omega)
    (fun y j => blk0_apply V c ⟨0, h0⟩ y j _) (fun y => blk1_apply V c ⟨0, h0⟩ y _) (fun j => blk2_apply V c ⟨0, h0⟩ j) j).trans ?_
  rw [pay1_apply]
  rfl

/-- At a later point block n + 1's column sums are added to what point n left in output 3. -/
theorem acc3_succ (c : Dev nD) (j : Fin 128) (n : ℕ) (hn : n + 1 < 20) :
    acc3 V c j (n + 1) = acc3 V c j n + bsum V c j (n + 1) := by
  have hN : cfg3.N = 20 := N_3
  have h1 : n + 1 < cfg3.N := by omega
  have h0 : n < cfg3.N := by omega
  have hB : ¬(⟨n + 1, h1⟩ : Fin cfg3.N).val % 20 = 0 := by dsimp only; omega
  unfold acc3 bsum
  rw [dif_pos h1, dif_pos h0, dif_pos hn, outsAt3_B V c ⟨n + 1, h1⟩ hB]
  dsimp only
  refine (congrFun (out_B_3 c (grid3.coords ⟨n + 1, h1⟩) (ms3_0 ⟨n + 1, h1⟩) (hs3_0 ⟨n + 1, h1⟩) (ms3_1 ⟨n + 1, h1⟩) (hs3_1 ⟨n + 1, h1⟩) (ms3_2 ⟨n + 1, h1⟩) (hs3_2 ⟨n + 1, h1⟩) (ms3_3 ⟨n + 1, h1⟩) (hs3_3 ⟨n + 1, h1⟩) (ms3_4 ⟨n + 1, h1⟩) (hs3_4 ⟨n + 1, h1⟩) (fun h => hB ((hcond3_0 ⟨n + 1, h1⟩).mp h))
    (iblk3 V c 0 ⟨n + 1, h1⟩) (iblk3 V c 1 ⟨n + 1, h1⟩) (iblk3 V c 2 ⟨n + 1, h1⟩)
    (outsAt3 V c n h0).1 (outsAt3 V c n h0).2) (ix2 (0 : Fin 1) j)).trans ?_
  exact step_sum (iblk3 V c 0 ⟨n + 1, h1⟩) (iblk3 V c 1 ⟨n + 1, h1⟩) (iblk3 V c 2 ⟨n + 1, h1⟩) (outsAt3 V c n h0).1
    (V c main_v53) (V c main_v15) (V c main_v19) (n + 1) hn
    (fun y j => blk0_apply V c ⟨n + 1, h1⟩ y j _) (fun y => blk1_apply V c ⟨n + 1, h1⟩ y _) (fun j => blk2_apply V c ⟨n + 1, h1⟩ j) j

/-- At the first point output 4 is zeroed and block 0's column sums of squares added. -/
theorem acc4_zero (c : Dev nD) (j : Fin 128) : acc4 V c j 0 = 0 + bsumsq V c j 0 := by
  have hN : cfg3.N = 20 := N_3
  have h0 : (0 : ℕ) < cfg3.N := by omega
  unfold acc4 bsumsq
  rw [dif_pos h0, dif_pos (by omega : (0 : ℕ) < 20), outsAt3_A V c ⟨0, h0⟩ rfl]
  dsimp only
  refine (congrFun (out_A_4 c (grid3.coords ⟨0, h0⟩) (ms3_0 ⟨0, h0⟩) (hs3_0 ⟨0, h0⟩) (ms3_1 ⟨0, h0⟩) (hs3_1 ⟨0, h0⟩) (ms3_2 ⟨0, h0⟩) (hs3_2 ⟨0, h0⟩) (ms3_3 ⟨0, h0⟩) (hs3_3 ⟨0, h0⟩) (ms3_4 ⟨0, h0⟩) (hs3_4 ⟨0, h0⟩) ((hcond3_0 ⟨0, h0⟩).mpr rfl)
    (iblk3 V c 0 ⟨0, h0⟩) (iblk3 V c 1 ⟨0, h0⟩) (iblk3 V c 2 ⟨0, h0⟩)) (ix2 (0 : Fin 1) j)).trans ?_
  refine (step_sumsq (iblk3 V c 0 ⟨0, h0⟩) (iblk3 V c 1 ⟨0, h0⟩) (iblk3 V c 2 ⟨0, h0⟩) (k3_pay2 (F := Ideal))
    (V c main_v53) (V c main_v15) (V c main_v19) 0 (by omega)
    (fun y j => blk0_apply V c ⟨0, h0⟩ y j _) (fun y => blk1_apply V c ⟨0, h0⟩ y _) (fun j => blk2_apply V c ⟨0, h0⟩ j) j).trans ?_
  rw [pay2_apply]
  rfl

/-- At a later point block n + 1's column sums of squares are added to what point n left in output 4. -/
theorem acc4_succ (c : Dev nD) (j : Fin 128) (n : ℕ) (hn : n + 1 < 20) :
    acc4 V c j (n + 1) = acc4 V c j n + bsumsq V c j (n + 1) := by
  have hN : cfg3.N = 20 := N_3
  have h1 : n + 1 < cfg3.N := by omega
  have h0 : n < cfg3.N := by omega
  have hB : ¬(⟨n + 1, h1⟩ : Fin cfg3.N).val % 20 = 0 := by dsimp only; omega
  unfold acc4 bsumsq
  rw [dif_pos h1, dif_pos h0, dif_pos hn, outsAt3_B V c ⟨n + 1, h1⟩ hB]
  dsimp only
  refine (congrFun (out_B_4 c (grid3.coords ⟨n + 1, h1⟩) (ms3_0 ⟨n + 1, h1⟩) (hs3_0 ⟨n + 1, h1⟩) (ms3_1 ⟨n + 1, h1⟩) (hs3_1 ⟨n + 1, h1⟩) (ms3_2 ⟨n + 1, h1⟩) (hs3_2 ⟨n + 1, h1⟩) (ms3_3 ⟨n + 1, h1⟩) (hs3_3 ⟨n + 1, h1⟩) (ms3_4 ⟨n + 1, h1⟩) (hs3_4 ⟨n + 1, h1⟩) (fun h => hB ((hcond3_0 ⟨n + 1, h1⟩).mp h))
    (iblk3 V c 0 ⟨n + 1, h1⟩) (iblk3 V c 1 ⟨n + 1, h1⟩) (iblk3 V c 2 ⟨n + 1, h1⟩)
    (outsAt3 V c n h0).1 (outsAt3 V c n h0).2) (ix2 (0 : Fin 1) j)).trans ?_
  exact step_sumsq (iblk3 V c 0 ⟨n + 1, h1⟩) (iblk3 V c 1 ⟨n + 1, h1⟩) (iblk3 V c 2 ⟨n + 1, h1⟩) (outsAt3 V c n h0).2
    (V c main_v53) (V c main_v15) (V c main_v19) (n + 1) hn
    (fun y j => blk0_apply V c ⟨n + 1, h1⟩ y j _) (fun y => blk1_apply V c ⟨n + 1, h1⟩ y _) (fun j => blk2_apply V c ⟨n + 1, h1⟩ j) j

/-- After the last point output 3 holds, lane by lane, the sum of y over all 100000 rows: twenty blocks of 5000. -/
theorem acc3_last (c : Dev nD) (j : Fin 128) : acc3 V c j 19 = ∑ r : Fin 100000, yv V c j r := by
  rw [Cert.Lib.running_sum_lt' (N := 20) (bsum V c j) (acc3 V c j) (acc3_zero V c j) (acc3_succ V c j) 19 (by omega)]
  exact Cert.Lib.sum_range_blocks_of_eq (nb := 20) (bs := 5000) (N := 100000) rfl (yv V c j) (bsum V c j)
    (fun t ht => by unfold bsum; exact dif_pos ht)

/-- After the last point output 4 holds, lane by lane, the sum of y * y over all 100000 rows. -/
theorem acc4_last (c : Dev nD) (j : Fin 128) : acc4 V c j 19 = ∑ r : Fin 100000, yv V c j r * yv V c j r := by
  rw [Cert.Lib.running_sum_lt' (N := 20) (bsumsq V c j) (acc4 V c j) (acc4_zero V c j) (acc4_succ V c j) 19 (by omega)]
  exact Cert.Lib.sum_range_blocks_of_eq (nb := 20) (bs := 5000) (N := 100000) rfl (fun r => yv V c j r * yv V c j r) (bsumsq V c j)
    (fun t ht => by unfold bsumsq; exact dif_pos ht)

end Accumulation

/-! ## The arrays after the run -/

section Arrays
variable (V : (c : Dev nD) → (b : Ref sig .tc) → Buf (Elt Ideal) ((c : Thread nD τ).loc b))

/-- The last point of the grid, the one write-back of both outputs. -/
abbrev tlast : Fin cfg3.N := ⟨19, by rw [show cfg3.N = 20 from N_3]; decide⟩

/-- Both outputs' blocks are the whole [1, 128] row at every point. -/
theorem xsize_facts : ∀ t : Fin cfg3.N,
    win3_3.xsize (grid3.coords t) (0 : Fin 2) = 1 ∧ win3_3.xsize (grid3.coords t) (1 : Fin 2) = 128 ∧
    win3_4.xsize (grid3.coords t) (0 : Fin 2) = 1 ∧ win3_4.xsize (grid3.coords t) (1 : Fin 2) = 128 :=
  (by decide +kernel : ∀ t : Fin grid3.N, _)

/-- What output 3's array ends holding: its staging buffer after the last point. -/
abbrev res3 (c : Dev nD) : Buf (Elt Ideal) ((c : Thread nD τ).loc main_v54_0) := (outsAt3 V c 19 tlast.isLt).1
/-- What output 4's array ends holding: its staging buffer after the last point. -/
abbrev res4 (c : Dev nD) : Buf (Elt Ideal) ((c : Thread nD τ).loc main_v54_1) := (outsAt3 V c 19 tlast.isLt).2

/-- The one write-back of output 3, at the last point, writes the whole staging row: block (0, 0) of a [1, 128] array
    read through zero offsets is the array. -/
theorem flushed3_eq (c : Dev nD) (t : Fin cfg3.N) (hf : (cfg3.win 3).flush t = true) :
    (dat3 V c).flushed 3 t = ((cfg3.win 3).blk t).view.read (Elt Ideal) (res3 V c) := by
  have hN : cfg3.N = 20 := N_3
  have h19 : t.val = 19 := by have := (flush3_3 t).mp hf; have := t.isLt; omega
  obtain rfl : t = tlast := Fin.ext h19
  show (cfg3.win 3).cut (grid3.coords tlast) ((dat3 V c).after 3 tlast) = _
  rw [after3_3]
  have hi := idx_facts tlast
  have hz' : (fun a => win3_3.index tlast a * main_v54_0.ty.shape.size a) = fun _ => 0 := funext fun a => by
    fin_cases a
    · show win3_3.index tlast 0 * _ = 0; rw [hi.2.2.2.2.2.2.1, Nat.zero_mul]
    · show win3_3.index tlast 1 * _ = 0; rw [hi.2.2.2.2.2.2.2.1, Nat.zero_mul]
  exact (Memref.read_access_unit_zero (Elt Ideal) main_v54_0 hz' (fun a => by rw [congrFun hz' a]; simp) (res3 V c)).symm

theorem flushed4_eq (c : Dev nD) (t : Fin cfg3.N) (hf : (cfg3.win 4).flush t = true) :
    (dat3 V c).flushed 4 t = ((cfg3.win 4).blk t).view.read (Elt Ideal) (res4 V c) := by
  have hN : cfg3.N = 20 := N_3
  have h19 : t.val = 19 := by have := (flush3_4 t).mp hf; have := t.isLt; omega
  obtain rfl : t = tlast := Fin.ext h19
  show (cfg3.win 4).cut (grid3.coords tlast) ((dat3 V c).after 4 tlast) = _
  rw [after3_4]
  have hi := idx_facts tlast
  have hz' : (fun a => win3_4.index tlast a * main_v54_1.ty.shape.size a) = fun _ => 0 := funext fun a => by
    fin_cases a
    · show win3_4.index tlast 0 * _ = 0; rw [hi.2.2.2.2.2.2.2.2.1, Nat.zero_mul]
    · show win3_4.index tlast 1 * _ = 0; rw [hi.2.2.2.2.2.2.2.2.2, Nat.zero_mul]
  exact (Memref.read_access_unit_zero (Elt Ideal) main_v54_1 hz' (fun a => by rw [congrFun hz' a]; simp) (res4 V c)).symm

/-- Output 3's array after the run is its staging row after the last point: that point's block covers the array. -/
theorem arr3 (c : Dev nD) : (dat3 V c).arrAt 3 cfg3.N = res3 V c :=
  (dat3 V c).arrAt_eq_of_cover 3 (res3 V c) (flushed3_eq V c) fun i =>
    ⟨tlast, (flush3_3 tlast).mpr rfl, by
      show i ∈ ((View.whole main_v54_0).slice (win3_3.rect tlast)).set
      rw [View.set_slice_whole, Rect.mem_set_unit]
      intro a
      have h0 : (i 0 : Nat) < 1 := (i 0).isLt
      have h1 : (i 1 : Nat) < 128 := (i 1).isLt
      have hi := idx_facts tlast
      have hx := xsize_facts tlast
      match a with
      | ⟨0, _⟩ =>
        show win3_3.index tlast 0 * win3_3.size 0 ≤ (i 0 : Nat) ∧ (i 0 : Nat) < win3_3.index tlast 0 * win3_3.size 0 + win3_3.xsize (grid3.coords tlast) 0
        rw [hi.2.2.2.2.2.2.1, hx.1]; omega
      | ⟨1, _⟩ =>
        show win3_3.index tlast 1 * win3_3.size 1 ≤ (i 1 : Nat) ∧ (i 1 : Nat) < win3_3.index tlast 1 * win3_3.size 1 + win3_3.xsize (grid3.coords tlast) 1
        rw [hi.2.2.2.2.2.2.2.1, hx.2.1]; omega⟩

/-- Output 4's array after the run is its staging row after the last point. -/
theorem arr4 (c : Dev nD) : (dat3 V c).arrAt 4 cfg3.N = res4 V c :=
  (dat3 V c).arrAt_eq_of_cover 4 (res4 V c) (flushed4_eq V c) fun i =>
    ⟨tlast, (flush3_4 tlast).mpr rfl, by
      show i ∈ ((View.whole main_v54_1).slice (win3_4.rect tlast)).set
      rw [View.set_slice_whole, Rect.mem_set_unit]
      intro a
      have h0 : (i 0 : Nat) < 1 := (i 0).isLt
      have h1 : (i 1 : Nat) < 128 := (i 1).isLt
      have hi := idx_facts tlast
      have hx := xsize_facts tlast
      match a with
      | ⟨0, _⟩ =>
        show win3_4.index tlast 0 * win3_4.size 0 ≤ (i 0 : Nat) ∧ (i 0 : Nat) < win3_4.index tlast 0 * win3_4.size 0 + win3_4.xsize (grid3.coords tlast) 0
        rw [hi.2.2.2.2.2.2.2.2.1, hx.2.2.1]; omega
      | ⟨1, _⟩ =>
        show win3_4.index tlast 1 * win3_4.size 1 ≤ (i 1 : Nat) ∧ (i 1 : Nat) < win3_4.index tlast 1 * win3_4.size 1 + win3_4.xsize (grid3.coords tlast) 1
        rw [hi.2.2.2.2.2.2.2.2.2, hx.2.2.2]; omega⟩

end Arrays

/-- The accumulator of output 3 after the last point, the point named by a variable so that no step of the proof
    unrolls the recursion over the points. -/
theorem last3 (V : (c : Dev nD) → (b : Ref sig .tc) → Buf (Elt Ideal) ((c : Thread nD τ).loc b)) (c : Dev nD) (j : Fin 128)
    (n : ℕ) (hn : n < cfg3.N) (h19 : n = 19) :
    (outsAt3 V c n hn).1 (ix2 (0 : Fin 1) j) = ∑ r : Fin 100000, yv V c j r := by
  have h := acc3_last V c j
  rw [← h19] at h
  unfold acc3 at h
  rw [dif_pos hn] at h
  exact h

/-- The accumulator of output 4 after the last point. -/
theorem last4 (V : (c : Dev nD) → (b : Ref sig .tc) → Buf (Elt Ideal) ((c : Thread nD τ).loc b)) (c : Dev nD) (j : Fin 128)
    (n : ℕ) (hn : n < cfg3.N) (h19 : n = 19) :
    (outsAt3 V c n hn).2 (ix2 (0 : Fin 1) j) = ∑ r : Fin 100000, yv V c j r * yv V c j r := by
  have h := acc4_last V c j
  rw [← h19] at h
  unfold acc4 at h
  rw [dif_pos hn] at h
  exact h

/-! ## The two results -/

/-- The sum over all 100000 rows of y = agg * invdeg + b at lane j, over arrays typed as extended-real vectors. -/
def spec_sum (A0 : Vec Ideal S100000x128 .f32) (A1 : Vec Ideal S100000x1 .f32) (A2 : Vec Ideal S1x128 .f32) (j : Fin 128) : EReal :=
  ∑ r : Fin 100000, (A0 (ix2 r j) * A1 (ix2 r (0 : Fin 1)) + A2 (ix2 (0 : Fin 1) j))

/-- The sum over all 100000 rows of y * y at lane j. -/
def spec_sumsq (A0 : Vec Ideal S100000x128 .f32) (A1 : Vec Ideal S100000x1 .f32) (A2 : Vec Ideal S1x128 .f32) (j : Fin 128) : EReal :=
  ∑ r : Fin 100000, (A0 (ix2 r j) * A1 (ix2 r (0 : Fin 1)) + A2 (ix2 (0 : Fin 1) j))
                     * (A0 (ix2 r j) * A1 (ix2 r (0 : Fin 1)) + A2 (ix2 (0 : Fin 1) j))

/-- Region 3's first result, over any typed names A0, A1, A2 of the three operand arrays: lane j of the array is the
    sum of y over all rows. -/
theorem arr_sum_of (V : (c : Dev nD) → (b : Ref sig .tc) → Buf (Elt Ideal) ((c : Thread nD τ).loc b)) (c : Dev nD)
    (A0 : Vec Ideal S100000x128 .f32) (A1 : Vec Ideal S100000x1 .f32) (A2 : Vec Ideal S1x128 .f32)
    (h0 : V c main_v53 = A0) (h1 : V c main_v15 = A1) (h2 : V c main_v19 = A2) (j : Fin 128) :
    (Gen.dat3 (F := Ideal) V c).arrAt 3 cfg3.N (ix2 (0 : Fin 1) j)
      = ∑ r : Fin 100000, (A0 (ix2 r j) * A1 (ix2 r (0 : Fin 1)) + A2 (ix2 (0 : Fin 1) j)) := by
  subst h0 h1 h2
  exact (congrFun (arr3 V c) (ix2 (0 : Fin 1) j)).trans (last3 V c j 19 tlast.isLt rfl)

/-- Region 3's second result: lane j of the array is the sum of y * y over all rows. -/
theorem arr_sumsq_of (V : (c : Dev nD) → (b : Ref sig .tc) → Buf (Elt Ideal) ((c : Thread nD τ).loc b)) (c : Dev nD)
    (A0 : Vec Ideal S100000x128 .f32) (A1 : Vec Ideal S100000x1 .f32) (A2 : Vec Ideal S1x128 .f32)
    (h0 : V c main_v53 = A0) (h1 : V c main_v15 = A1) (h2 : V c main_v19 = A2) (j : Fin 128) :
    (Gen.dat3 (F := Ideal) V c).arrAt 4 cfg3.N (ix2 (0 : Fin 1) j)
      = ∑ r : Fin 100000, (A0 (ix2 r j) * A1 (ix2 r (0 : Fin 1)) + A2 (ix2 (0 : Fin 1) j))
                           * (A0 (ix2 r j) * A1 (ix2 r (0 : Fin 1)) + A2 (ix2 (0 : Fin 1) j)) := by
  subst h0 h1 h2
  exact (congrFun (arr4 V c) (ix2 (0 : Fin 1) j)).trans (last4 V c j 19 tlast.isLt rfl)

/-- The first result at the region's own arrays. -/
theorem arr_sum (V : (c : Dev nD) → (b : Ref sig .tc) → Buf (Elt Ideal) ((c : Thread nD τ).loc b)) (c : Dev nD) (j : Fin 128) :
    (Gen.dat3 (F := Ideal) V c).arrAt 3 cfg3.N (ix2 (0 : Fin 1) j)
      = spec_sum (V c main_v53) (V c main_v15) (V c main_v19) j :=
  arr_sum_of V c (V c main_v53) (V c main_v15) (V c main_v19) rfl rfl rfl j

/-- The second result at the region's own arrays. -/
theorem arr_sumsq (V : (c : Dev nD) → (b : Ref sig .tc) → Buf (Elt Ideal) ((c : Thread nD τ).loc b)) (c : Dev nD) (j : Fin 128) :
    (Gen.dat3 (F := Ideal) V c).arrAt 4 cfg3.N (ix2 (0 : Fin 1) j)
      = spec_sumsq (V c main_v53) (V c main_v15) (V c main_v19) j :=
  arr_sumsq_of V c (V c main_v53) (V c main_v15) (V c main_v19) rfl rfl rfl j

end Cert.KernelIdeal.Reg3
-- ==== Proof.StageS.lean ====
/-
  The batch statistics, stage by stage. Each of the two normalisations takes the column sums and the column sums of
  squares of the values before normalisation y = aggregate · in-degree scaling + bias (one accumulating region), then
  forms mean = sum / 100000 and variance = (sum of squares) / 100000 − mean · mean (one host stretch). Here each stage
  is tied to the reference's stages: given that the region's operand arrays hold the reference's aggregate, in-degree
  scaling and bias, its two output rows are ∑ y and ∑ y · y of the reference's y; given those, the host stretch's
  rows are the reference's mean and variance — the latter by the identity mean of squared deviations = mean of
  squares − square of the mean, which holds for real-valued data.
-/
import proofs.«155254_j19997367730788_2_alg».proof.Proof.Gen.KernelIdeal.Frame
import proofs.«155254_j19997367730788_2_alg».proof.Proof.Gen.ReferenceIdeal.Read
import proofs.«155254_j19997367730788_2_alg».proof.Proof.RefRead
import proofs.«155254_j19997367730788_2_alg».proof.Proof.LibStats
import proofs.«155254_j19997367730788_2_alg».proof.Proof.Keep
import proofs.«155254_j19997367730788_2_alg».proof.Proof.Reg1
import proofs.«155254_j19997367730788_2_alg».proof.Proof.Reg3
import Idealize.ShloMosaic.Lib.StableHlo.Run

set_option maxRecDepth 16384

noncomputable section
namespace Cert.KernelIdeal.StageS
open Idealize.ShloMosaic Idealize.ShloMosaic.TcCoe Idealize.SL.Sem Idealize.ShloMosaic.StableHlo Idealize.ShloMosaic.ValueIdx
open Cert.KernelIdeal Cert.KernelIdeal.Gen Cert.ReferenceIdeal.Read

variable (m : (ℓ : Loc nD τ sig) → Buf (Elt Ideal) ℓ) (ρ : Dev nD → PrngReg) (c : Dev nD)

/-- The host stretch's mean row is the quotient of the sum row by the constant row. -/
theorem v37_eq : W9 (F := Ideal) m ρ c (Proc.devRef .tc main_v37) = Host.divf (W8 (F := Ideal) m ρ c (Proc.devRef .tc main_v35_0)) (broadcastInDim S1x128 ![] bcast_S_S1x128 (constant (F := Ideal) S_ .f32 0x47C35000#32)) := by
  dsimp only [W9]; after_results

/-- The host stretch's variance row: (sum of squares) / constant − mean · mean. -/
theorem v41_eq : W9 (F := Ideal) m ρ c (Proc.devRef .tc main_v41) = subf (Host.divf (W8 (F := Ideal) m ρ c (Proc.devRef .tc main_v35_1)) (broadcastInDim S1x128 ![] bcast_S_S1x128 (constant (F := Ideal) S_ .f32 0x47C35000#32)))
      (mulf (Host.divf (W8 (F := Ideal) m ρ c (Proc.devRef .tc main_v35_0)) (broadcastInDim S1x128 ![] bcast_S_S1x128 (constant (F := Ideal) S_ .f32 0x47C35000#32))) (Host.divf (W8 (F := Ideal) m ρ c (Proc.devRef .tc main_v35_0)) (broadcastInDim S1x128 ![] bcast_S_S1x128 (constant (F := Ideal) S_ .f32 0x47C35000#32)))) := by
  dsimp only [W9]; after_results

set_option maxHeartbeats 400000 in
/-- From the column sums and sums of squares of the values before normalisation to the reference's mean and variance. -/
theorem stats1 (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (hS : ∀ j : Fin 128, W8 (F := Ideal) m ρ c (Proc.devRef .tc main_v35_0) (ix2 (0 : Fin 1) j) = ∑ r : Fin 100000, val_main_v32 (F := Ideal) x0 x1 x2 x3 x4 (ix2 r j))
    (hQ : ∀ j : Fin 128, W8 (F := Ideal) m ρ c (Proc.devRef .tc main_v35_1) (ix2 (0 : Fin 1) j) = ∑ r : Fin 100000, val_main_v32 (F := Ideal) x0 x1 x2 x3 x4 (ix2 r j) * val_main_v32 (F := Ideal) x0 x1 x2 x3 x4 (ix2 r j))
    (hY : ∀ (r : Fin 100000) (j : Fin 128), Cert.Lib.IsReal (val_main_v32 (F := Ideal) x0 x1 x2 x3 x4 (ix2 r j))) :
    (∀ j : Fin 128, W9 (F := Ideal) m ρ c (Proc.devRef .tc main_v37) (ix2 (0 : Fin 1) j) = val_main_v35 (F := Ideal) x0 x1 x2 x3 x4 (ix1 j)) ∧
    (∀ j : Fin 128, W9 (F := Ideal) m ρ c (Proc.devRef .tc main_v41) (ix2 (0 : Fin 1) j) = val_main_v42 (F := Ideal) x0 x1 x2 x3 x4 (ix1 j)) := by
  refine ⟨fun j => ?_, fun j => ?_⟩
  · rw [v37_eq, Cert.RefSide.v35_at x0 x1 x2 x3 x4 j, ← hS j]; rfl
  · rw [v41_eq, Cert.RefSide.v42_at x0 x1 x2 x3 x4 hY j, ← hS j, ← hQ j]; rfl

/-- The host stretch's mean row is the quotient of the sum row by the constant row. -/
theorem v56_eq : W13 (F := Ideal) m ρ c (Proc.devRef .tc main_v56) = Host.divf (W12 (F := Ideal) m ρ c (Proc.devRef .tc main_v54_0)) (broadcastInDim S1x128 ![] bcast_S_S1x128 (constant (F := Ideal) S_ .f32 0x47C35000#32)) := by
  dsimp only [W13]; after_results

/-- The host stretch's variance row: (sum of squares) / constant − mean · mean. -/
theorem v60_eq : W13 (F := Ideal) m ρ c (Proc.devRef .tc main_v60) = subf (Host.divf (W12 (F := Ideal) m ρ c (Proc.devRef .tc main_v54_1)) (broadcastInDim S1x128 ![] bcast_S_S1x128 (constant (F := Ideal) S_ .f32 0x47C35000#32)))
      (mulf (Host.divf (W12 (F := Ideal) m ρ c (Proc.devRef .tc main_v54_0)) (broadcastInDim S1x128 ![] bcast_S_S1x128 (constant (F := Ideal) S_ .f32 0x47C35000#32))) (Host.divf (W12 (F := Ideal) m ρ c (Proc.devRef .tc main_v54_0)) (broadcastInDim S1x128 ![] bcast_S_S1x128 (constant (F := Ideal) S_ .f32 0x47C35000#32)))) := by
  dsimp only [W13]; after_results

set_option maxHeartbeats 400000 in
/-- From the column sums and sums of squares of the values before normalisation to the reference's mean and variance. -/
theorem stats2 (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (hS : ∀ j : Fin 128, W12 (F := Ideal) m ρ c (Proc.devRef .tc main_v54_0) (ix2 (0 : Fin 1) j) = ∑ r : Fin 100000, val_main_v91 (F := Ideal) x0 x1 x2 x3 x4 x5 x6 x7 x8 (ix2 r j))
    (hQ : ∀ j : Fin 128, W12 (F := Ideal) m ρ c (Proc.devRef .tc main_v54_1) (ix2 (0 : Fin 1) j) = ∑ r : Fin 100000, val_main_v91 (F := Ideal) x0 x1 x2 x3 x4 x5 x6 x7 x8 (ix2 r j) * val_main_v91 (F := Ideal) x0 x1 x2 x3 x4 x5 x6 x7 x8 (ix2 r j))
    (hY : ∀ (r : Fin 100000) (j : Fin 128), Cert.Lib.IsReal (val_main_v91 (F := Ideal) x0 x1 x2 x3 x4 x5 x6 x7 x8 (ix2 r j))) :
    (∀ j : Fin 128, W13 (F := Ideal) m ρ c (Proc.devRef .tc main_v56) (ix2 (0 : Fin 1) j) = val_main_v94 (F := Ideal) x0 x1 x2 x3 x4 x5 x6 x7 x8 (ix1 j)) ∧
    (∀ j : Fin 128, W13 (F := Ideal) m ρ c (Proc.devRef .tc main_v60) (ix2 (0 : Fin 1) j) = val_main_v101 (F := Ideal) x0 x1 x2 x3 x4 x5 x6 x7 x8 (ix1 j)) := by
  refine ⟨fun j => ?_, fun j => ?_⟩
  · rw [v56_eq, Cert.RefSide.v94_at x0 x1 x2 x3 x4 x5 x6 x7 x8 j, ← hS j]; rfl
  · rw [v60_eq, Cert.RefSide.v101_at x0 x1 x2 x3 x4 x5 x6 x7 x8 hY j, ← hS j, ← hQ j]; rfl

/-- The values before normalisation, from typed names of the three operand arrays: aggregate · in-degree scaling + bias. -/
theorem y1_of (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v24 (F := Ideal) x0 x1 x2 x3)
    (h1 : ∀ r : Fin 100000, A1 (ix2 r (0 : Fin 1)) = val_main_v26 (F := Ideal) x2 (ix1 r))
    (h2 : ∀ j : Fin 128, A2 (ix2 (0 : Fin 1) j) = x4 (ix1 j)) (r : Fin 100000) (j : Fin 128) :
    A0 (ix2 r j) * A1 (ix2 r (0 : Fin 1)) + A2 (ix2 (0 : Fin 1) j) = val_main_v32 (F := Ideal) x0 x1 x2 x3 x4 (ix2 r j) := by
  rw [Cert.RefSide.v32_at x0 x1 x2 x3 x4 r j, h0, h1 r, h2 j]

/-- Their column sums. -/
theorem y1_of_sum (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v24 (F := Ideal) x0 x1 x2 x3)
    (h1 : ∀ r : Fin 100000, A1 (ix2 r (0 : Fin 1)) = val_main_v26 (F := Ideal) x2 (ix1 r))
    (h2 : ∀ j : Fin 128, A2 (ix2 (0 : Fin 1) j) = x4 (ix1 j)) (j : Fin 128) :
    ∑ r : Fin 100000, (A0 (ix2 r j) * A1 (ix2 r (0 : Fin 1)) + A2 (ix2 (0 : Fin 1) j)) = ∑ r : Fin 100000, val_main_v32 (F := Ideal) x0 x1 x2 x3 x4 (ix2 r j) :=
  Finset.sum_congr rfl fun r _ => y1_of x0 x1 x2 x3 x4 A0 A1 A2 h0 h1 h2 r j

/-- The column sums of their squares. -/
theorem y1_of_sumsq (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v24 (F := Ideal) x0 x1 x2 x3)
    (h1 : ∀ r : Fin 100000, A1 (ix2 r (0 : Fin 1)) = val_main_v26 (F := Ideal) x2 (ix1 r))
    (h2 : ∀ j : Fin 128, A2 (ix2 (0 : Fin 1) j) = x4 (ix1 j)) (j : Fin 128) :
    ∑ r : Fin 100000, (A0 (ix2 r j) * A1 (ix2 r (0 : Fin 1)) + A2 (ix2 (0 : Fin 1) j)) * (A0 (ix2 r j) * A1 (ix2 r (0 : Fin 1)) + A2 (ix2 (0 : Fin 1) j)) = ∑ r : Fin 100000, val_main_v32 (F := Ideal) x0 x1 x2 x3 x4 (ix2 r j) * val_main_v32 (F := Ideal) x0 x1 x2 x3 x4 (ix2 r j) :=
  Finset.sum_congr rfl fun r _ => by rw [y1_of x0 x1 x2 x3 x4 A0 A1 A2 h0 h1 h2 r j]

/-- The values before normalisation, from typed names of the three operand arrays: aggregate · in-degree scaling + bias. -/
theorem y2_of (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v83 (F := Ideal) x0 x1 x2 x3 x4 x5 x6 x7)
    (h1 : ∀ r : Fin 100000, A1 (ix2 r (0 : Fin 1)) = val_main_v26 (F := Ideal) x2 (ix1 r))
    (h2 : ∀ j : Fin 128, A2 (ix2 (0 : Fin 1) j) = x8 (ix1 j)) (r : Fin 100000) (j : Fin 128) :
    A0 (ix2 r j) * A1 (ix2 r (0 : Fin 1)) + A2 (ix2 (0 : Fin 1) j) = val_main_v91 (F := Ideal) x0 x1 x2 x3 x4 x5 x6 x7 x8 (ix2 r j) := by
  rw [Cert.RefSide.v91_at x0 x1 x2 x3 x4 x5 x6 x7 x8 r j, h0, h1 r, h2 j, Cert.RefSide.v85_eq x2]

/-- Their column sums. -/
theorem y2_of_sum (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v83 (F := Ideal) x0 x1 x2 x3 x4 x5 x6 x7)
    (h1 : ∀ r : Fin 100000, A1 (ix2 r (0 : Fin 1)) = val_main_v26 (F := Ideal) x2 (ix1 r))
    (h2 : ∀ j : Fin 128, A2 (ix2 (0 : Fin 1) j) = x8 (ix1 j)) (j : Fin 128) :
    ∑ r : Fin 100000, (A0 (ix2 r j) * A1 (ix2 r (0 : Fin 1)) + A2 (ix2 (0 : Fin 1) j)) = ∑ r : Fin 100000, val_main_v91 (F := Ideal) x0 x1 x2 x3 x4 x5 x6 x7 x8 (ix2 r j) :=
  Finset.sum_congr rfl fun r _ => y2_of x0 x1 x2 x3 x4 x5 x6 x7 x8 A0 A1 A2 h0 h1 h2 r j

/-- The column sums of their squares. -/
theorem y2_of_sumsq (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (A0 : Vec Ideal S100000x128 .f32) (A1 : Vec Ideal S100000x1 .f32) (A2 : Vec Ideal S1x128 .f32)
    (h0 : A0 = val_main_v83 (F := Ideal) x0 x1 x2 x3 x4 x5 x6 x7)
    (h1 : ∀ r : Fin 100000, A1 (ix2 r (0 : Fin 1)) = val_main_v26 (F := Ideal) x2 (ix1 r))
    (h2 : ∀ j : Fin 128, A2 (ix2 (0 : Fin 1) j) = x8 (ix1 j)) (j : Fin 128) :
    ∑ r : Fin 100000, (A0 (ix2 r j) * A1 (ix2 r (0 : Fin 1)) + A2 (ix2 (0 : Fin 1) j)) * (A0 (ix2 r j) * A1 (ix2 r (0 : Fin 1)) + A2 (ix2 (0 : Fin 1) j)) = ∑ r : Fin 100000, val_main_v91 (F := Ideal) x0 x1 x2 x3 x4 x5 x6 x7 x8 (ix2 r j) * val_main_v91 (F := Ideal) x0 x1 x2 x3 x4 x5 x6 x7 x8 (ix2 r j) :=
  Finset.sum_congr rfl fun r _ => by rw [y2_of x0 x1 x2 x3 x4 x5 x6 x7 x8 A0 A1 A2 h0 h1 h2 r j]

set_option maxHeartbeats 400000 in
/-- Region 1's two output rows are the column sums and the column sums of squares of the reference's values before
    normalisation, when its three operand arrays hold the aggregate, the in-degree scaling and the bias. -/
theorem sums1 (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (h34 : W7 (F := Ideal) m ρ c (Proc.devRef .tc main_v34) = val_main_v24 (F := Ideal) x0 x1 x2 x3)
    (h15 : ∀ r : Fin 100000, W5 (F := Ideal) m ρ c (Proc.devRef .tc main_v15) (ix2 r (0 : Fin 1)) = val_main_v26 (F := Ideal) x2 (ix1 r))
    (h16 : ∀ j : Fin 128, W5 (F := Ideal) m ρ c (Proc.devRef .tc main_v16) (ix2 (0 : Fin 1) j) = x4 (ix1 j)) :
    (∀ j : Fin 128, W8 (F := Ideal) m ρ c (Proc.devRef .tc main_v35_0) (ix2 (0 : Fin 1) j) = ∑ r : Fin 100000, val_main_v32 (F := Ideal) x0 x1 x2 x3 x4 (ix2 r j)) ∧
    (∀ j : Fin 128, W8 (F := Ideal) m ρ c (Proc.devRef .tc main_v35_1) (ix2 (0 : Fin 1) j) = ∑ r : Fin 100000, val_main_v32 (F := Ideal) x0 x1 x2 x3 x4 (ix2 r j) * val_main_v32 (F := Ideal) x0 x1 x2 x3 x4 (ix2 r j)) := by
  have h1 : ∀ r : Fin 100000, W7 (F := Ideal) m ρ c (Proc.devRef .tc main_v15) (ix2 r (0 : Fin 1)) = val_main_v26 (F := Ideal) x2 (ix1 r) :=
    fun r => by rw [Cert.KernelIdeal.Keep.keep_v15_7_5 m ρ c]; exact h15 r
  have h2 : ∀ j : Fin 128, W7 (F := Ideal) m ρ c (Proc.devRef .tc main_v16) (ix2 (0 : Fin 1) j) = x4 (ix1 j) :=
    fun j => by rw [Cert.KernelIdeal.Keep.keep_v16_7_5 m ρ c]; exact h16 j
  refine ⟨fun j => ?_, fun j => ?_⟩
  · exact ((congrFun (W8_arr m ρ c 3) (ix2 (0 : Fin 1) j)).trans
      (Cert.KernelIdeal.Reg1.arr_sum_of (V7 m ρ) c (W7 (F := Ideal) m ρ c (Proc.devRef .tc main_v34)) (W7 (F := Ideal) m ρ c (Proc.devRef .tc main_v15)) (W7 (F := Ideal) m ρ c (Proc.devRef .tc main_v16)) rfl rfl rfl j)).trans
      (y1_of_sum x0 x1 x2 x3 x4 (W7 (F := Ideal) m ρ c (Proc.devRef .tc main_v34)) (W7 (F := Ideal) m ρ c (Proc.devRef .tc main_v15)) (W7 (F := Ideal) m ρ c (Proc.devRef .tc main_v16)) h34 h1 h2 j)
  · exact ((congrFun (W8_arr m ρ c 4) (ix2 (0 : Fin 1) j)).trans
      (Cert.KernelIdeal.Reg1.arr_sumsq_of (V7 m ρ) c (W7 (F := Ideal) m ρ c (Proc.devRef .tc main_v34)) (W7 (F := Ideal) m ρ c (Proc.devRef .tc main_v15)) (W7 (F := Ideal) m ρ c (Proc.devRef .tc main_v16)) rfl rfl rfl j)).trans
      (y1_of_sumsq x0 x1 x2 x3 x4 (W7 (F := Ideal) m ρ c (Proc.devRef .tc main_v34)) (W7 (F := Ideal) m ρ c (Proc.devRef .tc main_v15)) (W7 (F := Ideal) m ρ c (Proc.devRef .tc main_v16)) h34 h1 h2 j)

set_option maxHeartbeats 400000 in
/-- Region 3's two output rows are the column sums and the column sums of squares of the reference's values before
    normalisation, when its three operand arrays hold the aggregate, the in-degree scaling and the bias. -/
theorem sums2 (x0 : (⟨Cert.ReferenceIdeal.S100000x128, .f32⟩ : BufTy).Contents (Elt Ideal)) (x1 : (⟨Cert.ReferenceIdeal.S1000000, .i32⟩ : BufTy).Contents (Elt Ideal)) (x2 : (⟨Cert.ReferenceIdeal.S1000000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h53 : W11 (F := Ideal) m ρ c (Proc.devRef .tc main_v53) = val_main_v83 (F := Ideal) x0 x1 x2 x3 x4 x5 x6 x7)
    (h15 : ∀ r : Fin 100000, W5 (F := Ideal) m ρ c (Proc.devRef .tc main_v15) (ix2 r (0 : Fin 1)) = val_main_v26 (F := Ideal) x2 (ix1 r))
    (h19 : ∀ j : Fin 128, W5 (F := Ideal) m ρ c (Proc.devRef .tc main_v19) (ix2 (0 : Fin 1) j) = x8 (ix1 j)) :
    (∀ j : Fin 128, W12 (F := Ideal) m ρ c (Proc.devRef .tc main_v54_0) (ix2 (0 : Fin 1) j) = ∑ r : Fin 100000, val_main_v91 (F := Ideal) x0 x1 x2 x3 x4 x5 x6 x7 x8 (ix2 r j)) ∧
    (∀ j : Fin 128, W12 (F := Ideal) m ρ c (Proc.devRef .tc main_v54_1) (ix2 (0 : Fin 1) j) = ∑ r : Fin 100000, val_main_v91 (F := Ideal) x0 x1 x2 x3 x4 x5 x6 x7 x8 (ix2 r j) * val_main_v91 (F := Ideal) x0 x1 x2 x3 x4 x5 x6 x7 x8 (ix2 r j)) := by
  have h1 : ∀ r : Fin 100000, W11 (F := Ideal) m ρ c (Proc.devRef .tc main_v15) (ix2 r (0 : Fin 1)) = val_main_v26 (F := Ideal) x2 (ix1 r) :=
    fun r => by rw [Cert.KernelIdeal.Keep.keep_v15_11_5 m ρ c]; exact h15 r
  have h2 : ∀ j : Fin 128, W11 (F := Ideal) m ρ c (Proc.devRef .tc main_v19) (ix2 (0 : Fin 1) j) = x8 (ix1 j) :=
    fun j => by rw [Cert.KernelIdeal.Keep.keep_v19_11_5 m ρ c]; exact h19 j
  refine ⟨fun j => ?_, fun j => ?_⟩
  · exact ((congrFun (W12_arr m ρ c 3) (ix2 (0 : Fin 1) j)).trans
      (Cert.KernelIdeal.Reg3.arr_sum_of (V11 m ρ) c (W11 (F := Ideal) m ρ c (Proc.devRef .tc main_v53)) (W11 (F := Ideal) m ρ c (Proc.devRef .tc main_v15)) (W11 (F := Ideal) m ρ c (Proc.devRef .tc main_v19)) rfl rfl rfl j)).trans
      (y2_of_sum x0 x1 x2 x3 x4 x5 x6 x7 x8 (W11 (F := Ideal) m ρ c (Proc.devRef .tc main_v53)) (W11 (F := Ideal) m ρ c (Proc.devRef .tc main_v15)) (W11 (F := Ideal) m ρ c (Proc.devRef .tc main_v19)) h53 h1 h2 j)
  · exact ((congrFun (W12_arr m ρ c 4) (ix2 (0 : Fin 1) j)).trans
      (Cert.KernelIdeal.Reg3.arr_sumsq_of (V11 m ρ) c (W11 (F := Ideal) m ρ c (Proc.devRef .tc main_v53)) (W11 (F := Ideal) m ρ c (Proc.devRef .tc main_v15)) (W11 (F := Ideal) m ρ c (Proc.devRef .tc main_v19)) rfl rfl rfl j)).trans
      (y2_of_sumsq x0 x1 x2 x3 x4 x5 x6 x7 x8 (W11 (F := Ideal) m ρ c (Proc.devRef .tc main_v53)) (W11 (F := Ideal) m ρ c (Proc.devRef .tc main_v15)) (W11 (F := Ideal) m ρ c (Proc.devRef .tc main_v19)) h53 h1 h2 j)

end Cert.KernelIdeal.StageS
-- ==== Proof.FinPre.lean ====
/- From the finiteness precondition to real entries. The precondition is the conjunction, over the eleven float
   arguments, of "every entry has absolute value below +∞", each computed as a reduction by "and" of the elementwise
   comparison. On the extended reals the absolute value is max x (−x), which is +∞ at both infinities, so an entry that
   passes the comparison is the image of a real number. -/
import proofs.«155254_j19997367730788_2_alg».proof.Defs
import proofs.«155254_j19997367730788_2_alg».proof.Proof.LibStats
import Idealize.ShloMosaic.Lib.ReduceAll
import Idealize.ShloMosaic.Lib.ValueIdx

namespace Cert.FinPre

open Idealize.ShloMosaic Idealize.SL.Sem Cert.Lib

/-- A shape of rank zero has exactly one index. -/
instance : Subsingleton Cert.Pre_finite_inputs.S_.Idx := ⟨fun a b => funext fun d => d.elim0⟩

/-- The single-precision pattern 0x7F800000 is +∞. -/
theorem ofBits_inf : Ideal.ofBits .f32 0x7F800000#32 = (⊤ : EReal) := by
  simp [Ideal.ofBits, Ideal.ieee]

/-- An extended real whose absolute value max x (−x) is below +∞ is the image of a real number. -/
theorem isReal_of_abs_lt_top (x : EReal) (h : max x (-x) < ⊤) : IsReal x := by
  induction x using EReal.rec with
  | bot => simp at h
  | coe r => exact ⟨r, rfl⟩
  | top => simp at h

/-- If the "and" over all entries of "|x| < +∞" is true, then every entry of x is a real number. -/
theorem real_of_all {S : Shape} {axes : List (Fin S.rank)} (x : FVec Ideal S .f32)
    (bc : Cert.Pre_finite_inputs.S_.BroadcastsInDim S (![] : Fin 0 → Fin S.rank))
    (h : S.ReducesTo axes Cert.Pre_finite_inputs.S_) (hu : 0 < Cert.Pre_finite_inputs.S_.numel)
    (e : Host.reduce IntOp.andi (cmpf .olt (Host.absf x)
          (broadcastInDim S ![] bc (constant (F := Ideal) Cert.Pre_finite_inputs.S_ .f32 0x7F800000#32)))
        (constantI Cert.Pre_finite_inputs.S_ 1 1#1) h hu ValueIdx.ix0 = 1#1) (i : S.Idx) : IsReal (x i) := by
  have h1 := Host.reduce_andi_all _ _ h hu ValueIdx.ix0 e i
  have h2 : Ideal.cmp .olt (max (x i) (-(x i))) (Ideal.ofBits .f32 0x7F800000#32) = 1#1 := h1
  rw [ofBits_inf] at h2
  refine isReal_of_abs_lt_top (x i) ?_
  unfold Ideal.cmp at h2
  by_contra hc
  simp [hc] at h2

/-- Under the finiteness precondition every entry of each of the eleven float arguments is a real number. -/
theorem real_args [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧
    (∀ i, IsReal (m ((c.tc : Thread Cert.KernelIdeal.nD Cert.KernelIdeal.τ).loc Cert.KernelIdeal.main_arg5) i)) ∧
    (∀ i, IsReal (m ((c.tc : Thread Cert.KernelIdeal.nD Cert.KernelIdeal.τ).loc Cert.KernelIdeal.main_arg6) i)) ∧
    (∀ i, IsReal (m ((c.tc : Thread Cert.KernelIdeal.nD Cert.KernelIdeal.τ).loc Cert.KernelIdeal.main_arg7) i)) ∧
    (∀ i, IsReal (m ((c.tc : Thread Cert.KernelIdeal.nD Cert.KernelIdeal.τ).loc Cert.KernelIdeal.main_arg8) i)) ∧
    (∀ i, IsReal (m ((c.tc : Thread Cert.KernelIdeal.nD Cert.KernelIdeal.τ).loc Cert.KernelIdeal.main_arg9) i)) ∧
    (∀ i, IsReal (m ((c.tc : Thread Cert.KernelIdeal.nD Cert.KernelIdeal.τ).loc Cert.KernelIdeal.main_arg10) i)) ∧
    (∀ i, IsReal (m ((c.tc : Thread Cert.KernelIdeal.nD Cert.KernelIdeal.τ).loc Cert.KernelIdeal.main_arg11) i)) ∧
    (∀ i, IsReal (m ((c.tc : Thread Cert.KernelIdeal.nD Cert.KernelIdeal.τ).loc Cert.KernelIdeal.main_arg12) i)) := by
  have h' := congrFun (h c) ValueIdx.ix0
  dsimp only [Cert.Pre_finite_inputs.fn, Cert.Pre_finite_inputs.fn_part1, Cert.Pre_finite_inputs.fn_part2, Cert.Pre_finite_inputs.fn_part3] at h'
  obtain ⟨h', h12⟩ := IntOp.andi_eq_one.1 (show IntOp.andi _ _ = 1#1 from h')
  obtain ⟨h', h11⟩ := IntOp.andi_eq_one.1 (show IntOp.andi _ _ = 1#1 from h')
  obtain ⟨h', h10⟩ := IntOp.andi_eq_one.1 (show IntOp.andi _ _ = 1#1 from h')
  obtain ⟨h', h9⟩ := IntOp.andi_eq_one.1 (show IntOp.andi _ _ = 1#1 from h')
  obtain ⟨h', h8⟩ := IntOp.andi_eq_one.1 (show IntOp.andi _ _ = 1#1 from h')
  obtain ⟨h', h7⟩ := IntOp.andi_eq_one.1 (show IntOp.andi _ _ = 1#1 from h')
  obtain ⟨h', h6⟩ := IntOp.andi_eq_one.1 (show IntOp.andi _ _ = 1#1 from h')
  obtain ⟨h', h5⟩ := IntOp.andi_eq_one.1 (show IntOp.andi _ _ = 1#1 from h')
  obtain ⟨h', h4⟩ := IntOp.andi_eq_one.1 (show IntOp.andi _ _ = 1#1 from h')
  obtain ⟨h', h3⟩ := IntOp.andi_eq_one.1 (show IntOp.andi _ _ = 1#1 from h')
  exact ⟨real_of_all _ _ _ _ h', real_of_all _ _ _ _ h3, real_of_all _ _ _ _ h4, real_of_all _ _ _ _ h5, real_of_all _ _ _ _ h6, real_of_all _ _ _ _ h7, real_of_all _ _ _ _ h8, real_of_all _ _ _ _ h9, real_of_all _ _ _ _ h10, real_of_all _ _ _ _ h11, real_of_all _ _ _ _ h12⟩

end Cert.FinPre
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.LibGatherRows.lean ====
/-
  StableHLO's gather of whole rows by row number (`table[idx]` over rows), read at one element: rows of a matrix
  gathered by row number, and elements of a vector gathered by element number.

  The dimension numbers are the ones such a gather is written with: the start indices are an `[N, 1]` array whose
  second axis holds the one-component index vector; that component names the operand's axis 0, which is a collapsed
  axis of slice size 1; the operand's remaining axis (the columns, for rows) is taken whole and is the result's offset
  axis. Result element `(p, k)` is then operand element `(r, k)` where `r` is the start index `idx[p, 0]`, read signed and
  clamped into `[0, R − 1]` (a negative index reads row 0, one past the end reads the last row).
-/
import Idealize.ShloMosaic.PureOps.Ideal
import Idealize.ShloMosaic.Lib.ValueIdx

noncomputable section

namespace Cert.LibGatherRows

open Idealize.ShloMosaic Idealize.ShloMosaic.ValueIdx

section Rows
variable {α : Type} {R N K : Nat}

/-- The dimension numbers of a gather of rows of width `K` by row number. -/
abbrev rowsDims
    (wf : GatherDims.WF (⟨2, ![R, K]⟩ : Shape) (⟨2, ![N, 1]⟩ : Shape) (⟨2, ![N, K]⟩ : Shape) [1] [0] [] [0] [] 1 ![1, K]) :
    GatherDims (⟨2, ![R, K]⟩ : Shape) (⟨2, ![N, 1]⟩ : Shape) (⟨2, ![N, K]⟩ : Shape) where
  offsetDims := [1]
  collapsedSliceDims := [0]
  operandBatchingDims := []
  startIndicesBatchingDims := []
  startIndexMap := [0]
  indexVectorDim := 1
  sliceSizes := ![1, K]
  wf := wf

set_option maxHeartbeats 400000 in
/-- The start of result element `(p, k)`'s slice on the operand's row axis is the `p`-th start index, read signed and
    clamped into `[0, R − 1]`. -/
theorem rows_start_zero (wf) {w : Nat} (idx : IVec (⟨2, ![N, 1]⟩ : Shape) w) (p : Fin N) (k : Fin K) :
    (rowsDims (R := R) wf).start (ix2 p k) idx 0 = min (idx (ix2 p (0 : Fin 1))).toInt.toNat (R - 1) := by
  unfold GatherDims.start
  rw [dif_pos (show (0 : Fin 2) ∈ (rowsDims (R := R) (N := N) (K := K) wf).startIndexMap from List.mem_singleton.mpr rfl)]
  have hsi : (rowsDims (R := R) wf).siIdx (ix2 p k) ⟨List.idxOf (0 : Fin 2) (rowsDims (R := R) (N := N) (K := K) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- The start index map does not name the operand's column axis: the slice starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold GatherDims.start
  rw [dif_neg (show (1 : Fin 2) ∉ [(0 : Fin 2)] from by decide)]

set_option maxHeartbeats 400000 in
/-- The operand's row axis is collapsed: the offset coordinate on it is `0`. -/
theorem rows_offCoord_zero (wf) (j : (⟨2, ![N, K]⟩ : Shape).Idx) :
    (rowsDims (R := R) wf).offCoord j 0 = 0 :=
  GatherDims.offCoord_eq_zero _ _ _ (fun h => ((GatherDims.mem_sKept _ _).mp h).1 (List.mem_singleton.mpr rfl))

set_option maxHeartbeats 400000 in
/-- The offset coordinate on the operand's column axis is the result element's column. -/
theorem rows_offCoord_one (wf) (j : (⟨2, ![N, K]⟩ : Shape).Idx) :
    (rowsDims (R := R) wf).offCoord j 1 = (j 1).val := by
  unfold GatherDims.offCoord
  exact (dif_pos (show (1 : Fin 2) ∈ (List.finRange 2).filter (fun a => a ∉ [(0 : Fin 2)] ++ []) from by decide)).trans rfl

set_option maxHeartbeats 400000 in
/-- Rows gathered by row number, read at one element, for the literal dimension numbers: element `(p, k)` of the result
    is the operand's element `(r, k)`, `r` the `p`-th start index read signed and clamped into `[0, R − 1]`. -/
theorem hostGather_rowsDims_apply (hR : 0 < R)
    (wf : GatherDims.WF (⟨2, ![R, K]⟩ : Shape) (⟨2, ![N, 1]⟩ : Shape) (⟨2, ![N, K]⟩ : Shape) [1] [0] [] [0] [] 1 ![1, K])
    {w : Nat} (x : (⟨2, ![R, K]⟩ : Shape).Idx → α) (idx : IVec (⟨2, ![N, 1]⟩ : Shape) w) (p : Fin N) (k : Fin K) :
    Host.gather (rowsDims wf) x idx (ix2 p k)
      = x (ix2 (⟨min (idx (ix2 p (0 : Fin 1))).toInt.toNat (R - 1), by omega⟩ : Fin R) k) := by
  unfold Host.gather
  congr 1
  funext a
  refine Fin.ext ?_
  match a with
  | ⟨0, _⟩ =>
    show (rowsDims (R := R) wf).start (ix2 p k) idx 0 + (rowsDims (R := R) wf).batchCoord (ix2 p k) 0
        + (rowsDims (R := R) wf).offCoord (ix2 p k) 0 = min (idx (ix2 p (0 : Fin 1))).toInt.toNat (R - 1)
    rw [GatherDims.batchCoord_eq_zero _ _ _ List.not_mem_nil, rows_offCoord_zero, rows_start_zero]
    rfl
  | ⟨1, _⟩ =>
    show (rowsDims (R := R) wf).start (ix2 p k) idx 1 + (rowsDims (R := R) wf).batchCoord (ix2 p k) 1
        + (rowsDims (R := R) wf).offCoord (ix2 p k) 1 = k.val
    rw [GatherDims.batchCoord_eq_zero _ _ _ List.not_mem_nil, rows_offCoord_one, rows_start_one]
    exact Nat.zero_add _

/-- Rows of width `K` gathered by row number (`x[idx]` over rows), read at one element: element `(p, k)` of the
    result is `x (r, k)` where `r` is the `p`-th start index, read signed and clamped into `[0, R − 1]`. -/
theorem hostGather_rows_apply {α : Type} {R N K w : Nat} (hR : 0 < R)
    (d : GatherDims (⟨2, ![R, K]⟩ : Shape) (⟨2, ![N, 1]⟩ : Shape) (⟨2, ![N, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![R, K]⟩ : Shape).Idx → α) (idx : IVec (⟨2, ![N, 1]⟩ : Shape) w) (p : Fin N) (k : Fin K) :
    Host.gather d x idx (ix2 p k)
      = x (ix2 (⟨min (idx (ix2 p (0 : Fin 1))).toInt.toNat (R - 1), by omega⟩ : Fin R) k) := by
  obtain ⟨od, cs, ob, sb, sm, iv, ss, wf⟩ := d
  dsimp only at hod hcs hob hsb hsm hiv hss
  subst hod hcs hob hsb hsm hiv hss
  exact hostGather_rowsDims_apply hR wf x idx p k

end Rows

section Vec
variable {α : Type} {R N : Nat}

/-- The dimension numbers of a gather of a vector's elements by element number. -/
abbrev vecDims
    (wf : GatherDims.WF (⟨1, ![R]⟩ : Shape) (⟨2, ![N, 1]⟩ : Shape) (⟨1, ![N]⟩ : Shape) [] [0] [] [0] [] 1 ![1]) :
    GatherDims (⟨1, ![R]⟩ : Shape) (⟨2, ![N, 1]⟩ : Shape) (⟨1, ![N]⟩ : Shape) where
  offsetDims := []
  collapsedSliceDims := [0]
  operandBatchingDims := []
  startIndicesBatchingDims := []
  startIndexMap := [0]
  indexVectorDim := 1
  sliceSizes := ![1]
  wf := wf

set_option maxHeartbeats 400000 in
/-- The start of result element `p`'s slice on the operand's one axis is the `p`-th start index, read signed and
    clamped into `[0, R − 1]`. -/
theorem vec_start_zero (wf) {w : Nat} (idx : IVec (⟨2, ![N, 1]⟩ : Shape) w) (p : Fin N) :
    (vecDims (R := R) wf).start (ix1 p) idx 0 = min (idx (ix2 p (0 : Fin 1))).toInt.toNat (R - 1) := by
  unfold GatherDims.start
  rw [dif_pos (show (0 : Fin 1) ∈ (vecDims (R := R) (N := N) wf).startIndexMap from List.mem_singleton.mpr rfl)]
  have hsi : (vecDims (R := R) wf).siIdx (ix1 p) ⟨List.idxOf (0 : Fin 1) (vecDims (R := R) (N := N) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- A vector's elements gathered by element number, read at one element, for the literal dimension numbers: element
    `p` of the result is the operand's element `r`, `r` the `p`-th start index read signed and clamped into `[0, R − 1]`. -/
theorem hostGather_vecDims_apply (hR : 0 < R)
    (wf : GatherDims.WF (⟨1, ![R]⟩ : Shape) (⟨2, ![N, 1]⟩ : Shape) (⟨1, ![N]⟩ : Shape) [] [0] [] [0] [] 1 ![1])
    {w : Nat} (x : (⟨1, ![R]⟩ : Shape).Idx → α) (idx : IVec (⟨2, ![N, 1]⟩ : Shape) w) (p : Fin N) :
    Host.gather (vecDims wf) x idx (ix1 p)
      = x (ix1 (⟨min (idx (ix2 p (0 : Fin 1))).toInt.toNat (R - 1), by omega⟩ : Fin R)) := by
  unfold Host.gather
  congr 1
  funext a
  refine Fin.ext ?_
  match a with
  | ⟨0, _⟩ =>
    show (vecDims (R := R) wf).start (ix1 p) idx 0 + (vecDims (R := R) wf).batchCoord (ix1 p) 0
        + (vecDims (R := R) wf).offCoord (ix1 p) 0 = min (idx (ix2 p (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl)),
      vec_start_zero]
    rfl

/-- A vector's elements gathered by element number (`x[idx]` of a flat array), read at one element: element `p` of the
    result is `x r` where `r` is the `p`-th start index, read signed and clamped into `[0, R − 1]`. -/
theorem hostGather_vec_apply {α : Type} {R N w : Nat} (hR : 0 < R)
    (d : GatherDims (⟨1, ![R]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![R]⟩ : Shape).Idx → α) (idx : IVec (⟨2, ![N, 1]⟩ : Shape) w) (p : Fin N) :
    Host.gather d x idx (ix1 p)
      = x (ix1 (⟨min (idx (ix2 p (0 : Fin 1))).toInt.toNat (R - 1), by omega⟩ : Fin R)) := by
  obtain ⟨od, cs, ob, sb, sm, iv, ss, wf⟩ := d
  dsimp only at hod hcs hob hsb hsm hiv hss
  subst hod hcs hob hsb hsm hiv hss
  exact hostGather_vecDims_apply hR wf x idx p

end Vec

end Cert.LibGatherRows

end
-- ==== Proof.FinOps.lean ====
/- The data-dependent operations of the two-layer graph convolution keep real entries real (an extended real is real
   when it is the image of a real number). A gather only copies entries; an accumulating scatter adds to each entry of
   its operand a finite sum of entries of the update; a power of two real numbers is a real number. So the degree
   scalings (max 1 (count))^(-1/2) are real, and the aggregate (scatter-add into zeros of the gathered rows) of a
   real matrix is real. -/
import proofs.«155254_j19997367730788_2_alg».proof.Proof.Gen.ReferenceIdeal.Read
import proofs.«155254_j19997367730788_2_alg».proof.Proof.LibStats
import proofs.«155254_j19997367730788_2_alg».proof.Proof.LibScatterRows
import proofs.«155254_j19997367730788_2_alg».proof.Proof.LibGatherRows

namespace Cert.FinOps

open Idealize.ShloMosaic Idealize.ShloMosaic.ValueIdx Cert.Lib Cert.ReferenceIdeal Cert.ReferenceIdeal.Read

/-- The single-precision pattern 0x3F800000 is the real number 1. -/
theorem ofBits_one : Ideal.ofBits .f32 0x3F800000#32 = ((1 : ℝ) : EReal) := by
  simp [Ideal.ofBits, Ideal.ieee, -EReal.coe_mul]; norm_num

/-- The single-precision pattern 0xBF000000 is the real number -1/2. -/
theorem ofBits_neg_half : Ideal.ofBits .f32 0xBF000000#32 = ((-(1 / 2) : ℝ) : EReal) := by
  simp [Ideal.ofBits, Ideal.ieee, -EReal.coe_mul, -EReal.coe_neg]; norm_num

/-- The single-precision pattern of zero is real. -/
theorem isReal_ofBits_zero : IsReal (Ideal.ofBits .f32 0x00000000#32) := by
  rw [Ideal.ofBits_zero_f32]; exact isReal_zero

/-- The single-precision pattern of one is real. -/
theorem isReal_ofBits_one : IsReal (Ideal.ofBits .f32 0x3F800000#32) := ⟨_, ofBits_one⟩

/-- The single-precision pattern of -1/2 is real. -/
theorem isReal_ofBits_neg_half : IsReal (Ideal.ofBits .f32 0xBF000000#32) := ⟨_, ofBits_neg_half⟩

/-- A power of two real numbers is real (the real power function is total). -/
theorem isReal_pow {x y : EReal} (hx : IsReal x) (hy : IsReal y) : IsReal (Ideal.pow x y) := by
  obtain ⟨a, rfl⟩ := hx; obtain ⟨b, rfl⟩ := hy; exact ⟨Real.rpow a b, rfl⟩

/-- An accumulating scatter of real updates into a real operand has real entries: each entry is the operand's entry
    plus a finite sum of update entries. -/
theorem isReal_scatterAdd {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (isReal_sum _ _ (fun j _ => hu j))

/-- A gather from an array with real entries has real entries: each entry is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- The aggregate of a real matrix is real: for any array with real entries and any index arrays, the accumulating
    scatter into a real operand of the gather has real entries. -/
theorem isReal_scatterAdd_gather {s si t si' : Shape} {w w' : Nat} (dg : GatherDims s si t) (ds : ScatterDims s si' t)
    (h : FVec Ideal s .f32) (gi : IVec si w) (z : FVec Ideal s .f32) (sidx : IVec si' w')
    (hh : ∀ i, IsReal (h i)) (hz : ∀ i, IsReal (z i)) (i : s.Idx) :
    IsReal (Host.scatterAdd ds z sidx (Host.gather dg h gi) i) :=
  isReal_scatterAdd ds z sidx _ hz (isReal_gather dg h gi hh) i

/-- The out-degree scaling (max 1 (number of edges leaving r))^(-1/2) is real. -/
theorem oi_real (x1 : (⟨S1000000, .i32⟩ : BufTy).Contents (Elt Ideal)) (r : Fin 100000) :
    IsReal (val_main_v10 (F := Ideal) x1 (ix1 r)) := by
  rw [val_main_v10_apply]
  refine isReal_pow ?_ ?_
  · rw [val_main_v4_apply]
    refine IsReal.max ?_ ?_
    · rw [val_main_call0_v1_apply, val_main_call0_v0_apply, val_main_cst_1_apply]; exact isReal_ofBits_one
    · refine isReal_scatterAdd _ _ _ _ (fun i => ?_) (fun j => ?_) _
      · rw [val_main_v1_apply, val_main_cst_0_apply]; exact isReal_ofBits_zero
      · rw [val_main_v0_apply, val_main_cst_apply]; exact isReal_ofBits_one
  · rw [val_main_v9_apply, val_main_cst_4_apply]; exact isReal_ofBits_neg_half

/-- The in-degree scaling (max 1 (number of edges entering r))^(-1/2) is real. -/
theorem ii_real (x2 : (⟨S1000000, .i32⟩ : BufTy).Contents (Elt Ideal)) (r : Fin 100000) :
    IsReal (val_main_v26 (F := Ideal) x2 (ix1 r)) := by
  rw [val_main_v26_apply]
  refine isReal_pow ?_ ?_
  · rw [val_main_v8_apply]
    refine IsReal.max ?_ ?_
    · rw [val_main_call1_v1_apply, val_main_call1_v0_apply, val_main_cst_3_apply]; exact isReal_ofBits_one
    · refine isReal_scatterAdd _ _ _ _ (fun i => ?_) (fun j => ?_) _
      · rw [val_main_v5_apply, val_main_cst_2_apply]; exact isReal_ofBits_zero
      · rw [val_main_v0_apply, val_main_cst_apply]; exact isReal_ofBits_one
  · rw [val_main_v25_apply, val_main_cst_7_apply]; exact isReal_ofBits_neg_half

/-- The first layer's aggregate (segment sum by destination of the rows gathered by source) of a real matrix is real. -/
theorem agg1_real (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal))
    (h : ∀ (r : Fin 100000) (k : Fin 128), IsReal (val_main_v14 (F := Ideal) x0 x1 x3 (ix2 r k)))
    (r : Fin 100000) (k : Fin 128) : IsReal (val_main_v24 (F := Ideal) x0 x1 x2 x3 (ix2 r k)) := by
  unfold val_main_v24 val_main_v21
  refine isReal_scatterAdd_gather _ _ _ _ _ _ (fun i => ?_) (fun i => ?_) _
  · rw [eq_ix2 i]; exact h _ _
  · rw [val_main_v22_apply, val_main_cst_6_apply]; exact isReal_ofBits_zero

/-- The second layer's aggregate of a real matrix is real. -/
theorem agg2_real (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal))
    (h : ∀ (r : Fin 100000) (k : Fin 128), IsReal (val_main_v73 (F := Ideal) x0 x1 x2 x3 x4 x5 x6 x7 (ix2 r k)))
    (r : Fin 100000) (k : Fin 128) : IsReal (val_main_v83 (F := Ideal) x0 x1 x2 x3 x4 x5 x6 x7 (ix2 r k)) := by
  unfold val_main_v83 val_main_v80
  refine isReal_scatterAdd_gather _ _ _ _ _ _ (fun i => ?_) (fun i => ?_) _
  · rw [eq_ix2 i]; exact h _ _
  · rw [val_main_v81_apply, val_main_cst_21_apply]; exact isReal_ofBits_zero

end Cert.FinOps
-- ==== Proof.FinRef.lean ====
/- The values the batch statistics of the two-layer graph convolution are taken over are real numbers when the float
   inputs are real (an extended real is real when it is the image of a real number). Every stage is followed in order:
   the degree scalings are real; a product, sum, difference, maximum and finite sum of reals is real; the aggregate
   (a segment sum of gathered rows) of a real matrix is real; the mean of reals is real; the mean of squared deviations
   of reals is a real number that is not negative, so adding the positive constant and taking the reciprocal square
   root gives a real number. -/
import proofs.«155254_j19997367730788_2_alg».proof.Proof.FinOps

namespace Cert.FinRef

open Idealize.ShloMosaic Idealize.ShloMosaic.ValueIdx Cert.Lib Cert.FinOps Cert.ReferenceIdeal Cert.ReferenceIdeal.Read

/-! ### Real numbers that are not negative -/

/-- An extended real that is the image of a real number that is not negative. -/
def IsNN (x : EReal) : Prop := ∃ r : ℝ, 0 ≤ r ∧ x = (r : EReal)

/-- A real number that is not negative is real. -/
theorem IsNN.isReal {x : EReal} (h : IsNN x) : IsReal x := by
  obtain ⟨r, _, e⟩ := h; exact ⟨r, e⟩

/-- Zero is a real number that is not negative. -/
theorem isNN_zero : IsNN (0 : EReal) := ⟨0, le_rfl, EReal.coe_zero.symm⟩

/-- The sum of two real numbers that are not negative is a real number that is not negative. -/
theorem IsNN.add {x y : EReal} (hx : IsNN x) (hy : IsNN y) : IsNN (x + y) := by
  obtain ⟨a, ha, rfl⟩ := hx; obtain ⟨c, hc, rfl⟩ := hy
  exact ⟨a + c, add_nonneg ha hc, (EReal.coe_add a c).symm⟩

/-- The square of a real is a real number that is not negative. -/
theorem isNN_mul_self {x : EReal} (hx : IsReal x) : IsNN (x * x) := by
  obtain ⟨a, rfl⟩ := hx; exact ⟨a * a, mul_self_nonneg a, (EReal.coe_mul a a).symm⟩

/-- A finite sum of real numbers that are not negative is a real number that is not negative. -/
theorem isNN_sum {ι : Type*} (s : Finset ι) (f : ι → EReal) (h : ∀ i ∈ s, IsNN (f i)) : IsNN (∑ i ∈ s, f i) := by
  classical
  induction s using Finset.induction_on with
  | empty => rw [Finset.sum_empty]; exact isNN_zero
  | insert a s ha ih =>
    rw [Finset.sum_insert ha]
    exact (h a (Finset.mem_insert_self a s)).add (ih (fun i hi => h i (Finset.mem_insert_of_mem hi)))

/-- The quotient of a real number that is not negative by a positive real number is a real number that is not negative. -/
theorem IsNN.div {x : EReal} (hx : IsNN x) {N : ℝ} (hN : 0 < N) : IsNN (Ideal.div x (N : EReal)) := by
  obtain ⟨a, ha, rfl⟩ := hx
  exact ⟨a * (1 / N), mul_nonneg ha (one_div_nonneg.mpr hN.le), div_coe_coe a hN.ne'⟩

/-- A real number that is not negative, plus a positive real number, has a real reciprocal square root. -/
theorem IsNN.rsqrt_add {x : EReal} (hx : IsNN x) {e : ℝ} (he : 0 < e) :
    IsReal (Ideal.rsqrt (x + (e : EReal))) := by
  obtain ⟨a, ha, rfl⟩ := hx; exact Cert.Lib.isReal_rsqrt_add ha he

/-- The single-precision pattern 0x47C35000 is the real number 100000 = (2²³ + 4411392) · 2⁻⁷. -/
theorem ofBits_100000 : Ideal.ofBits .f32 0x47C35000#32 = ((100000 : ℝ) : EReal) := by
  simp [Ideal.ofBits, Ideal.ieee, -EReal.coe_mul]; norm_num

/-! ### The degree scalings at every index, and the second layer's recomputed ones -/

/-- The out-degree scaling is real at every index. -/
theorem oi_all (x1 : (⟨S1000000, .i32⟩ : BufTy).Contents (Elt Ideal)) (i : S100000.Idx) : IsReal (val_main_v10 (F := Ideal) x1 i) := by
  rw [eq_ix1 i]; exact oi_real x1 _

/-- The in-degree scaling is real at every index. -/
theorem ii_all (x2 : (⟨S1000000, .i32⟩ : BufTy).Contents (Elt Ideal)) (i : S100000.Idx) : IsReal (val_main_v26 (F := Ideal) x2 i) := by
  rw [eq_ix1 i]; exact ii_real x2 _

/-- The out-degree scaling as the second layer recomputes it is real. -/
theorem oi2_all (x1 : (⟨S1000000, .i32⟩ : BufTy).Contents (Elt Ideal)) (i : S100000.Idx) : IsReal (val_main_v69 (F := Ideal) x1 i) := by
  rw [val_main_v69_apply]
  refine isReal_pow ?_ ?_
  · rw [val_main_v63_apply]
    refine IsReal.max ?_ ?_
    · rw [val_main_call3_v1_apply, val_main_call3_v0_apply, val_main_cst_15_apply]; exact isReal_ofBits_one
    · refine isReal_scatterAdd _ _ _ _ (fun i => ?_) (fun j => ?_) _
      · rw [val_main_v60_apply, val_main_cst_14_apply]; exact isReal_ofBits_zero
      · rw [val_main_v59_apply, val_main_cst_13_apply]; exact isReal_ofBits_one
  · rw [val_main_v68_apply, val_main_cst_18_apply]; exact isReal_ofBits_neg_half

/-- The in-degree scaling as the second layer recomputes it is real. -/
theorem ii2_all (x2 : (⟨S1000000, .i32⟩ : BufTy).Contents (Elt Ideal)) (i : S100000.Idx) : IsReal (val_main_v85 (F := Ideal) x2 i) := by
  rw [val_main_v85_apply]
  refine isReal_pow ?_ ?_
  · rw [val_main_v67_apply]
    refine IsReal.max ?_ ?_
    · rw [val_main_call4_v1_apply, val_main_call4_v0_apply, val_main_cst_17_apply]; exact isReal_ofBits_one
    · refine isReal_scatterAdd _ _ _ _ (fun i => ?_) (fun j => ?_) _
      · rw [val_main_v64_apply, val_main_cst_16_apply]; exact isReal_ofBits_zero
      · rw [val_main_v59_apply, val_main_cst_13_apply]; exact isReal_ofBits_one
  · rw [val_main_v84_apply, val_main_cst_22_apply]; exact isReal_ofBits_neg_half

/-! ### The first layer -/

/-- The scaled features x · (out-degree scaling) are real. -/
theorem v13_all (x0 : (⟨S100000x128, .f32⟩ : BufTy).Contents (Elt Ideal)) (x1 : (⟨S1000000, .i32⟩ : BufTy).Contents (Elt Ideal)) (h0 : ∀ i, IsReal (x0 i)) (i : S100000x128.Idx) :
    IsReal (val_main_v13 (F := Ideal) x0 x1 i) := by
  rw [val_main_v13_apply, val_main_v12_apply, val_main_v11_apply]
  exact (h0 i).mul (oi_all x1 _)

/-- Their product with the first weight matrix is real. -/
theorem v14_real (x0 : (⟨S100000x128, .f32⟩ : BufTy).Contents (Elt Ideal)) (x1 : (⟨S1000000, .i32⟩ : BufTy).Contents (Elt Ideal)) (x3 : (⟨S128x128, .f32⟩ : BufTy).Contents (Elt Ideal)) (h0 : ∀ i, IsReal (x0 i)) (h3 : ∀ i, IsReal (x3 i)) (r : Fin 100000) (k : Fin 128) :
    IsReal (val_main_v14 (F := Ideal) x0 x1 x3 (ix2 r k)) := by
  rw [val_main_v14_apply]
  exact isReal_sum_univ _ (fun q => (v13_all x0 x1 h0 _).mul (h3 _))

/-- The first layer's values before normalisation, (aggregate) · (in-degree scaling) + bias, are real at every index. -/
theorem v32_all (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (i : S100000x128.Idx) :
    IsReal (val_main_v32 (F := Ideal) x0 x1 x2 x3 x4 i) := by
  rw [val_main_v32_apply, val_main_v29_apply, val_main_v28_apply, val_main_v27_apply, val_main_v31_apply,
    val_main_v30_apply]
  refine IsReal.add (IsReal.mul ?_ (ii_all x2 _)) (h4 _)
  rw [eq_ix2 i]
  exact agg1_real x0 x1 x2 x3 (v14_real x0 x1 x3 h0 h3) _ _

/-- The first layer's values before normalisation are real. -/
theorem y1_real (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (r : Fin 100000) (j : Fin 128) :
    IsReal (val_main_v32 (F := Ideal) x0 x1 x2 x3 x4 (ix2 r j)) :=
  v32_all x0 x1 x2 x3 x4 h0 h3 h4 _

/-- The column means are real. -/
theorem v35_all (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (i : S128.Idx) :
    IsReal (val_main_v35 (F := Ideal) x0 x1 x2 x3 x4 i) := by
  rw [val_main_v35_apply, val_main_v33_apply, val_main_v34_apply, val_main_cst_9_apply, val_main_cst_8_apply]
  show IsReal (Ideal.div (Ideal.ofBits .f32 0x00000000#32 + _) (Ideal.ofBits .f32 0x47C35000#32))
  rw [ofBits_100000]
  exact (isReal_ofBits_zero.add (isReal_sum_univ _ (fun q => v32_all x0 x1 x2 x3 x4 h0 h3 h4 _))).div (by norm_num)

/-- The deviations from the column means are real. -/
theorem v38_all (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (i : S100000x128.Idx) :
    IsReal (val_main_v38 (F := Ideal) x0 x1 x2 x3 x4 i) := by
  rw [val_main_v38_apply, val_main_v37_apply, val_main_v36_apply]
  exact (v32_all x0 x1 x2 x3 x4 h0 h3 h4 _).sub (v35_all x0 x1 x2 x3 x4 h0 h3 h4 _)

/-- The column variances (means of the squared deviations) are real numbers that are not negative. -/
theorem v42_nn (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (i : S128.Idx) :
    IsNN (val_main_v42 (F := Ideal) x0 x1 x2 x3 x4 i) := by
  rw [val_main_v42_apply, val_main_v40_apply, val_main_v41_apply, val_main_cst_11_apply, val_main_cst_10_apply]
  show IsNN (Ideal.div (Ideal.ofBits .f32 0x00000000#32 + _) (Ideal.ofBits .f32 0x47C35000#32))
  rw [ofBits_100000, Ideal.ofBits_zero_f32]
  refine (isNN_zero.add (isNN_sum _ _ (fun q _ => ?_))).div (by norm_num)
  rw [val_main_v39_apply]
  exact isNN_mul_self (v38_all x0 x1 x2 x3 x4 h0 h3 h4 _)

/-- The reciprocal square roots of (variance + the positive constant) are real. -/
theorem v48_all (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (h0 : ∀ i, IsReal (x0 i)) (h3 : ∀ i, IsReal (x3 i)) (h4 : ∀ i, IsReal (x4 i)) (i : S128.Idx) :
    IsReal (val_main_v48 (F := Ideal) x0 x1 x2 x3 x4 i) := by
  rw [val_main_v48_apply, val_main_v47_apply, val_main_v46_apply, val_main_cst_12_apply]
  show IsReal (Ideal.rsqrt (_ + Ideal.ofBits .f32 0x3727C5AC#32))
  obtain ⟨e, he, hE⟩ := ofBits_eps
  rw [hE]
  exact (v42_nn x0 x1 x2 x3 x4 h0 h3 h4 i).rsqrt_add he

/-- The first layer's output, max (normalised · scale + shift) 0, is real. -/
theorem v58_all (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (i : S100000x128.Idx) :
    IsReal (val_main_v58 (F := Ideal) x0 x1 x2 x3 x4 x5 x6 i) := by
  rw [val_main_v58_apply, val_main_v57_apply, val_main_v54_apply, val_main_v51_apply, val_main_v45_apply,
    val_main_v44_apply, val_main_v43_apply, val_main_v50_apply, val_main_v49_apply, val_main_v53_apply,
    val_main_v52_apply, val_main_v56_apply, val_main_v55_apply, val_main_call2_v0_apply, val_main_call2_cst_apply]
  refine IsReal.max (IsReal.add (IsReal.mul (IsReal.mul (IsReal.sub ?_ ?_) ?_) (h5 _)) (h6 _)) isReal_ofBits_zero
  · exact v32_all x0 x1 x2 x3 x4 h0 h3 h4 _
  · exact v35_all x0 x1 x2 x3 x4 h0 h3 h4 _
  · exact v48_all x0 x1 x2 x3 x4 h0 h3 h4 _

/-! ### The second layer -/

/-- The second layer's product with its weight matrix is real. -/
theorem v73_real (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (r : Fin 100000) (k : Fin 128) :
    IsReal (val_main_v73 (F := Ideal) x0 x1 x2 x3 x4 x5 x6 x7 (ix2 r k)) := by
  rw [val_main_v73_apply]
  refine isReal_sum_univ _ (fun q => IsReal.mul ?_ (h7 _))
  rw [val_main_v72_apply, val_main_v71_apply, val_main_v70_apply]
  exact (v58_all x0 x1 x2 x3 x4 x5 x6 h0 h3 h4 h5 h6 _).mul (oi2_all x1 _)

/-- The second layer's values before normalisation are real. -/
theorem y2_real (x0 : (⟨S100000x128, .f32⟩ : BufTy).Contents (Elt Ideal)) (x1 : (⟨S1000000, .i32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (r : Fin 100000) (j : Fin 128) :
    IsReal (val_main_v91 (F := Ideal) x0 x1 x2 x3 x4 x5 x6 x7 x8 (ix2 r j)) := by
  rw [val_main_v91_apply, val_main_v88_apply, val_main_v87_apply, val_main_v86_apply, val_main_v90_apply,
    val_main_v89_apply]
  exact ((agg2_real x0 x1 x2 x3 x4 x5 x6 x7 (v73_real x0 x1 x2 x3 x4 x5 x6 x7 h0 h3 h4 h5 h6 h7) r j).mul (ii2_all x2 _)).add (h8 _)

end Cert.FinRef
-- ==== Proof.Assemble.lean ====
/-
  The value claim. Both idealized programs compute, on the extended reals, a two-layer graph convolution with batch
  normalisation: per layer the rows are scaled by the out-degree's inverse square root, multiplied by the weights,
  gathered along the edges' sources and summed at their targets, scaled by the in-degree's inverse square root and
  shifted by the bias; the batch mean and variance over the 100000 rows normalise each column, then gain, shift and
  the positive part; a last matrix product and bias give the scores. The kernel computes each layer's dense part
  block by block (20 blocks of 5000 rows), its column sums and sums of squares by a running accumulator over the
  blocks, and the variance as the mean of the squares minus the square of the mean; the reference sums whole
  columns and takes the mean of the squared deviations. Sums over the blocks regroup freely; the two variances agree
  because every entry summed is a real number, which the finiteness of the inputs gives. The result array is followed
  through the boundaries of the kernel's run, each boundary's contents identified with a stage of the reference.
-/
import proofs.«155254_j19997367730788_2_alg».proof.Defs
import proofs.«155254_j19997367730788_2_alg».proof.Proof.KRun
import proofs.«155254_j19997367730788_2_alg».proof.Proof.Keep
import proofs.«155254_j19997367730788_2_alg».proof.Proof.Entry
import proofs.«155254_j19997367730788_2_alg».proof.Proof.StageH
import proofs.«155254_j19997367730788_2_alg».proof.Proof.StageA
import proofs.«155254_j19997367730788_2_alg».proof.Proof.StageS
import proofs.«155254_j19997367730788_2_alg».proof.Proof.FinPre
import proofs.«155254_j19997367730788_2_alg».proof.Proof.FinRef
import proofs.«155254_j19997367730788_2_alg».proof.Proof.RefRead
import proofs.«155254_j19997367730788_2_alg».proof.Proof.Gen.Pre_finite_inputs
import proofs.«155254_j19997367730788_2_alg».proof.Proof.Gen.ReferenceIdeal.Run
import proofs.«155254_j19997367730788_2_alg».proof.Proof.Gen.ReferenceIdeal.Read

set_option maxRecDepth 16384

noncomputable section
namespace Cert.Proof.Alg
open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- Argument 0 as launched. -/
abbrev X0 := m ((c : Thread nD τ).loc main_arg0)
/-- Argument 1 as launched. -/
abbrev X1 := m ((c : Thread nD τ).loc main_arg1)
/-- Argument 2 as launched. -/
abbrev X2 := m ((c : Thread nD τ).loc main_arg2)
/-- Argument 3 as launched. -/
abbrev X3 := m ((c : Thread nD τ).loc main_arg3)
/-- Argument 4 as launched. -/
abbrev X4 := m ((c : Thread nD τ).loc main_arg4)
/-- Argument 5 as launched. -/
abbrev X5 := m ((c : Thread nD τ).loc main_arg5)
/-- Argument 6 as launched. -/
abbrev X6 := m ((c : Thread nD τ).loc main_arg6)
/-- Argument 7 as launched. -/
abbrev X7 := m ((c : Thread nD τ).loc main_arg7)
/-- Argument 8 as launched. -/
abbrev X8 := m ((c : Thread nD τ).loc main_arg8)
/-- Argument 9 as launched. -/
abbrev X9 := m ((c : Thread nD τ).loc main_arg9)
/-- Argument 10 as launched. -/
abbrev X10 := m ((c : Thread nD τ).loc main_arg10)
/-- Argument 11 as launched. -/
abbrev X11 := m ((c : Thread nD τ).loc main_arg11)
/-- Argument 12 as launched. -/
abbrev X12 := m ((c : Thread nD τ).loc main_arg12)

set_option maxHeartbeats 1000000 in
/-- The kernel's result array, at the last boundary of its run, is the reference's last stage of the arguments. -/
theorem result_eq [hPre_finite_inputs : Cert.Pre_finite_inputs.Facts] (hpre : Cert.Pre_KernelIdeal m) :
    W14 (F := Ideal) m ρ c (Proc.devRef .tc main_v61)
      = Cert.ReferenceIdeal.Read.val_main_v121 (F := Ideal) (X0 m c) (X1 m c) (X2 m c) (X3 m c) (X4 m c) (X5 m c) (X6 m c) (X7 m c) (X8 m c) (X9 m c) (X10 m c) (X11 m c) (X12 m c) := by
  obtain ⟨r0, r3, r4, r5, r6, r7, r8, r9, r10, r11, r12⟩ := Cert.FinPre.real_args m hpre c
  have hY1 := fun r j => Cert.FinRef.y1_real (X0 m c) (X1 m c) (X2 m c) (X3 m c) (X4 m c) r0 r3 r4 r j
  have hY2 := fun r j => Cert.FinRef.y2_real (X0 m c) (X1 m c) (X2 m c) (X3 m c) (X4 m c) (X5 m c) (X6 m c) (X7 m c) (X8 m c) r0 r3 r4 r5 r6 r7 r8 r j
  -- the degree columns and the reshaped rows at region 0's entry
  have e7 : ∀ r : Fin 100000, W5 (F := Ideal) m ρ c (Proc.devRef .tc main_v7) (ix2 r (0 : Fin 1))
      = Cert.ReferenceIdeal.Read.val_main_v10 (F := Ideal) (X1 m c) (ix1 r) := fun r =>
    (Cert.KernelIdeal.Entry.v7_at m ρ c r).trans (congrFun (Cert.KernelIdeal.StageH.v6 m ρ c) (ix1 r))
  have e15 : ∀ r : Fin 100000, W5 (F := Ideal) m ρ c (Proc.devRef .tc main_v15) (ix2 r (0 : Fin 1))
      = Cert.ReferenceIdeal.Read.val_main_v26 (F := Ideal) (X2 m c) (ix1 r) := fun r =>
    (Cert.KernelIdeal.Entry.v15_at m ρ c r).trans (congrFun (Cert.KernelIdeal.StageH.v14 m ρ c) (ix1 r))
  have e16 := Cert.KernelIdeal.Entry.v16_at m ρ c
  have e17 := Cert.KernelIdeal.Entry.v17_at m ρ c
  have e18 := Cert.KernelIdeal.Entry.v18_at m ρ c
  have e19 := Cert.KernelIdeal.Entry.v19_at m ρ c
  have e20 := Cert.KernelIdeal.Entry.v20_at m ρ c
  have e21 := Cert.KernelIdeal.Entry.v21_at m ρ c
  have e22 := Cert.KernelIdeal.Entry.v22_at m ρ c
  -- layer 1
  have h23 := Cert.KernelIdeal.StageA.v23 m ρ c (X0 m c) (X1 m c) (X3 m c)
    (Cert.KernelIdeal.Keep.keep_arg0_5_0 m ρ c) (Cert.KernelIdeal.Keep.keep_arg3_5_0 m ρ c) e7
  have h34 := Cert.KernelIdeal.StageH.v34 m ρ c (X0 m c) (X1 m c) (X2 m c) (X3 m c) h23
    (Cert.KernelIdeal.Keep.keep_arg1_6_0 m ρ c) (Cert.KernelIdeal.Keep.keep_arg2_6_0 m ρ c)
  obtain ⟨hS1, hQ1⟩ := Cert.KernelIdeal.StageS.sums1 m ρ c (X0 m c) (X1 m c) (X2 m c) (X3 m c) (X4 m c) h34 e15 e16
  obtain ⟨h37, h41⟩ := Cert.KernelIdeal.StageS.stats1 m ρ c (X0 m c) (X1 m c) (X2 m c) (X3 m c) (X4 m c) hS1 hQ1 hY1
  have h42 := Cert.KernelIdeal.StageA.v42 m ρ c (X0 m c) (X1 m c) (X2 m c) (X3 m c) (X4 m c) (X5 m c) (X6 m c) (X7 m c) h34 e15 e16 e17 e18 h37 h41 e7
    (Cert.KernelIdeal.Keep.keep_arg7_9_0 m ρ c)
  -- layer 2
  have h53 := Cert.KernelIdeal.StageH.v53 m ρ c (X0 m c) (X1 m c) (X2 m c) (X3 m c) (X4 m c) (X5 m c) (X6 m c) (X7 m c) h42
    (Cert.KernelIdeal.Keep.keep_arg1_10_0 m ρ c) (Cert.KernelIdeal.Keep.keep_arg2_10_0 m ρ c)
  obtain ⟨hS2, hQ2⟩ := Cert.KernelIdeal.StageS.sums2 m ρ c (X0 m c) (X1 m c) (X2 m c) (X3 m c) (X4 m c) (X5 m c) (X6 m c) (X7 m c) (X8 m c) h53 e15 e19
  obtain ⟨h56, h60⟩ := Cert.KernelIdeal.StageS.stats2 m ρ c (X0 m c) (X1 m c) (X2 m c) (X3 m c) (X4 m c) (X5 m c) (X6 m c) (X7 m c) (X8 m c) hS2 hQ2 hY2
  exact Cert.KernelIdeal.StageA.v61 m ρ c (X0 m c) (X1 m c) (X2 m c) (X3 m c) (X4 m c) (X5 m c) (X6 m c) (X7 m c) (X8 m c) (X9 m c) (X10 m c) (X11 m c) (X12 m c) h53 e15 e19 e20 e21 h56 h60
    (Cert.KernelIdeal.Keep.keep_arg11_13_0 m ρ c) e22

end Cert.Proof.Alg

namespace Cert.Proof
open Idealize.ShloMosaic Idealize.SL.Sem

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 1000000 in
/-- From memories agreeing on the arguments both idealized programs end with the same result array: the kernel's run
    names its result at the last boundary, which is the reference's last stage of the arguments; the reference's run
    ends at the same stage of arguments that agree. -/
theorem algebraic : Cert.algebraic_KernelIdeal_ReferenceIdeal := by
  intro m ρ m' ρ' hpre hagree
  refine ⟨fun c => Cert.ReferenceIdeal.Read.val_main_v121 (F := Ideal) (Alg.X0 m c) (Alg.X1 m c) (Alg.X2 m c) (Alg.X3 m c) (Alg.X4 m c) (Alg.X5 m c) (Alg.X6 m c) (Alg.X7 m c) (Alg.X8 m c) (Alg.X9 m c) (Alg.X10 m c) (Alg.X11 m c) (Alg.X12 m c), ?_, ?_⟩
  · exact (θ_run Cert.KernelIdeal.defs _ _).mono (fun r h c => ⟨(h c).1.trans (Alg.result_eq m ρ c hpre), (h c).2⟩)
      (Cert.KernelIdeal.KRun.run_value m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v121_eq, a0, a1, a2, a3, a4, a5, a6, a7, a8, a9, a10, a11, a12]

end Cert.Proof
end
-- ==== Proof.lean ====
/-
  The certificate's claim assembled: the word-level kernel's frame and the idealized kernel's frame are the generated
  frame certificates; the reference's frame is its generated run with the result dropped; the idealization rewrote no
  operation, so that claim is trivial; the value claim — the idealized kernel and the idealized reference, run from
  memories agreeing on the arguments, end with equal result arrays on the extended reals — is Proof/Assemble.lean's,
  over the regions' values (Proof/Reg0 … Reg4), the host stretches read against the reference's stages
  (Proof/Entry, Proof/StageH, Proof/StageA, Proof/StageS), the reference's stages at an index (Proof/RefRead) and the
  realness of the batch statistics' data under the finite-input precondition (Proof/FinPre, Proof/FinOps, Proof/FinRef).
-/
import proofs.«155254_j19997367730788_2_alg».proof.Defs
import proofs.«155254_j19997367730788_2_alg».proof.Proof.Assemble
import proofs.«155254_j19997367730788_2_alg».proof.Proof.Gen.Kernel
import proofs.«155254_j19997367730788_2_alg».proof.Proof.Gen.Kernel.Skeleton
import proofs.«155254_j19997367730788_2_alg».proof.Proof.Gen.Kernel.Launch
import proofs.«155254_j19997367730788_2_alg».proof.Proof.Gen.Kernel.Points
import proofs.«155254_j19997367730788_2_alg».proof.Proof.Gen.Kernel.Frame
import proofs.«155254_j19997367730788_2_alg».proof.Proof.Gen.KernelIdeal
import proofs.«155254_j19997367730788_2_alg».proof.Proof.Gen.KernelIdeal.Skeleton
import proofs.«155254_j19997367730788_2_alg».proof.Proof.Gen.KernelIdeal.Launch
import proofs.«155254_j19997367730788_2_alg».proof.Proof.Gen.KernelIdeal.Points
import proofs.«155254_j19997367730788_2_alg».proof.Proof.Gen.KernelIdeal.Frame
import proofs.«155254_j19997367730788_2_alg».proof.Proof.Gen.ReferenceIdeal
import proofs.«155254_j19997367730788_2_alg».proof.Proof.Gen.Pre_finite_inputs
import proofs.«155254_j19997367730788_2_alg».proof.Proof.Gen.ReferenceIdeal.Run
import proofs.«155254_j19997367730788_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
